-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩
abbrev S4096 : Shape := ⟨1, ![4096]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x1, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_11 : BitVec 32 := 0#32
  let v35 : BitVec 1 := Scalar.cmpi .ne v34 c0_i32_11
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  transposes_S512x512_p1_0_S512x512 : S512x512.Transposes [1, 0] S512x512
  iota_S512x512_d0_w32 : S512x512.Iotas .tc 32 [0]
  iota_S512x512_d1_w32 : S512x512.Iotas .tc 32 [1]
  shapeCasts_S4096x1_S4096 : S4096x1.ShapeCasts S4096
  reducesTo_S4096_S_d0 : S4096.ReducesTo [0] S_
  h_S_ : 0 < S_.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S4096x512, .f32⟩
  | .hbm, ⟨11, _⟩ => ⟨S512x4096, .f32⟩
  | .hbm, ⟨12, _⟩ => ⟨S4096x4096, .f32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S_, .i1⟩
  | .hbm, ⟨44, _⟩ => ⟨S4096, .i1⟩
  | .hbm, ⟨45, _⟩ => ⟨S4096, .i1⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x1, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1, .f32⟩
  | .hbm, ⟨73, _⟩ => ⟨S4096x4096, .f32⟩
  | .hbm, ⟨74, _⟩ => ⟨S4096x4096, .f32⟩
  | .hbm, ⟨75, _⟩ => ⟨S4096x1, .i32⟩
  | .hbm, ⟨76, _⟩ => ⟨S_, .i32⟩
  | .hbm, ⟨77, _⟩ => ⟨S4096x1, .i32⟩
  | .hbm, ⟨78, _⟩ => ⟨S4096x1, .i1⟩
  | .hbm, ⟨79, _⟩ => ⟨S_, .i32⟩
  | .hbm, ⟨80, _⟩ => ⟨S4096x1, .i32⟩
  | .hbm, ⟨81, _⟩ => ⟨S4096x1, .i32⟩
  | .hbm, ⟨82, _⟩ => ⟨S4096x1, .i32⟩
  | .hbm, ⟨83, _⟩ => ⟨S4096x1x1, .i32⟩
  | .hbm, ⟨84, _⟩ => ⟨S1, .i32⟩
  | .hbm, ⟨85, _⟩ => ⟨S_, .i32⟩
  | .hbm, ⟨86, _⟩ => ⟨S4096x1x1, .i32⟩
  | .hbm, ⟨87, _⟩ => ⟨S4096x1x1, .i1⟩
  | .hbm, ⟨88, _⟩ => ⟨S1x1x1, .i32⟩
  | .hbm, ⟨89, _⟩ => ⟨S4096x1x1, .i32⟩
  | .hbm, ⟨90, _⟩ => ⟨S4096x1x1, .i1⟩
  | .hbm, ⟨91, _⟩ => ⟨S4096x1x1, .i1⟩
  | .hbm, ⟨92, _⟩ => ⟨S_, .i1⟩
  | .hbm, ⟨93, _⟩ => ⟨S4096x1, .i1⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_c_5 : Ref sig .tc := ⟨.hbm, 54, rfl⟩
abbrev main_call3_v0 : Ref sig .tc := ⟨.hbm, 55, rfl⟩
abbrev main_call3_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call4_cst : Ref sig .tc := ⟨.hbm, 60, rfl⟩
abbrev main_call4_v0 : Ref sig .tc := ⟨.hbm, 61, rfl⟩
abbrev main_call4_cst_0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_cst_1 : Ref sig .tc := ⟨.hbm, 69, rfl⟩
abbrev main_call4_v7 : Ref sig .tc := ⟨.hbm, 70, rfl⟩
abbrev main_call4_v8 : Ref sig .tc := ⟨.hbm, 71, rfl⟩
abbrev main_call4_v9 : Ref sig .tc := ⟨.hbm, 72, rfl⟩
abbrev main_call4_v10 : Ref sig .tc := ⟨.hbm, 73, rfl⟩
abbrev main_v23 : Ref sig .tc := ⟨.hbm, 74, rfl⟩
abbrev main_v24 : Ref sig .tc := ⟨.hbm, 75, rfl⟩
abbrev main_call5_c : Ref sig .tc := ⟨.hbm, 76, rfl⟩
abbrev main_call5_v0 : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_c_1 : Ref sig .tc := ⟨.hbm, 84, rfl⟩
abbrev main_call5_c_2 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_3 : Ref sig .tc := ⟨.hbm, 92, rfl⟩
abbrev main_call5_v12 : Ref sig .tc := ⟨.hbm, 93, rfl⟩
abbrev main_call5_v13 : Ref sig .tc := ⟨.hbm, 94, rfl⟩
abbrev main_call5_cst : Ref sig .tc := ⟨.hbm, 95, rfl⟩
abbrev main_call5_v14 : Ref sig .tc := ⟨.hbm, 96, rfl⟩
abbrev main_v25 : Ref sig .tc := ⟨.hbm, 97, rfl⟩
abbrev main_cst_6 : Ref sig .tc := ⟨.hbm, 98, rfl⟩
abbrev main_v26 : Ref sig .tc := ⟨.hbm, 99, rfl⟩
abbrev main_cst_7 : Ref sig .tc := ⟨.hbm, 100, rfl⟩
abbrev main_v27 : Ref sig .tc := ⟨.hbm, 101, rfl⟩
abbrev main_v28 : Ref sig .tc := ⟨.hbm, 102, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S4096_d1 : S4096x4096.ReducesTo [1] S4096
  bcast_S4096x1_S4096x4096_0_1 : S4096x1.BroadcastsInDim S4096x4096 (![0, 1] : Fin 2 → Fin S4096x4096.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x512_S512x4096_S4096x4096_1_0_0_1_n_n_wf : DotDims.WF S4096x512 S512x4096 S4096x4096 [1] [0] [0] [1] [] []
  gather_S4096x4096_S4096x1x1_S4096x1_n_1_0_0_1_2_11_wf : GatherDims.WF S4096x4096 S4096x1x1 S4096x1 [] [1] [0] [1] [0] 2 ![1, 1]

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S4096x4096_S4096x1x1_S4096x1_n_1_0_0_1_2_11 : GatherDims S4096x4096 S4096x1x1 S4096x1 where
  offsetDims := []
  collapsedSliceDims := [1]
  operandBatchingDims := [0]
  startIndicesBatchingDims := [0]
  startIndexMap := [1]
  indexVectorDim := 2
  sliceSizes := ![1, 1]
  wf := gather_S4096x4096_S4096x1x1_S4096x1_n_1_0_0_1_2_11_wf

class Facts : Prop extends Facts₀ where

variable [Facts]
-- ==== Proof.BLaunch.lean ====
/-
  The launch of the kernel's program: one kernel region followed by five host operations.

  The region's three windows stand on two arrays: the two input windows read the same array (the rows of x, once by
  block row and once by block column), the output window writes the column of row losses.  At the region's entry the
  input array is therefore split into two half shares, one per input window, and the halves are joined again at the
  exit; the output array passes through at the full share.  After the region the host operations (a reshape, a sum
  from zero, a division by the row count) run over the buffers as the region left them.  The statement proved here is
  for ANY proof data of the region whose arrays are the launch memory's, whose input windows hold the two halves,
  which owes nothing, whose body obligation holds and whose invariant starts and ends at the scratch buffers at
  anything: the program runs, and every unscoped buffer ends at the host operations' contents over the memory with
  the output array replaced by what the region wrote back.
-/
import proofs.«132228_j84499186581515_1_alg».proof.Proof.Gen.Kernel.Launch
import proofs.«132228_j84499186581515_1_alg».proof.Proof.Gen.Kernel.Points
import Idealize.ShloMosaic.Lib.Pipeline.Regions
import Idealize.ShloMosaic.Lib.Pipeline.Frame
import Idealize.ShloMosaic.Lib.Pipeline.Kit
import Idealize.ShloMosaic.Adequacy
import Idealize.ShloMosaic.Init

noncomputable section

namespace Cert.Kernel.Launch

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, as a valuation. -/
abbrev V₀ (c : Dev nD) : Valuation τ sig (Elt F) := fun b => m ((c : Dev nD), b)
/-- The same read at a TensorCore reference: the region is entered from the launch memory. -/
abbrev V (c : Dev nD) (b : Ref sig .tc) : Buf (Elt F) ((c : Thread nD τ).loc b) := m ((c : Thread nD τ).loc b)

variable (dats : (p : Fin 1) → (c : Dev nD) → Dat τ (Elt F) Unit ℕ (UR sig nD τ) ℕ cfg0 c)

/-- The buffers after the region: the output array at what the region wrote back, every other buffer as launched. -/
def V₁ (c : Dev nD) : Valuation τ sig (Elt F) := fun b =>
  if h : b = Proc.devRef .tc main_v0 then h ▸ ((dats 0 c).arrAt 2 cfg0.N) else m ((c : Dev nD), b)

/-! ## What the region needs of its proof data -/

/-- The hypotheses on the proof data. -/
structure Hyp : Prop where
  hA : ∀ c w, (dats 0 c).A w = V m c (Pipeline.arrRef spec0 w)
  hq0 : ∀ c, (dats 0 c).q 0 = fullShare.left
  hq1 : ∀ c, (dats 0 c).q 1 = fullShare.right
  howed : ∀ c t, (dats 0 c).owed t = 0
  hrec : ∀ c t, (dats 0 c).recorded t = Set.univ
  hbody : ∀ c, BodyObligation (dats 0 c) (defs₀ (F := F)) Variants.none () Set.univ
  hin : ∀ c, (Pipeline.ΦA spec0 c : sProp 𝕄) ⊢ (dats 0 c).Φ 0
  hout : ∀ c, (dats 0 c).Φ (Fin.last cfg0.N) ⊢ (Pipeline.ΦA spec0 c : sProp 𝕄)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers: the generator register at some state and the core's owes. -/
abbrev R (c : Dev nD) : sProp 𝕄 :=
  iprop((∃ r, prngReg c r) ∗ ∃ W, owes (c : Thread nD τ) (0 : CellTallies nD τ sig Unit) W)

/-! ## The two arrays behind the three windows -/

/-- The distinct buffers behind the windows' arrays: the input and the output. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)) := by
  unfold Pipeline.arrBufs
  rw [show Finset.univ.image (Pipeline.arrRef spec0) = {main_arg0, main_v0} from by decide]
  rw [BI.bigSep_insert (by decide), BI.bigSep_singleton]
  rfl

variable {m dats}

/-- The proof data's arrays, window by window: the input array's two halves and the output array whole. -/
theorem arrays_eq3 (H : Hyp m dats) (c : Dev nD)
    (Fn : (w : Fin cfg0.W) → Buf (Elt F) ((cfg0.win w).arr.view.loc (c : Thread nD τ))) :
    ((dats 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2)) := by
  unfold Dat.arrays
  rw [bigSep_W0]
  rw [(arr_whole0 0).set_eq_univ, (arr_whole0 2).set_eq_univ]
  rw [show (dats 0 c).share 0 = fullShare.left from by unfold Dat.share; rw [if_neg (by decide)]; exact H.hq0 c,
    show (dats 0 c).share 1 = fullShare.right from by unfold Dat.share; rw [if_neg (by decide)]; exact H.hq1 c,
    show (dats 0 c).share 2 = fullShare from by unfold Dat.share; rw [if_pos (by decide)]]

/-- ENTRY: the two buffers, whole, make the proof data's arrays at their entry contents: the input array is split
    into the two halves its two windows hold. -/
theorem arrays_entry (H : Hyp m dats) (c : Dev nD) :
    (Pipeline.arrBufs spec0 c (V m c) : sProp 𝕄) ⊢ (dats 0 c).arrays ((dats 0 c).arrAt · 0) := by
  rw [arrBufs_eq, arrays_eq3 H]
  have e0 : (dats 0 c).arrAt 0 0 = V m c main_arg0 := H.hA c 0
  have e1 : (dats 0 c).arrAt 1 0 = V m c main_arg0 := H.hA c 1
  have e2 : (dats 0 c).arrAt 2 0 = V m c main_v0 := H.hA c 2
  rw [e0, e1, e2]
  have hs : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  iintro ⟨Ha, Hv⟩
  ihave Hs := hs $$ Ha
  icases Hs with ⟨Hl, Hr⟩
  isplitl [Hl]; · iexact Hl
  isplitl [Hr]; · iexact Hr
  iexact Hv

/-- EXIT: an input window's array is never written, so both halves still hold the launch contents and join; the
    output array holds what the region wrote back. -/
theorem arrays_exit (H : Hyp m dats) (c : Dev nD) :
    ((dats 0 c).arrays ((dats 0 c).arrAt · cfg0.N) : sProp 𝕄)
      ⊢ iprop((((c : Thread nD τ).loc main_arg0) ↦{fullShare} V m c main_arg0)
          ∗ (((c : Thread nD τ).loc main_v0) ↦{fullShare} (dats 0 c).arrAt 2 cfg0.N)) := by
  rw [arrays_eq3 H]
  have e0 : (dats 0 c).arrAt 0 cfg0.N = V m c main_arg0 := ((dats 0 c).arrAt_in 0 rfl _).trans (H.hA c 0)
  have e1 : (dats 0 c).arrAt 1 cfg0.N = V m c main_arg0 := ((dats 0 c).arrAt_in 1 rfl _).trans (H.hA c 1)
  rw [e0, e1]
  iintro ⟨Hl, Hr, Hv⟩
  have hj : iprop((((c : Thread nD τ).loc main_arg0) ↦{fullShare.left} V m c main_arg0) ∗ (((c : Thread nD τ).loc main_arg0) ↦{fullShare.right} V m c main_arg0))
      ⊢ ((((c : Thread nD τ).loc main_arg0) ↦{fullShare} V m c main_arg0) : sProp 𝕄) :=
    (pointsTo_share (PosShare.mem_left_op_right fullShare)).2
  isplitr [Hv]
  · iapply hj
    isplitl [Hl] <;> iassumption
  · iexact Hv

variable (m dats)

/-- A core's unscoped buffers at a valuation: the two arrays' buffers and the five other host buffers. -/
theorem held_eq (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W, Pipeline.unscopedBufs_split₀ cfgs 0 winFacts₀0.arr_unscoped c]

theorem V₁_v0 (c : Dev nD) : V₁ m dats c (Proc.devRef .tc main_v0) = (dats 0 c).arrAt 2 cfg0.N := by
  unfold V₁; rw [dif_pos rfl]

theorem V₁_ne (c : Dev nD) (b : Ref sig .tc) (hb : b ≠ main_v0) :
    V₁ m dats c (Proc.devRef .tc b) = m ((c : Thread nD τ).loc b) := by
  unfold V₁; rw [dif_neg (fun h => hb (Proc.devRef_injective _ h))]

/-- The five other host buffers are as launched after the region. -/
theorem unscopedRest_V₁ (c : Dev nD) :
    (Pipeline.unscopedRest spec0 c (fun b => V₁ m dats c (Proc.devRef .tc b)) : sProp 𝕄) = Pipeline.unscopedRest spec0 c (V m c) := by
  unfold Pipeline.unscopedRest
  refine bigSep_congr fun b hb => ?_
  beta_reduce
  rw [V₁_ne m dats c b (fun h => ?_)]
  subst h
  exact absurd hb (by decide)

/-! ## The region and the host operations after it, as segments -/

variable {m dats}

-- applying a launch lemma stated over the pinned configuration unifies only when unification may unfold plain
-- definitions in a metavariable's type
set_option backward.isDefEq.respectTransparency.types false in
/-- THE REGION: entered from the launch memory — the two arrays into the pipeline (the input split in halves), the
    generator register into the invariant, the five other host buffers bypassing —, left with the output array at
    what the region wrote back. -/
def reg0 (H : Hyp m dats) : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (H.hbody c).loose
  hwaits := Pipeline.hwaits_of_owed_zero _ _ _ _ L lv 0 H.howed
  pre c := iprop(StableHlo.held (c : Thread nD τ) (Pipeline.ucRefs τ sig) (V₀ m c) ∗ R c)
  post c := iprop(StableHlo.held (c : Thread nD τ) (Pipeline.ucRefs τ sig) (V₁ m dats c) ∗ R c)
  X c := iprop(∃ r, prngReg c r)
  Y c := iprop(∃ r, prngReg c r)
  Z c := Pipeline.unscopedRest spec0 c (V m c)
  hentry c := by
    rw [held_eq]
    iintro ⟨⟨⟨Ha, Hrest⟩, Hp, HO⟩, -, -⟩
    ihave Harr := (arrays_entry H c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      rw [H.howed c 0]
      icases HO with ⟨%W, HO⟩; iexists W; isplitr; · ipureintro; exact fun _ _ => Or.inl (by rw [H.hrec c 0]; trivial)
      iexact HO
    isplitl [Hp]; · iexact Hp
    iexact Hrest
  hin c := by
    refine (show _ ⊢ (Pipeline.ΦA spec0 c : sProp 𝕄) from ?_).trans (H.hin c)
    unfold Pipeline.ΦA
    iintro ⟨Hp, -, Hr⟩
    isplitl [Hr] <;> iassumption
  hout c := by
    refine (H.hout c).trans ?_
    rw [Pipeline.ownSems0_none]; unfold Pipeline.ΦA
    iintro ⟨Hr, Hp⟩
    isplitl [Hp]; · iexact Hp
    isplitr; · iempintro
    iexact Hr
  hexit c := by
    rw [held_eq, arrBufs_eq, unscopedRest_V₁, V₁_v0, V₁_ne m dats c main_arg0 (by decide)]
    iintro ⟨Ha, HO, HY, HZ⟩
    ihave Hx := (arrays_exit H c) $$ Ha
    icases Hx with ⟨Harg, Hv⟩
    imodintro
    isplitl [Harg Hv HZ]
    · isplitl [Harg Hv]
      · isplitl [Harg] <;> iassumption
      iexact HZ
    isplitl [HY]; · iexact HY
    unfold Pipeline.Dat.owesAt Pipeline.owesWithin
    rw [H.howed c (Fin.last _)]
    icases HO with ⟨%W, -, HO⟩; iexists W; iexact HO

variable (m dats)

/-- THE HOST OPERATIONS after the region, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m dats) R

/-- What is held at the end: every unscoped buffer at the host operations' contents. -/
abbrev Tₙ (c : Dev nD) : sProp 𝕄 :=
  iprop(StableHlo.held (c : Thread nD τ) (Pipeline.ucRefs τ sig) (StableHlo.after hostOps1 (V₁ m dats c)) ∗ ∃ r, prngReg c r)

variable {m dats}

-- the launch theorem's implicit arguments are found by unifying its conclusion with this one, which takes unfolding plain
-- definitions in a metavariable's type
set_option backward.isDefEq.respectTransparency.types false in
/-- At the compiled mesh, from any memory with zero counters: every weakly fair execution of the program terminates,
    nothing faulting, and every final state has every unscoped buffer at the host operations' contents over the
    memory with the output array at what the region wrote back. -/
theorem run_main (H : Hyp m dats) :
    θ_run defs (onTc (τ := τ) (main (F := F))) (s₀ m ρ) (fun r => ∀ c : Dev nD, ∀ b ∈ Pipeline.ucRefs τ sig,
      r.2.mem ((c : Dev nD), b) = StableHlo.after hostOps1 (V₁ m dats c) b) :=
  Pipeline.θ_run_regions_kit (pcfgs (F := F)) adm dats () cellOf_inj emb₁ defs₀ 𝒱₀ L lv m ρ main
    [.region (reg0 H), .host (seg1 m dats)]
    (fun c Q => by rw [main_segs adm dats () 𝒱₀ L lv (seg1 m dats) (reg0 H) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m dats)
    (hch := ⟨fun _ => .rfl, fun _ => .rfl, fun c => by
      show iprop(StableHlo.held (c : Thread nD τ) (Pipeline.ucRefs τ sig) (StableHlo.after hostOps1 (V₁ m dats c)) ∗ R c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Dev nD), b) = StableHlo.after hostOps1 (V₁ m dats c) b)
    (hfin := fun c s' => by
      iintro ⟨⟨Hh, -⟩, HSI⟩
      unfold StableHlo.held
      ihave Hr := (pointsTo_read_all (Pipeline.ucRefs τ sig) (fun b => ((c : Dev nD), b)) (StableHlo.after hostOps1 (V₁ m dats c)) s') $$ [Hh HSI]
      · isplitl [Hh] <;> iassumption
      icases Hr with ⟨%h, HSI⟩
      imodintro
      isplitr; · ipureintro; exact h
      iexact HSI)
    (hQ := fun _ h => h)

end Cert.Kernel.Launch

end
-- ==== Proof.BShared.lean ====
/- What the six runs of the kernel body share: the branch conditions of the body decided over the
   8 x 8 grid, where the output window is idle, the staging and scratch memrefs the body is called
   on, the input windows' blocks, and the pipeline invariant read as the three carried scratch
   buffers. Everything is generic in the float instance. -/
import proofs.«132228_j84499186581515_1_alg».proof.Proof.Gen.Kernel.Launch
import proofs.«132228_j84499186581515_1_alg».proof.Proof.Gen.Kernel.Skeleton
import proofs.«132228_j84499186581515_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Core `c`'s buffer contents when the region is entered: no host operation precedes the region, so
    it finds the memory as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the row block at block row `qi`, fetched only where `ki = 0`): its current staging
    buffer holds its block at every point, fetched there or not — unfetched, the block index has not
    moved. For any proof data whose array is the region-entry contents and whose body leaves the block in
    place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the row block at block row `ki`, fetched at every point): the same. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, from the grid coordinates `(qi, ki) = (t / 8, t % 8)` -/

/-- The first branch: `ki = 0` (the first tile of a row block: the carried statistics are reset). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch: `qi = ki` (the diagonal tile). -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val % 9 = 0 :=
  (by decide +kernel : ∀ t : Fin grid0.N, cond0_1 (grid0.coords t) ↔ t.val % 9 = 0)

/-- The third branch: `qi ≠ ki` (an off-diagonal tile). -/
abbrev cond0_2 (i : grid0.Coords) : Prop :=
  (Scalar.cmpi .ne (Scalar.extui (Scalar.cmpi .ne (BitVec.ofNat 32 (i 0).val) (BitVec.ofNat 32 (i 1).val))) 0#32) = 1#1
theorem hcond0_2 : ∀ t : Fin cfg0.N, cond0_2 (grid0.coords t) ↔ ¬ t.val % 9 = 0 :=
  (by decide +kernel : ∀ t : Fin grid0.N, cond0_2 (grid0.coords t) ↔ ¬ t.val % 9 = 0)

/-- The fourth branch: `ki = 7` (the last tile of a row block: the row losses are written out). -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-- The second and third branches exclude each other and one of them holds. -/
theorem hcond0_2_iff : ∀ t : Fin cfg0.N, cond0_2 (grid0.coords t) ↔ ¬ cond0_1 (grid0.coords t) :=
  fun t => by rw [hcond0_2, hcond0_1]

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where `ki ≠ 7` the output window is idle: the body stores nothing into it, -/
theorem idleAt0_2 : ∀ t : Fin cfg0.N, ¬cond0_3 (grid0.coords t) → cfg0.idle 2 (grid0.coords t) = true := by decide +kernel
/-- and the pipeline does not write its block back there. -/
theorem noFlush0_2 : ∀ t : Fin cfg0.N, ¬cond0_3 (grid0.coords t) → (cfg0.win 2).flush t = false := by decide +kernel
/-- Where `ki = 7` the output window is live: the body stores into it. -/
theorem liveAt0_2 : ∀ t : Fin cfg0.N, cond0_3 (grid0.coords t) → cfg0.idle 2 (grid0.coords t) = false := by decide +kernel

/-! ## The memrefs the body is called on -/

/-- One staging buffer of the output window, through which its contents are stated (the choice does not
    matter). -/
abbrev VO0_2 : View sig .tc .vmem S512x1 .f32 := (Memref.whole cc0_stg2_0 : Memref sig .tc .vmem S512x1 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The scratch operands (the running maximum, the running sum, the partner logit): whole scoped buffers of
    the kernel's own, carried from point to point. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- The scratch operands as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view

/-- The body at point `t` is the kernel function on these memrefs. -/
theorem bodyAt0_eq (t : Fin cfg0.N) :
    bodyAt0 (F := F) t = cc0__ntxent_kernel (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) := rfl

/-- The pipeline's invariant between points, with the scratch operands as memrefs each owned at some
    contents: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.BRunD.lean ====
/- The run of the kernel body in case D: an off-diagonal tile that is neither first nor last in its row block: the carried maximum and sum are updated by the plain tile; the partner logit is left alone. -/
import proofs.«132228_j84499186581515_1_alg».proof.Proof.BShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case D (the other 42 points) — an off-diagonal tile that is neither first nor last in its row block: the carried maximum and sum are updated by the plain tile; the partner logit is left alone. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at what the point before left, `xs0`, `xs1`, `xs2` — the body runs to any
    continuation that takes the inputs as they were and each buffer with its pieces written (the partner logit as found). -/
noncomputable def kernelRun0_D (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, [], fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; isplitr; · ipureintro; exact harg7.read_unread _
    iexact HS2

end Cert.Kernel.Body

end
-- ==== Proof.BRunC.lean ====
/- The run of the kernel body in case C: a diagonal tile that is neither first nor last in its row block (0 < ki = qi < 7): the partner logit is picked and the carried statistics are updated by the masked tile. -/
import proofs.«132228_j84499186581515_1_alg».proof.Proof.BRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case C (points 9, 18, …, 54) — a diagonal tile that is neither first nor last in its row block (0 < ki = qi < 7): the partner logit is picked and the carried statistics are updated by the masked tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at what the point before left, `xs0`, `xs1`, `xs2` — the body runs to any
    continuation that takes the inputs as they were and each buffer with its pieces written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.BRunB.lean ====
/- The run of the kernel body in case B: the first tile of a later row block, off the diagonal (ki = 0, qi ≠ ki): the carried statistics are reset and then updated by the plain tile. -/
import proofs.«132228_j84499186581515_1_alg».proof.Proof.BRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case B (points 8, 16, …, 56) — the first tile of a later row block, off the diagonal (ki = 0, qi ≠ ki): the carried statistics are reset and then updated by the plain tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at anything — the body runs to any
    continuation that takes the inputs as they were and each buffer with its pieces written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.BRunA.lean ====
/- The run of the kernel body in case A: the first tile of the first row block, which is also its diagonal tile (ki = 0, qi = ki): the carried statistics are reset and then updated by the masked diagonal tile. -/
import proofs.«132228_j84499186581515_1_alg».proof.Proof.BRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case A (point 0) — the first tile of the first row block, which is also its diagonal tile (ki = 0, qi = ki): the carried statistics are reset and then updated by the masked diagonal tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at anything — the body runs to any
    continuation that takes the inputs as they were and each buffer with its pieces written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.BRunF.lean ====
/- The run of the kernel body in case F: the last tile of an earlier row block, off the diagonal (ki = 7, qi ≠ 7): the plain update, then the row losses are written out. -/
import proofs.«132228_j84499186581515_1_alg».proof.Proof.BRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case F (points 7, 15, …, 55) — the last tile of an earlier row block, off the diagonal (ki = 7, qi ≠ 7): the plain update, then the row losses are written out. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at anything; the three carried buffers at what the point before left, `xs0`, `xs1`, `xs2` — the body runs to any
    continuation that takes the inputs as they were and each buffer with its pieces written (the partner logit as found). -/
noncomputable def kernelRun0_F (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, [], fun E K => ?run⟩
  case run =>
    simp only [cc0__ntxent_kernel_eq_skeleton]; unfold cc0__ntxent_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; isplitr; · ipureintro; exact harg7.read_unread _
    iexact HS2

end Cert.Kernel.Body

end
-- ==== Proof.BRunE.lean ====
/- The run of the kernel body in case E: the last tile of the last row block, which is its diagonal tile (qi = ki = 7): the masked update, then the row losses are written out. -/
import proofs.«132228_j84499186581515_1_alg».proof.Proof.BRunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole-body run in case E (point 63) — the last tile of the last row block, which is its diagonal tile (qi = ki = 7): the masked update, then the row losses are written out. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at anything; the three carried buffers at what the point before left, `xs0`, `xs1`, `xs2` — the body runs to any
    continuation that takes the inputs as they were and each buffer with its pieces written. -/
noncomputable def kernelRun0_E (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Body

end
-- ==== Proof.BOuts.lean ====
/- What each case of the kernel body leaves in the buffers it stores into, at a grid point: the case's run taken at the memrefs the pipeline passes at the point and at the point's two input blocks, and its stores into each buffer read back. Every store of the body is a store of a whole [512, 1] block, so the stores into a buffer cover it and what they leave does not depend on what the buffer held. -/
import proofs.«132228_j84499186581515_1_alg».proof.Proof.BRunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- Case A's run at the grid point `t`: on the staging memrefs the pipeline passes there, the three carried
    buffers, and the point's two input blocks. -/
abbrev runAt_A (c : Dev nD) (t : Fin cfg0.N) (h0 : t.val % 8 = 0) (h1 : t.val % 9 = 0) (h3 : ¬t.val % 8 = 7) :=
  kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) ((hcond0_1 t).mpr h1) (fun h => (hcond0_2 t).mp h h1) (fun h => h3 ((hcond0_3 t).mp h)) (iblk m c 0 t) (iblk m c 1 t)

/-- What case A leaves in the running maximum at the point `t`: its stores read back. -/
def sout0_A_0 (c : Dev nD) (t : Fin cfg0.N) (h0 : t.val % 8 = 0) (h1 : t.val % 9 = 0) (h3 : ¬t.val % 8 = 7) : Vec F S512x1 .f32 :=
  VS0_0.read (Elt F) (VS0_0.writes (Elt F) VS0_0.junk (runAt_A m c t h0 h1 h3).2.1)

/-- What case A leaves in the running sum at the point `t`: its stores read back. -/
def sout0_A_1 (c : Dev nD) (t : Fin cfg0.N) (h0 : t.val % 8 = 0) (h1 : t.val % 9 = 0) (h3 : ¬t.val % 8 = 7) : Vec F S512x1 .f32 :=
  VS0_1.read (Elt F) (VS0_1.writes (Elt F) VS0_1.junk (runAt_A m c t h0 h1 h3).2.2.1)

/-- What case A leaves in the partner logit at the point `t`: its stores read back. -/
def sout0_A_2 (c : Dev nD) (t : Fin cfg0.N) (h0 : t.val % 8 = 0) (h1 : t.val % 9 = 0) (h3 : ¬t.val % 8 = 7) : Vec F S512x1 .f32 :=
  VS0_2.read (Elt F) (VS0_2.writes (Elt F) VS0_2.junk (runAt_A m c t h0 h1 h3).2.2.2.1)

/-- Case B's run at the grid point `t`: on the staging memrefs the pipeline passes there, the three carried
    buffers, and the point's two input blocks. -/
abbrev runAt_B (c : Dev nD) (t : Fin cfg0.N) (h0 : t.val % 8 = 0) (h1 : ¬t.val % 9 = 0) (h3 : ¬t.val % 8 = 7) :=
  kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) (fun h => h1 ((hcond0_1 t).mp h)) ((hcond0_2 t).mpr h1) (fun h => h3 ((hcond0_3 t).mp h)) (iblk m c 0 t) (iblk m c 1 t)

/-- What case B leaves in the running maximum at the point `t`: its stores read back. -/
def sout0_B_0 (c : Dev nD) (t : Fin cfg0.N) (h0 : t.val % 8 = 0) (h1 : ¬t.val % 9 = 0) (h3 : ¬t.val % 8 = 7) : Vec F S512x1 .f32 :=
  VS0_0.read (Elt F) (VS0_0.writes (Elt F) VS0_0.junk (runAt_B m c t h0 h1 h3).2.1)

/-- What case B leaves in the running sum at the point `t`: its stores read back. -/
def sout0_B_1 (c : Dev nD) (t : Fin cfg0.N) (h0 : t.val % 8 = 0) (h1 : ¬t.val % 9 = 0) (h3 : ¬t.val % 8 = 7) : Vec F S512x1 .f32 :=
  VS0_1.read (Elt F) (VS0_1.writes (Elt F) VS0_1.junk (runAt_B m c t h0 h1 h3).2.2.1)

/-- What case B leaves in the partner logit at the point `t`: its stores read back. -/
def sout0_B_2 (c : Dev nD) (t : Fin cfg0.N) (h0 : t.val % 8 = 0) (h1 : ¬t.val % 9 = 0) (h3 : ¬t.val % 8 = 7) : Vec F S512x1 .f32 :=
  VS0_2.read (Elt F) (VS0_2.writes (Elt F) VS0_2.junk (runAt_B m c t h0 h1 h3).2.2.2.1)

/-- Case C's run at the grid point `t`: on the staging memrefs the pipeline passes there, the three carried
    buffers, and the point's two input blocks. -/
abbrev runAt_C (c : Dev nD) (t : Fin cfg0.N) (h0 : ¬t.val % 8 = 0) (h1 : t.val % 9 = 0) (h3 : ¬t.val % 8 = 7) (xs0 xs1 xs2 : Vec F S512x1 .f32) :=
  kernelRun0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) (fun h => h3 ((hcond0_3 t).mp h)) (iblk m c 0 t) (iblk m c 1 t) xs0 xs1 xs2

/-- What case C leaves in the running maximum at the point `t`: its stores read back. -/
def sout0_C_0 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_0.read (Elt F) (VS0_0.writes (Elt F) VS0_0.junk (runAt_C m c t h0 h1 h3 xs0 xs1 xs2).2.1)

/-- What case C leaves in the running sum at the point `t`: its stores read back. -/
def sout0_C_1 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_1.read (Elt F) (VS0_1.writes (Elt F) VS0_1.junk (runAt_C m c t h0 h1 h3 xs0 xs1 xs2).2.2.1)

/-- What case C leaves in the partner logit at the point `t`: its stores read back. -/
def sout0_C_2 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_2.read (Elt F) (VS0_2.writes (Elt F) VS0_2.junk (runAt_C m c t h0 h1 h3 xs0 xs1 xs2).2.2.2.1)

/-- Case D's run at the grid point `t`: on the staging memrefs the pipeline passes there, the three carried
    buffers, and the point's two input blocks. -/
abbrev runAt_D (c : Dev nD) (t : Fin cfg0.N) (h0 : ¬t.val % 8 = 0) (h1 : ¬t.val % 9 = 0) (h3 : ¬t.val % 8 = 7) (xs0 xs1 xs2 : Vec F S512x1 .f32) :=
  kernelRun0_D c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) (fun h => h3 ((hcond0_3 t).mp h)) (iblk m c 0 t) (iblk m c 1 t) xs0 xs1 xs2

/-- What case D leaves in the running maximum at the point `t`: its stores read back. -/
def sout0_D_0 (c : Dev nD) (t : Fin cfg0.N) (h0 : ¬t.val % 8 = 0) (h1 : ¬t.val % 9 = 0) (h3 : ¬t.val % 8 = 7) (xs0 xs1 xs2 : Vec F S512x1 .f32) : Vec F S512x1 .f32 :=
  VS0_0.read (Elt F) (VS0_0.writes (Elt F) VS0_0.junk (runAt_D m c t h0 h1 h3 xs0 xs1 xs2).2.1)

/-- What case D leaves in the running sum at the point `t`: its stores read back. -/
def sout0_D_1 (c : Dev nD) (t : Fin cfg0.N) (h0 : ¬t.val % 8 = 0) (h1 : ¬t.val % 9 = 0) (h3 : ¬t.val % 8 = 7) (xs0 xs1 xs2 : Vec F S512x1 .f32) : Vec F S512x1 .f32 :=
  VS0_1.read (Elt F) (VS0_1.writes (Elt F) VS0_1.junk (runAt_D m c t h0 h1 h3 xs0 xs1 xs2).2.2.1)

/-- Case E's run at the grid point `t`: on the staging memrefs the pipeline passes there, the three carried
    buffers, and the point's two input blocks. -/
abbrev runAt_E (c : Dev nD) (t : Fin cfg0.N) (h0 : ¬t.val % 8 = 0) (h1 : t.val % 9 = 0) (h3 : t.val % 8 = 7) (xs0 xs1 xs2 : Vec F S512x1 .f32) :=
  kernelRun0_E c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) ((hcond0_3 t).mpr h3) (iblk m c 0 t) (iblk m c 1 t) xs0 xs1 xs2

/-- What case E leaves in the output block's staging buffer at the point `t`: its stores read back. -/
def out0_E_2 (c : Dev nD) (t : Fin cfg0.N) (h0 : ¬t.val % 8 = 0) (h1 : t.val % 9 = 0) (h3 : t.val % 8 = 7) (xs0 xs1 xs2 : Vec F S512x1 .f32) : Vec F S512x1 .f32 :=
  VO0_2.read (Elt F) (VO0_2.writes (Elt F) VO0_2.junk (runAt_E m c t h0 h1 h3 xs0 xs1 xs2).1)

/-- What case E leaves in the running maximum at the point `t`: its stores read back. -/
def sout0_E_0 (c : Dev nD) (t : Fin cfg0.N) (h0 : ¬t.val % 8 = 0) (h1 : t.val % 9 = 0) (h3 : t.val % 8 = 7) (xs0 xs1 xs2 : Vec F S512x1 .f32) : Vec F S512x1 .f32 :=
  VS0_0.read (Elt F) (VS0_0.writes (Elt F) VS0_0.junk (runAt_E m c t h0 h1 h3 xs0 xs1 xs2).2.1)

/-- What case E leaves in the running sum at the point `t`: its stores read back. -/
def sout0_E_1 (c : Dev nD) (t : Fin cfg0.N) (h0 : ¬t.val % 8 = 0) (h1 : t.val % 9 = 0) (h3 : t.val % 8 = 7) (xs0 xs1 xs2 : Vec F S512x1 .f32) : Vec F S512x1 .f32 :=
  VS0_1.read (Elt F) (VS0_1.writes (Elt F) VS0_1.junk (runAt_E m c t h0 h1 h3 xs0 xs1 xs2).2.2.1)

/-- What case E leaves in the partner logit at the point `t`: its stores read back. -/
def sout0_E_2 (c : Dev nD) (t : Fin cfg0.N) (h0 : ¬t.val % 8 = 0) (h1 : t.val % 9 = 0) (h3 : t.val % 8 = 7) (xs0 xs1 xs2 : Vec F S512x1 .f32) : Vec F S512x1 .f32 :=
  VS0_2.read (Elt F) (VS0_2.writes (Elt F) VS0_2.junk (runAt_E m c t h0 h1 h3 xs0 xs1 xs2).2.2.2.1)

/-- Case F's run at the grid point `t`: on the staging memrefs the pipeline passes there, the three carried
    buffers, and the point's two input blocks. -/
abbrev runAt_F (c : Dev nD) (t : Fin cfg0.N) (h0 : ¬t.val % 8 = 0) (h1 : ¬t.val % 9 = 0) (h3 : t.val % 8 = 7) (xs0 xs1 xs2 : Vec F S512x1 .f32) :=
  kernelRun0_F c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) ((hcond0_3 t).mpr h3) (iblk m c 0 t) (iblk m c 1 t) xs0 xs1 xs2

/-- What case F leaves in the output block's staging buffer at the point `t`: its stores read back. -/
def out0_F_2 (c : Dev nD) (t : Fin cfg0.N) (h0 : ¬t.val % 8 = 0) (h1 : ¬t.val % 9 = 0) (h3 : t.val % 8 = 7) (xs0 xs1 xs2 : Vec F S512x1 .f32) : Vec F S512x1 .f32 :=
  VO0_2.read (Elt F) (VO0_2.writes (Elt F) VO0_2.junk (runAt_F m c t h0 h1 h3 xs0 xs1 xs2).1)

/-- What case F leaves in the running maximum at the point `t`: its stores read back. -/
def sout0_F_0 (c : Dev nD) (t : Fin cfg0.N) (h0 : ¬t.val % 8 = 0) (h1 : ¬t.val % 9 = 0) (h3 : t.val % 8 = 7) (xs0 xs1 xs2 : Vec F S512x1 .f32) : Vec F S512x1 .f32 :=
  VS0_0.read (Elt F) (VS0_0.writes (Elt F) VS0_0.junk (runAt_F m c t h0 h1 h3 xs0 xs1 xs2).2.1)

/-- What case F leaves in the running sum at the point `t`: its stores read back. -/
def sout0_F_1 (c : Dev nD) (t : Fin cfg0.N) (h0 : ¬t.val % 8 = 0) (h1 : ¬t.val % 9 = 0) (h3 : t.val % 8 = 7) (xs0 xs1 xs2 : Vec F S512x1 .f32) : Vec F S512x1 .f32 :=
  VS0_1.read (Elt F) (VS0_1.writes (Elt F) VS0_1.junk (runAt_F m c t h0 h1 h3 xs0 xs1 xs2).2.2.1)

/-- Where the tile is not the last of its row block (`ki ≠ 7`) the body stores nothing into the output block's
    staging buffer, the pipeline does not write it back and the next point does not read it: a placeholder that
    nothing consults. -/
def out0_idle_2 : Vec F S512x1 .f32 := VO0_2.read (Elt F) VO0_2.junk

end Cert.Kernel.Body

end
-- ==== Proof.BDats.lean ====
/- The proof data of the pipeline: what the output block's staging buffer and the three carried buffers (running maximum, running sum, partner logit) hold after each of the 64 grid points, by recursion on the point; the invariant between points; the arrays, the windows' contents after the body and the small facts the launch and the body obligation take. -/
import proofs.«132228_j84499186581515_1_alg».proof.Proof.BOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## What the buffers hold after each point -/

/-- The contents point by point. What the output block's staging buffer and the three carried buffers (the running maximum, the
    running sum, the partner logit) hold after the body at position `n`, as a tuple in that order: the case the
    closed forms select at `n`, run at the point's memrefs and input blocks, the carried contents it reads taken from
    position `n - 1`. The first tile of a row block (`ki = 0`) stores all three carried buffers before reading
    them; an off-diagonal tile leaves the partner logit as it found it. The first point is the only one that is both
    the first tile of its row block and diagonal. -/
def outsAt0 (c : Dev nD) : (n : ℕ) → n < cfg0.N → Vec F S512x1 .f32 × Vec F S512x1 .f32 × Vec F S512x1 .f32 × Vec F S512x1 .f32
  | 0, hn => (out0_idle_2, sout0_A_0 m c ⟨0, hn⟩ (Nat.zero_mod 8) (Nat.zero_mod 9) (fun h => (by decide : ¬ (0 % 8 = 7)) h), sout0_A_1 m c ⟨0, hn⟩ (Nat.zero_mod 8) (Nat.zero_mod 9) (fun h => (by decide : ¬ (0 % 8 = 7)) h), sout0_A_2 m c ⟨0, hn⟩ (Nat.zero_mod 8) (Nat.zero_mod 9) (fun h => (by decide : ¬ (0 % 8 = 7)) h))
  | n + 1, hn =>
    if h0 : (n + 1) % 8 = 0 then
      if h1 : (n + 1) % 9 = 0 then
        False.elim (by have hN : n + 1 < 64 := lt_of_lt_of_eq hn (show cfg0.N = 64 from N_0); omega)
      else
        (out0_idle_2, sout0_B_0 m c ⟨n + 1, hn⟩ h0 h1 (fun h => (by omega : ¬ ((n + 1) % 8 = 7)) h), sout0_B_1 m c ⟨n + 1, hn⟩ h0 h1 (fun h => (by omega : ¬ ((n + 1) % 8 = 7)) h), sout0_B_2 m c ⟨n + 1, hn⟩ h0 h1 (fun h => (by omega : ¬ ((n + 1) % 8 = 7)) h))
    else
      if h3 : (n + 1) % 8 = 7 then
        if h1 : (n + 1) % 9 = 0 then
          (out0_E_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2)
        else
          (out0_F_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_F_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_F_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)
      else
        if h1 : (n + 1) % 9 = 0 then
          (out0_idle_2, sout0_C_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_C_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_C_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2)
        else
          (out0_idle_2, sout0_D_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_D_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)

/-- `outsAt0` at a point of case A. -/
theorem outsAt0_A (c : Dev nD) (t : Fin cfg0.N) (h0 : t.val % 8 = 0) (h1 : t.val % 9 = 0) (h3 : ¬t.val % 8 = 7) :
    outsAt0 m c t.val t.isLt = (out0_idle_2, sout0_A_0 m c t h0 h1 h3, sout0_A_1 m c t h0 h1 h3, sout0_A_2 m c t h0 h1 h3) := by
  obtain ⟨n, hn⟩ := t
  cases n with
  | zero => exact rfl
  | succ n => exact (by exfalso; dsimp only at h0 h1; have hN : n + 1 < 64 := lt_of_lt_of_eq hn (show cfg0.N = 64 from N_0); omega)

/-- `outsAt0` at a point of case B. -/
theorem outsAt0_B (c : Dev nD) (t : Fin cfg0.N) (h0 : t.val % 8 = 0) (h1 : ¬t.val % 9 = 0) (h3 : ¬t.val % 8 = 7) :
    outsAt0 m c t.val t.isLt = (out0_idle_2, sout0_B_0 m c t h0 h1 h3, sout0_B_1 m c t h0 h1 h3, sout0_B_2 m c t h0 h1 h3) := by
  obtain ⟨n, hn⟩ := t
  cases n with
  | zero => exact (by exfalso; dsimp only at h1; exact absurd (Nat.zero_mod 9) h1)
  | succ n => exact (dif_pos h0).trans ((dif_neg h1).trans rfl)

/-- `outsAt0` at a point of case C. -/
theorem outsAt0_C (c : Dev nD) (t : Fin cfg0.N) (h0 : ¬t.val % 8 = 0) (h1 : t.val % 9 = 0) (h3 : ¬t.val % 8 = 7) :
    outsAt0 m c t.val t.isLt = (out0_idle_2, sout0_C_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_neg h3).trans ((dif_pos h1).trans rfl))

/-- `outsAt0` at a point of case D. -/
theorem outsAt0_D (c : Dev nD) (t : Fin cfg0.N) (h0 : ¬t.val % 8 = 0) (h1 : ¬t.val % 9 = 0) (h3 : ¬t.val % 8 = 7) :
    outsAt0 m c t.val t.isLt = (out0_idle_2, sout0_D_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_neg h3).trans ((dif_neg h1).trans rfl))

/-- `outsAt0` at a point of case E. -/
theorem outsAt0_E (c : Dev nD) (t : Fin cfg0.N) (h0 : ¬t.val % 8 = 0) (h1 : t.val % 9 = 0) (h3 : t.val % 8 = 7) :
    outsAt0 m c t.val t.isLt = (out0_E_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_pos h3).trans ((dif_pos h1).trans rfl))

/-- `outsAt0` at a point of case F. -/
theorem outsAt0_F (c : Dev nD) (t : Fin cfg0.N) (h0 : ¬t.val % 8 = 0) (h1 : ¬t.val % 9 = 0) (h3 : t.val % 8 = 7) :
    outsAt0 m c t.val t.isLt = (out0_F_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_F_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_F_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_pos h3).trans ((dif_neg h1).trans rfl))

/-- The region's invariant before position `n`: before the first point the pipeline's own (every scratch buffer at
    some contents); afterwards the three carried buffers at what the point before left in them, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- At position `n + 1` the three carried buffers are owned at what point `n` left in them. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- At a position `n` past the first they are owned at what point `n - 1` left in them. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input window's buffer at its block and the output window's at `outsAt0`'s first component; the invariant
    `PhiS`; nothing owed. The two input windows read one array, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := fun w => match w with
    | ⟨0, _⟩ => fullShare.left
    | ⟨1, _⟩ => fullShare.right
    | ⟨2, _⟩ => fullShare
  owed _ := 0

/-- Each windowed array starts at the memory the region is launched on. -/
theorem A_eq (c : Dev nD) (w : Fin cfg0.W) : (dats m 0 c).A w = V m c (Pipeline.arrRef spec0 w) := by
  dsimp only [dats]

/-- The invariant the body meets at point `t` is `PhiS` at position `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- The contents each window's buffer is left at after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- At every point both input buffers hold the point's blocks, whether or not a fetch happened there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Entering the region: the pipeline's own invariant is `PhiS` at position 0. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At any position past the first, `PhiS` entails the pipeline's own invariant: each carried buffer is still owned,
    and which contents it holds is dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- Leaving the region, after the 64th point. -/
theorem hout (c : Dev nD) : (dats m 0 c).Φ (Fin.last cfg0.N) ⊢ Pipeline.ΦA spec0 c :=
  Phi_out m c _ (by rw [Fin.val_last]; have : cfg0.N = 64 := N_0; omega)

end Cert.Kernel.Body

end
-- ==== Proof.BCovers.lean ====
/- Every store of the kernel body is a store of a whole [512, 1] block, so in each case the stores into a buffer cover it: what they leave is the same whatever the buffer held before. -/
import proofs.«132228_j84499186581515_1_alg».proof.Proof.BRunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- The stores of case A into the running maximum cover it: each is a store of the whole `[512, 1]` block. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.1, y ∈ pc.1.set :=
  View.cover_of_tiledL (kernelRun0_A c i arg2 harg2 arg3 harg3 arg4 harg4 arg5 harg5 arg6 harg6 arg7 harg7 hc0 hc1 hc2 hc3 x0 x1).2.1 S512x1.size (by sl_kernel_rfl) y

/-- The stores of case A into the running sum cover it: each is a store of the whole `[512, 1]` block. -/
theorem scover0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.1, y ∈ pc.1.set :=
  View.cover_of_tiledL (kernelRun0_A c i arg2 harg2 arg3 harg3 arg4 harg4 arg5 harg5 arg6 harg6 arg7 harg7 hc0 hc1 hc2 hc3 x0 x1).2.2.1 S512x1.size (by sl_kernel_rfl) y

/-- The stores of case A into the partner logit cover it: each is a store of the whole `[512, 1]` block. -/
theorem scover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.2.1, y ∈ pc.1.set :=
  View.cover_of_tiledL (kernelRun0_A c i arg2 harg2 arg3 harg3 arg4 harg4 arg5 harg5 arg6 harg6 arg7 harg7 hc0 hc1 hc2 hc3 x0 x1).2.2.2.1 S512x1.size (by sl_kernel_rfl) y

/-- The stores of case B into the running maximum cover it: each is a store of the whole `[512, 1]` block. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.1, y ∈ pc.1.set :=
  View.cover_of_tiledL (kernelRun0_B c i arg2 harg2 arg3 harg3 arg4 harg4 arg5 harg5 arg6 harg6 arg7 harg7 hc0 hc1 hc2 hc3 x0 x1).2.1 S512x1.size (by sl_kernel_rfl) y

/-- The stores of case B into the running sum cover it: each is a store of the whole `[512, 1]` block. -/
theorem scover0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.1, y ∈ pc.1.set :=
  View.cover_of_tiledL (kernelRun0_B c i arg2 harg2 arg3 harg3 arg4 harg4 arg5 harg5 arg6 harg6 arg7 harg7 hc0 hc1 hc2 hc3 x0 x1).2.2.1 S512x1.size (by sl_kernel_rfl) y

/-- The stores of case B into the partner logit cover it: each is a store of the whole `[512, 1]` block. -/
theorem scover0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.2.1, y ∈ pc.1.set :=
  View.cover_of_tiledL (kernelRun0_B c i arg2 harg2 arg3 harg3 arg4 harg4 arg5 harg5 arg6 harg6 arg7 harg7 hc0 hc1 hc2 hc3 x0 x1).2.2.2.1 S512x1.size (by sl_kernel_rfl) y

/-- The stores of case C into the running maximum cover it: each is a store of the whole `[512, 1]` block. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.1 S512x1.size (by sl_kernel_rfl) y

/-- The stores of case C into the running sum cover it: each is a store of the whole `[512, 1]` block. -/
theorem scover0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.1 S512x1.size (by sl_kernel_rfl) y

/-- The stores of case C into the partner logit cover it: each is a store of the whole `[512, 1]` block. -/
theorem scover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.2.1 S512x1.size (by sl_kernel_rfl) y

/-- The stores of case D into the running maximum cover it: each is a store of the whole `[512, 1]` block. -/
theorem scover0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.1 S512x1.size (by sl_kernel_rfl) y

/-- The stores of case D into the running sum cover it: each is a store of the whole `[512, 1]` block. -/
theorem scover0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.2.1 S512x1.size (by sl_kernel_rfl) y

/-- The stores of case E into the output block's staging buffer cover it: each is a store of the whole `[512, 1]` block. -/
theorem cover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).1, y ∈ pc.1.set :=
  View.cover_of_tiledL (kernelRun0_E c i arg2 harg2 arg3 harg3 arg4 harg4 arg5 harg5 arg6 harg6 arg7 harg7 hc0 hc1 hc2 hc3 x0 x1 xs0 xs1 xs2).1 S512x1.size (by sl_kernel_rfl) y

/-- The stores of case E into the running maximum cover it: each is a store of the whole `[512, 1]` block. -/
theorem scover0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.1 S512x1.size (by sl_kernel_rfl) y

/-- The stores of case E into the running sum cover it: each is a store of the whole `[512, 1]` block. -/
theorem scover0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.1 S512x1.size (by sl_kernel_rfl) y

/-- The stores of case E into the partner logit cover it: each is a store of the whole `[512, 1]` block. -/
theorem scover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.2.1 S512x1.size (by sl_kernel_rfl) y

/-- The stores of case F into the output block's staging buffer cover it: each is a store of the whole `[512, 1]` block. -/
theorem cover0_F_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).1, y ∈ pc.1.set :=
  View.cover_of_tiledL (kernelRun0_F c i arg2 harg2 arg3 harg3 arg4 harg4 arg5 harg5 arg6 harg6 arg7 harg7 hc0 hc1 hc2 hc3 x0 x1 xs0 xs1 xs2).1 S512x1.size (by sl_kernel_rfl) y

/-- The stores of case F into the running maximum cover it: each is a store of the whole `[512, 1]` block. -/
theorem scover0_F_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.1 S512x1.size (by sl_kernel_rfl) y

/-- The stores of case F into the running sum cover it: each is a store of the whole `[512, 1]` block. -/
theorem scover0_F_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.2.1 S512x1.size (by sl_kernel_rfl) y

end Cert.Kernel.Body

end
-- ==== Proof.BSound.lean ====
/- The body obligation of the pipeline: at every grid point, from the invariant and the windows' current staging buffers, the kernel body runs to the invariant at the next point and the buffers at what the proof data says, by the case the point is in. -/
import proofs.«132228_j84499186581515_1_alg».proof.Proof.BDats
import proofs.«132228_j84499186581515_1_alg».proof.Proof.BCovers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The body obligation, at a generic point -/

/-- The precondition of the body at point `t`, the three windows spelled out: the invariant, the core's debts (none),
    and the current staging buffer of each window with the contents the pipeline has brought it to. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- The postcondition: the invariant one position later, the same debts, and each buffer as the proof data says. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The two input windows' buffers hold their blocks; the closed forms of the four branch
    conditions say which of the six cases the point is in; that case's run applies, handed the carried buffers at what
    the point before left (at anything at the first point) and the output block's buffer — as it is where the tile is
    not the last of its row block, at anything where it is —, and gives the carried buffers back at this point's
    contents (the stores into a buffer cover it) and, at the last tile of a row block, the output block's buffer at
    the row losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 64 := lt_of_lt_of_eq t.isLt (show cfg0.N = 64 from N_0)
  by_cases h0 : t.val % 8 = 0
  · by_cases h1 : t.val % 9 = 0
    · -- the first point: first tile of its row block and diagonal
      have h3 : ¬t.val % 8 = 7 := by omega
      rw [Dat.leavesExact_idle (dats m 0 c) 2 t (idleAt0_2 t (fun h => h3 ((hcond0_3 t).mp h))) (noFlush0_2 t (fun h => h3 ((hcond0_3 t).mp h)))]
      rw [outsAt0_A m c t h0 h1 h3]
      unfold sout0_A_0 sout0_A_1 sout0_A_2; (try dsimp only)
      have hz : t.val = 0 := by omega
      rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((runAt_A m c t h0 h1 h3).2.2.2.2 ((dats m 0 c).before 2 t d2) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
        iexact Hg
      isplitl [Ho]; · iexact Ho
      isplitl [H0]; · iexact H0
      isplitl [H1]; · iexact H1
      iexists _; iexact H2
    · -- the first tile of a later row block, off the diagonal
      have h3 : ¬t.val % 8 = 7 := by omega
      rw [Dat.leavesExact_idle (dats m 0 c) 2 t (idleAt0_2 t (fun h => h3 ((hcond0_3 t).mp h))) (noFlush0_2 t (fun h => h3 ((hcond0_3 t).mp h)))]
      rw [outsAt0_B m c t h0 h1 h3]
      unfold sout0_B_0 sout0_B_1 sout0_B_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runAt_B m c t h0 h1 h3).2.2.2.2 ((dats m 0 c).before 2 t d2) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
          isplitl [HS1]
          · unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
          unfold owns; iexists _; isplitr
          swap; · iexact HS2
          ipureintro; exact View.read_writes_of_cover _ _ _ _ _ (scover0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
        iexact Hg
      isplitl [Ho]; · iexact Ho
      isplitl [H0]; · iexact H0
      isplitl [H1]; · iexact H1
      iexists _; iexact H2
  · by_cases h3 : t.val % 8 = 7
    · by_cases h1 : t.val % 9 = 0
      · -- the last point: last tile of its row block and diagonal
        rw [show (dats m 0 c).leavesExact 2 t = owns (c : Thread nD τ) (ms0_2 t) fullShare ((dats m 0 c).after 2 t) from by
          unfold Dat.leavesExact; rw [liveAt0_2 t ((hcond0_3 t).mpr h3)], after0_2]
        rw [outsAt0_E m c t h0 h1 h3]
        unfold out0_E_2 sout0_E_0 sout0_E_1 sout0_E_2; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_E m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_E_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_E_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            unfold owns; iexists _; isplitr
            swap; · iexact HS2
            ipureintro; exact View.read_writes_of_cover _ _ _ _ _ (scover0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
      · -- the last tile of a row block, off the diagonal
        rw [show (dats m 0 c).leavesExact 2 t = owns (c : Thread nD τ) (ms0_2 t) fullShare ((dats m 0 c).after 2 t) from by
          unfold Dat.leavesExact; rw [liveAt0_2 t ((hcond0_3 t).mpr h3)], after0_2]
        rw [outsAt0_F m c t h0 h1 h3]
        unfold out0_F_2 sout0_F_0 sout0_F_1; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_F m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_F_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_F_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            iexact HS2
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_F_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
    · by_cases h1 : t.val % 9 = 0
      · -- a diagonal tile inside its row block
        rw [Dat.leavesExact_idle (dats m 0 c) 2 t (idleAt0_2 t (fun h => h3 ((hcond0_3 t).mp h))) (noFlush0_2 t (fun h => h3 ((hcond0_3 t).mp h)))]
        rw [outsAt0_C m c t h0 h1 h3]
        unfold sout0_C_0 sout0_C_1 sout0_C_2; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_C m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 ((dats m 0 c).before 2 t d2) Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            unfold owns; iexists _; isplitr
            swap; · iexact HS2
            ipureintro; exact View.read_writes_of_cover _ _ _ _ _ (scover0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
          iexact Hg
        isplitl [Ho]; · iexact Ho
        isplitl [H0]; · iexact H0
        isplitl [H1]; · iexact H1
        iexists _; iexact H2
      · -- an off-diagonal tile inside its row block
        rw [Dat.leavesExact_idle (dats m 0 c) 2 t (idleAt0_2 t (fun h => h3 ((hcond0_3 t).mp h))) (noFlush0_2 t (fun h => h3 ((hcond0_3 t).mp h)))]
        rw [outsAt0_D m c t h0 h1 h3]
        unfold sout0_D_0 sout0_D_1; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_D m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 ((dats m 0 c).before 2 t d2) Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_D_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_D_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            iexact HS2
          iexact Hg
        isplitl [Ho]; · iexact Ho
        isplitl [H0]; · iexact H0
        isplitl [H1]; · iexact H1
        iexists _; iexact H2

/-- The body obligation holds at each of the 64 points. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.BHyp.lean ====
/- The pipeline's proof data meets everything the launch asks of it: the arrays as the region finds them, the two input windows each holding half of the one array they read, nothing owed, the body obligation, and the invariant's two ends. -/
import proofs.«132228_j84499186581515_1_alg».proof.Proof.BLaunch
import proofs.«132228_j84499186581515_1_alg».proof.Proof.BSound

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- The launch's hypotheses, for the proof data `dats m`. -/
theorem hyp : Cert.Kernel.Launch.Hyp m (dats m) where
  hA c w := A_eq m c w
  hq0 c := by dsimp only [dats]
  hq1 c := by dsimp only [dats]
  howed c t := by dsimp only [dats]
  hrec c t := by dsimp only [dats]
  hbody c := body_obligation m c
  hin c := hin m c
  hout c := hout m c

end Cert.Kernel.Body

end
-- ==== Proof.BTail.lean ====
/-
  What the five host operations after the region leave, over the memory with the output array at what the region
  wrote back: the argument array is written by none of them, and the result is the column of row losses re-laid as a
  vector, summed from zero and divided by the row count.
-/
import proofs.«132228_j84499186581515_1_alg».proof.Proof.BLaunch
import Idealize.ShloMosaic.Lib.StableHlo.Run

noncomputable section

namespace Cert.Kernel.Launch

open Cert.Kernel Cert.Kernel.Gen

open Idealize.ShloMosaic
open Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)
variable (dats : (p : Fin 1) → (c : Dev nD) → Dat τ (Elt F) Unit ℕ (UR sig nD τ) ℕ cfg0 c)

/-- No host operation writes the argument array. -/
theorem arg0_kept (c : Dev nD) :
    StableHlo.after hostOps1 (V₁ m dats c) (Proc.devRef .tc main_arg0) = m ((c : Thread nD τ).loc main_arg0) := by
  rw [StableHlo.after_of_forall_not_mem (b := Proc.devRef .tc main_arg0) hostOps1 (V₁ m dats c) ?_]
  · exact V₁_ne m dats c main_arg0 (by decide)
  · intro op hop
    simp only [hostOps1, List.mem_cons, List.mem_nil_iff, or_false] at hop
    rcases hop with rfl | rfl | rfl | rfl | rfl <;>
      simp only [StableHlo.unary_writes, StableHlo.binary_writes, StableHlo.nullary_writes, StableHlo.reshape_writes, Finset.mem_singleton] <;>
      exact StableHlo.devRef_ne_of_ne (by decide)

/-- The result buffer after the host operations. -/
theorem v3_eq (c : Dev nD) :
    StableHlo.after hostOps1 (V₁ m dats c) (Proc.devRef .tc main_v3)
      = Host.divf (Host.reduceAdd (shapeCast S4096 ((dats 0 c).arrAt 2 cfg0.N) shapeCasts_S4096x1_S4096) (constant S_ .f32 0x00000000#32) reducesTo_S4096_S_d0 h_S_)
          (constant S_ .f32 0x45800000#32) := by
  after_results
  rw [V₁_v0]
  rfl

variable {m dats}

/-- THE FRAME: the program runs, and the argument array ends unchanged. -/
theorem frame_of (H : Hyp m dats) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (Proc.devRef .tc main_arg0) (by decide)).trans (arg0_kept m dats c)) (run_main ρ H)

/-- THE RUN WITH ITS RESULT: the result buffer ends at the mean of the column the region wrote back, the argument
    array unchanged. -/
theorem run_result (H : Hyp m dats) :
    θ_run defs (onTc (τ := τ) (main (F := F))) ⟨m, fun _ => 0, ρ⟩ (fun r => ∀ c : Dev nD,
      r.2.mem ((c.tc : Thread nD τ).loc main_v3)
          = Host.divf (Host.reduceAdd (shapeCast S4096 ((dats 0 c).arrAt 2 cfg0.N) shapeCasts_S4096x1_S4096) (constant S_ .f32 0x00000000#32) reducesTo_S4096_S_d0 h_S_)
              (constant S_ .f32 0x45800000#32)
        ∧ r.2.mem ((c.tc : Thread nD τ).loc main_arg0) = m ((c.tc : Thread nD τ).loc main_arg0)) :=
  (θ_run defs _ _).mono (fun r h c =>
    ⟨(h c (Proc.devRef .tc main_v3) (by decide)).trans (v3_eq m dats c),
     (h c (Proc.devRef .tc main_arg0) (by decide)).trans (arg0_kept m dats c)⟩) (run_main ρ H)

end Cert.Kernel.Launch

end
-- ==== Proof.KLaunch.lean ====
/-
  The launch of the kernel's program: one kernel region followed by five host operations.

  The region's three windows stand on two arrays: the two input windows read the same array (the rows of x, once by
  block row and once by block column), the output window writes the column of row losses.  At the region's entry the
  input array is therefore split into two half shares, one per input window, and the halves are joined again at the
  exit; the output array passes through at the full share.  After the region the host operations (a reshape, a sum
  from zero, a division by the row count) run over the buffers as the region left them.  The statement proved here is
  for ANY proof data of the region whose arrays are the launch memory's, whose input windows hold the two halves,
  which owes nothing, whose body obligation holds and whose invariant starts and ends at the scratch buffers at
  anything: the program runs, and every unscoped buffer ends at the host operations' contents over the memory with
  the output array replaced by what the region wrote back.
-/
import proofs.«132228_j84499186581515_1_alg».proof.Proof.Gen.KernelIdeal.Launch
import proofs.«132228_j84499186581515_1_alg».proof.Proof.Gen.KernelIdeal.Points
import Idealize.ShloMosaic.Lib.Pipeline.Regions
import Idealize.ShloMosaic.Lib.Pipeline.Frame
import Idealize.ShloMosaic.Lib.Pipeline.Kit
import Idealize.ShloMosaic.Adequacy
import Idealize.ShloMosaic.Init

noncomputable section

namespace Cert.KernelIdeal.Launch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core c's buffers at launch, as a valuation. -/
abbrev V₀ (c : Dev nD) : Valuation τ sig (Elt F) := fun b => m ((c : Dev nD), b)
/-- The same read at a TensorCore reference: the region is entered from the launch memory. -/
abbrev V (c : Dev nD) (b : Ref sig .tc) : Buf (Elt F) ((c : Thread nD τ).loc b) := m ((c : Thread nD τ).loc b)

variable (dats : (p : Fin 1) → (c : Dev nD) → Dat τ (Elt F) Unit ℕ (UR sig nD τ) ℕ cfg0 c)

/-- The buffers after the region: the output array at what the region wrote back, every other buffer as launched. -/
def V₁ (c : Dev nD) : Valuation τ sig (Elt F) := fun b =>
  if h : b = Proc.devRef .tc main_v0 then h ▸ ((dats 0 c).arrAt 2 cfg0.N) else m ((c : Dev nD), b)

/-! ## What the region needs of its proof data -/

/-- The hypotheses on the proof data. -/
structure Hyp : Prop where
  hA : ∀ c w, (dats 0 c).A w = V m c (Pipeline.arrRef spec0 w)
  hq0 : ∀ c, (dats 0 c).q 0 = fullShare.left
  hq1 : ∀ c, (dats 0 c).q 1 = fullShare.right
  howed : ∀ c t, (dats 0 c).owed t = 0
  hrec : ∀ c t, (dats 0 c).recorded t = Set.univ
  hbody : ∀ c, BodyObligation (dats 0 c) (defs₀ (F := F)) Variants.none () Set.univ
  hin : ∀ c, (Pipeline.ΦA spec0 c : sProp 𝕄) ⊢ (dats 0 c).Φ 0
  hout : ∀ c, (dats 0 c).Φ (Fin.last cfg0.N) ⊢ (Pipeline.ΦA spec0 c : sProp 𝕄)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none

/-- What rides beside the buffers: the generator register at some state and the core's owes. -/
abbrev R (c : Dev nD) : sProp 𝕄 :=
  iprop((∃ r, prngReg c r) ∗ ∃ W, owes (c : Thread nD τ) (0 : CellTallies nD τ sig Unit) W)

/-! ## The two arrays behind the three windows -/

/-- The distinct buffers behind the windows' arrays: the input and the output. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)) := by
  unfold Pipeline.arrBufs
  rw [show Finset.univ.image (Pipeline.arrRef spec0) = {main_arg0, main_v0} from by decide]
  rw [BI.bigSep_insert (by decide), BI.bigSep_singleton]
  rfl

variable {m dats}

/-- The proof data's arrays, window by window: the input array's two halves and the output array whole. -/
theorem arrays_eq3 (H : Hyp m dats) (c : Dev nD)
    (Fn : (w : Fin cfg0.W) → Buf (Elt F) ((cfg0.win w).arr.view.loc (c : Thread nD τ))) :
    ((dats 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2)) := by
  unfold Dat.arrays
  rw [bigSep_W0]
  rw [(arr_whole0 0).set_eq_univ, (arr_whole0 2).set_eq_univ]
  rw [show (dats 0 c).share 0 = fullShare.left from by unfold Dat.share; rw [if_neg (by decide)]; exact H.hq0 c,
    show (dats 0 c).share 1 = fullShare.right from by unfold Dat.share; rw [if_neg (by decide)]; exact H.hq1 c,
    show (dats 0 c).share 2 = fullShare from by unfold Dat.share; rw [if_pos (by decide)]]

/-- ENTRY: the two buffers, whole, make the proof data's arrays at their entry contents: the input array is split
    into the two halves its two windows hold. -/
theorem arrays_entry (H : Hyp m dats) (c : Dev nD) :
    (Pipeline.arrBufs spec0 c (V m c) : sProp 𝕄) ⊢ (dats 0 c).arrays ((dats 0 c).arrAt · 0) := by
  rw [arrBufs_eq, arrays_eq3 H]
  have e0 : (dats 0 c).arrAt 0 0 = V m c main_arg0 := H.hA c 0
  have e1 : (dats 0 c).arrAt 1 0 = V m c main_arg0 := H.hA c 1
  have e2 : (dats 0 c).arrAt 2 0 = V m c main_v0 := H.hA c 2
  rw [e0, e1, e2]
  have hs : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  iintro ⟨Ha, Hv⟩
  ihave Hs := hs $$ Ha
  icases Hs with ⟨Hl, Hr⟩
  isplitl [Hl]; · iexact Hl
  isplitl [Hr]; · iexact Hr
  iexact Hv

/-- EXIT: an input window's array is never written, so both halves still hold the launch contents and join; the
    output array holds what the region wrote back. -/
theorem arrays_exit (H : Hyp m dats) (c : Dev nD) :
    ((dats 0 c).arrays ((dats 0 c).arrAt · cfg0.N) : sProp 𝕄)
      ⊢ iprop((((c : Thread nD τ).loc main_arg0) ↦{fullShare} V m c main_arg0)
          ∗ (((c : Thread nD τ).loc main_v0) ↦{fullShare} (dats 0 c).arrAt 2 cfg0.N)) := by
  rw [arrays_eq3 H]
  have e0 : (dats 0 c).arrAt 0 cfg0.N = V m c main_arg0 := ((dats 0 c).arrAt_in 0 rfl _).trans (H.hA c 0)
  have e1 : (dats 0 c).arrAt 1 cfg0.N = V m c main_arg0 := ((dats 0 c).arrAt_in 1 rfl _).trans (H.hA c 1)
  rw [e0, e1]
  iintro ⟨Hl, Hr, Hv⟩
  have hj : iprop((((c : Thread nD τ).loc main_arg0) ↦{fullShare.left} V m c main_arg0) ∗ (((c : Thread nD τ).loc main_arg0) ↦{fullShare.right} V m c main_arg0))
      ⊢ ((((c : Thread nD τ).loc main_arg0) ↦{fullShare} V m c main_arg0) : sProp 𝕄) :=
    (pointsTo_share (PosShare.mem_left_op_right fullShare)).2
  isplitr [Hv]
  · iapply hj
    isplitl [Hl] <;> iassumption
  · iexact Hv

variable (m dats)

/-- A core's unscoped buffers at a valuation: the two arrays' buffers and the five other host buffers. -/
theorem held_eq (c : Dev nD) (W : Valuation τ sig (Elt F)) :
    (StableHlo.held (c : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held c W, Pipeline.unscopedBufs_split₀ cfgs 0 winFacts₀0.arr_unscoped c]

theorem V₁_v0 (c : Dev nD) : V₁ m dats c (Proc.devRef .tc main_v0) = (dats 0 c).arrAt 2 cfg0.N := by
  unfold V₁; rw [dif_pos rfl]

theorem V₁_ne (c : Dev nD) (b : Ref sig .tc) (hb : b ≠ main_v0) :
    V₁ m dats c (Proc.devRef .tc b) = m ((c : Thread nD τ).loc b) := by
  unfold V₁; rw [dif_neg (fun h => hb (Proc.devRef_injective _ h))]

/-- The five other host buffers are as launched after the region. -/
theorem unscopedRest_V₁ (c : Dev nD) :
    (Pipeline.unscopedRest spec0 c (fun b => V₁ m dats c (Proc.devRef .tc b)) : sProp 𝕄) = Pipeline.unscopedRest spec0 c (V m c) := by
  unfold Pipeline.unscopedRest
  refine bigSep_congr fun b hb => ?_
  beta_reduce
  rw [V₁_ne m dats c b (fun h => ?_)]
  subst h
  exact absurd hb (by decide)

/-! ## The region and the host operations after it, as segments -/

variable {m dats}

-- applying a launch lemma stated over the pinned configuration unifies only when unification may unfold plain
-- definitions in a metavariable's type
set_option backward.isDefEq.respectTransparency.types false in
/-- THE REGION: entered from the launch memory — the two arrays into the pipeline (the input split in halves), the
    generator register into the invariant, the five other host buffers bypassing —, left with the output array at
    what the region wrote back. -/
def reg0 (H : Hyp m dats) : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (H.hbody c).loose
  hwaits := Pipeline.hwaits_of_owed_zero _ _ _ _ L lv 0 H.howed
  pre c := iprop(StableHlo.held (c : Thread nD τ) (Pipeline.ucRefs τ sig) (V₀ m c) ∗ R c)
  post c := iprop(StableHlo.held (c : Thread nD τ) (Pipeline.ucRefs τ sig) (V₁ m dats c) ∗ R c)
  X c := iprop(∃ r, prngReg c r)
  Y c := iprop(∃ r, prngReg c r)
  Z c := Pipeline.unscopedRest spec0 c (V m c)
  hentry c := by
    rw [held_eq]
    iintro ⟨⟨⟨Ha, Hrest⟩, Hp, HO⟩, -, -⟩
    ihave Harr := (arrays_entry H c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      rw [H.howed c 0]
      icases HO with ⟨%W, HO⟩; iexists W; isplitr; · ipureintro; exact fun _ _ => Or.inl (by rw [H.hrec c 0]; trivial)
      iexact HO
    isplitl [Hp]; · iexact Hp
    iexact Hrest
  hin c := by
    refine (show _ ⊢ (Pipeline.ΦA spec0 c : sProp 𝕄) from ?_).trans (H.hin c)
    unfold Pipeline.ΦA
    iintro ⟨Hp, -, Hr⟩
    isplitl [Hr] <;> iassumption
  hout c := by
    refine (H.hout c).trans ?_
    rw [Pipeline.ownSems0_none]; unfold Pipeline.ΦA
    iintro ⟨Hr, Hp⟩
    isplitl [Hp]; · iexact Hp
    isplitr; · iempintro
    iexact Hr
  hexit c := by
    rw [held_eq, arrBufs_eq, unscopedRest_V₁, V₁_v0, V₁_ne m dats c main_arg0 (by decide)]
    iintro ⟨Ha, HO, HY, HZ⟩
    ihave Hx := (arrays_exit H c) $$ Ha
    icases Hx with ⟨Harg, Hv⟩
    imodintro
    isplitl [Harg Hv HZ]
    · isplitl [Harg Hv]
      · isplitl [Harg] <;> iassumption
      iexact HZ
    isplitl [HY]; · iexact HY
    unfold Pipeline.Dat.owesAt Pipeline.owesWithin
    rw [H.howed c (Fin.last _)]
    icases HO with ⟨%W, -, HO⟩; iexists W; iexact HO

variable (m dats)

/-- THE HOST OPERATIONS after the region, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m dats) R

/-- What is held at the end: every unscoped buffer at the host operations' contents. -/
abbrev Tₙ (c : Dev nD) : sProp 𝕄 :=
  iprop(StableHlo.held (c : Thread nD τ) (Pipeline.ucRefs τ sig) (StableHlo.after hostOps1 (V₁ m dats c)) ∗ ∃ r, prngReg c r)

variable {m dats}

-- the launch theorem's implicit arguments are found by unifying its conclusion with this one, which takes unfolding plain
-- definitions in a metavariable's type
set_option backward.isDefEq.respectTransparency.types false in
/-- At the compiled mesh, from any memory with zero counters: every weakly fair execution of the program terminates,
    nothing faulting, and every final state has every unscoped buffer at the host operations' contents over the
    memory with the output array at what the region wrote back. -/
theorem run_main (H : Hyp m dats) :
    θ_run defs (onTc (τ := τ) (main (F := F))) (s₀ m ρ) (fun r => ∀ c : Dev nD, ∀ b ∈ Pipeline.ucRefs τ sig,
      r.2.mem ((c : Dev nD), b) = StableHlo.after hostOps1 (V₁ m dats c) b) :=
  Pipeline.θ_run_regions_kit (pcfgs (F := F)) adm dats () cellOf_inj emb₁ defs₀ 𝒱₀ L lv m ρ main
    [.region (reg0 H), .host (seg1 m dats)]
    (fun c Q => by rw [main_segs adm dats () 𝒱₀ L lv (seg1 m dats) (reg0 H) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m dats)
    (hch := ⟨fun _ => .rfl, fun _ => .rfl, fun c => by
      show iprop(StableHlo.held (c : Thread nD τ) (Pipeline.ucRefs τ sig) (StableHlo.after hostOps1 (V₁ m dats c)) ∗ R c) ⊢ _
      iintro ⟨Hh, Hp, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Dev nD), b) = StableHlo.after hostOps1 (V₁ m dats c) b)
    (hfin := fun c s' => by
      iintro ⟨⟨Hh, -⟩, HSI⟩
      unfold StableHlo.held
      ihave Hr := (pointsTo_read_all (Pipeline.ucRefs τ sig) (fun b => ((c : Dev nD), b)) (StableHlo.after hostOps1 (V₁ m dats c)) s') $$ [Hh HSI]
      · isplitl [Hh] <;> iassumption
      icases Hr with ⟨%h, HSI⟩
      imodintro
      isplitr; · ipureintro; exact h
      iexact HSI)
    (hQ := fun _ h => h)

end Cert.KernelIdeal.Launch

end
-- ==== Proof.KShared.lean ====
/- What the six runs of the kernel body share: the branch conditions of the body decided over the
   8 x 8 grid, where the output window is idle, the staging and scratch memrefs the body is called
   on, the input windows' blocks, and the pipeline invariant read as the three carried scratch
   buffers. Everything is generic in the float instance. -/
import proofs.«132228_j84499186581515_1_alg».proof.Proof.Gen.KernelIdeal.Launch
import proofs.«132228_j84499186581515_1_alg».proof.Proof.Gen.KernelIdeal.Skeleton
import proofs.«132228_j84499186581515_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The windows' blocks -/

/-- Core `c`'s buffer contents when the region is entered: no host operation precedes the region, so
    it finds the memory as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the row block at block row `qi`, fetched only where `ki = 0`): its current staging
    buffer holds its block at every point, fetched there or not — unfetched, the block index has not
    moved. For any proof data whose array is the region-entry contents and whose body leaves the block in
    place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the row block at block row `ki`, fetched at every point): the same. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, from the grid coordinates `(qi, ki) = (t / 8, t % 8)` -/

/-- The first branch: `ki = 0` (the first tile of a row block: the carried statistics are reset). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch: `qi = ki` (the diagonal tile). -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val % 9 = 0 :=
  (by decide +kernel : ∀ t : Fin grid0.N, cond0_1 (grid0.coords t) ↔ t.val % 9 = 0)

/-- The third branch: `qi ≠ ki` (an off-diagonal tile). -/
abbrev cond0_2 (i : grid0.Coords) : Prop :=
  (Scalar.cmpi .ne (Scalar.extui (Scalar.cmpi .ne (BitVec.ofNat 32 (i 0).val) (BitVec.ofNat 32 (i 1).val))) 0#32) = 1#1
theorem hcond0_2 : ∀ t : Fin cfg0.N, cond0_2 (grid0.coords t) ↔ ¬ t.val % 9 = 0 :=
  (by decide +kernel : ∀ t : Fin grid0.N, cond0_2 (grid0.coords t) ↔ ¬ t.val % 9 = 0)

/-- The fourth branch: `ki = 7` (the last tile of a row block: the row losses are written out). -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-- The second and third branches exclude each other and one of them holds. -/
theorem hcond0_2_iff : ∀ t : Fin cfg0.N, cond0_2 (grid0.coords t) ↔ ¬ cond0_1 (grid0.coords t) :=
  fun t => by rw [hcond0_2, hcond0_1]

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where `ki ≠ 7` the output window is idle: the body stores nothing into it, -/
theorem idleAt0_2 : ∀ t : Fin cfg0.N, ¬cond0_3 (grid0.coords t) → cfg0.idle 2 (grid0.coords t) = true := by decide +kernel
/-- and the pipeline does not write its block back there. -/
theorem noFlush0_2 : ∀ t : Fin cfg0.N, ¬cond0_3 (grid0.coords t) → (cfg0.win 2).flush t = false := by decide +kernel
/-- Where `ki = 7` the output window is live: the body stores into it. -/
theorem liveAt0_2 : ∀ t : Fin cfg0.N, cond0_3 (grid0.coords t) → cfg0.idle 2 (grid0.coords t) = false := by decide +kernel

/-! ## The memrefs the body is called on -/

/-- One staging buffer of the output window, through which its contents are stated (the choice does not
    matter). -/
abbrev VO0_2 : View sig .tc .vmem S512x1 .f32 := (Memref.whole cc0_stg2_0 : Memref sig .tc .vmem S512x1 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The scratch operands (the running maximum, the running sum, the partner logit): whole scoped buffers of
    the kernel's own, carried from point to point. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- The scratch operands as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view

/-- The body at point `t` is the kernel function on these memrefs. -/
theorem bodyAt0_eq (t : Fin cfg0.N) :
    bodyAt0 (F := F) t = cc0__ntxent_kernel (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) := rfl

/-- The pipeline's invariant between points, with the scratch operands as memrefs each owned at some
    contents: what the body obligation hands a run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KRunD.lean ====
/- The run of the kernel body in case D: an off-diagonal tile that is neither first nor last in its row block: the carried maximum and sum are updated by the plain tile; the partner logit is left alone. -/
import proofs.«132228_j84499186581515_1_alg».proof.Proof.KShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case D (the other 42 points) — an off-diagonal tile that is neither first nor last in its row block: the carried maximum and sum are updated by the plain tile; the partner logit is left alone. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at what the point before left, `xs0`, `xs1`, `xs2` — the body runs to any
    continuation that takes the inputs as they were and each buffer with its pieces written (the partner logit as found). -/
noncomputable def kernelRun0_D (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, [], fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; isplitr; · ipureintro; exact harg7.read_unread _
    iexact HS2

end Cert.KernelIdeal.Body

end
-- ==== Proof.KRunC.lean ====
/- The run of the kernel body in case C: a diagonal tile that is neither first nor last in its row block (0 < ki = qi < 7): the partner logit is picked and the carried statistics are updated by the masked tile. -/
import proofs.«132228_j84499186581515_1_alg».proof.Proof.KRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case C (points 9, 18, …, 54) — a diagonal tile that is neither first nor last in its row block (0 < ki = qi < 7): the partner logit is picked and the carried statistics are updated by the masked tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at what the point before left, `xs0`, `xs1`, `xs2` — the body runs to any
    continuation that takes the inputs as they were and each buffer with its pieces written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KRunB.lean ====
/- The run of the kernel body in case B: the first tile of a later row block, off the diagonal (ki = 0, qi ≠ ki): the carried statistics are reset and then updated by the plain tile. -/
import proofs.«132228_j84499186581515_1_alg».proof.Proof.KRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case B (points 8, 16, …, 56) — the first tile of a later row block, off the diagonal (ki = 0, qi ≠ ki): the carried statistics are reset and then updated by the plain tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at anything — the body runs to any
    continuation that takes the inputs as they were and each buffer with its pieces written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KRunA.lean ====
/- The run of the kernel body in case A: the first tile of the first row block, which is also its diagonal tile (ki = 0, qi = ki): the carried statistics are reset and then updated by the masked diagonal tile. -/
import proofs.«132228_j84499186581515_1_alg».proof.Proof.KRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case A (point 0) — the first tile of the first row block, which is also its diagonal tile (ki = 0, qi = ki): the carried statistics are reset and then updated by the masked diagonal tile. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at any contents `xi2`, handed back untouched; the three carried buffers at anything — the body runs to any
    continuation that takes the inputs as they were and each buffer with its pieces written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], ?_, ?_, ?_, fun xi2 E K => ?run⟩
  case run =>
    simp only [cc0__ntxent_kernel_eq_skeleton]; unfold cc0__ntxent_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KRunF.lean ====
/- The run of the kernel body in case F: the last tile of an earlier row block, off the diagonal (ki = 7, qi ≠ 7): the plain update, then the row losses are written out. -/
import proofs.«132228_j84499186581515_1_alg».proof.Proof.KRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case F (points 7, 15, …, 55) — the last tile of an earlier row block, off the diagonal (ki = 7, qi ≠ 7): the plain update, then the row losses are written out. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at anything; the three carried buffers at what the point before left, `xs0`, `xs1`, `xs2` — the body runs to any
    continuation that takes the inputs as they were and each buffer with its pieces written (the partner logit as found). -/
noncomputable def kernelRun0_F (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ owns (c : Thread nD τ) arg7 fullShare xs2) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, [], fun E K => ?run⟩
  case run =>
    simp only [cc0__ntxent_kernel_eq_skeleton]; unfold cc0__ntxent_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; isplitr; · ipureintro; exact harg7.read_unread _
    iexact HS2

end Cert.KernelIdeal.Body

end
-- ==== Proof.KRunE.lean ====
/- The run of the kernel body in case E: the last tile of the last row block, which is its diagonal tile (qi = ki = 7): the masked update, then the row losses are written out. -/
import proofs.«132228_j84499186581515_1_alg».proof.Proof.KRunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole-body run in case E (point 63) — the last tile of the last row block, which is its diagonal tile (qi = ki = 7): the masked update, then the row losses are written out. The witness is, per buffer, the list of
    pieces the case's stores leave in it (last store first; empty for a buffer the case does not store
    into: the output block `L2`, the running maximum `LS0`, the running sum `LS1`, the partner logit `LS2`),
    with the proof that on whole memrefs — the two input blocks at `x0`, `x1`; the output block at anything; the three carried buffers at what the point before left, `xs0`, `xs1`, `xs2` — the body runs to any
    continuation that takes the inputs as they were and each buffer with its pieces written. -/
noncomputable def kernelRun0_E (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) :
    Σ' (L2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, ?_, fun E K => ?run⟩
  case run =>
    simp only [cc0__ntxent_kernel_eq_skeleton]; unfold cc0__ntxent_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Body

end
-- ==== Proof.KOuts.lean ====
/- What each case of the kernel body leaves in the buffers it stores into, at a grid point: the case's run taken at the memrefs the pipeline passes at the point and at the point's two input blocks, and its stores into each buffer read back. Every store of the body is a store of a whole [512, 1] block, so the stores into a buffer cover it and what they leave does not depend on what the buffer held. -/
import proofs.«132228_j84499186581515_1_alg».proof.Proof.KRunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
/-- Case A's run at the grid point `t`: on the staging memrefs the pipeline passes there, the three carried
    buffers, and the point's two input blocks. -/
abbrev runAt_A (c : Dev nD) (t : Fin cfg0.N) (h0 : t.val % 8 = 0) (h1 : t.val % 9 = 0) (h3 : ¬t.val % 8 = 7) :=
  kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) ((hcond0_1 t).mpr h1) (fun h => (hcond0_2 t).mp h h1) (fun h => h3 ((hcond0_3 t).mp h)) (iblk m c 0 t) (iblk m c 1 t)

/-- What case A leaves in the running maximum at the point `t`: its stores read back. -/
def sout0_A_0 (c : Dev nD) (t : Fin cfg0.N) (h0 : t.val % 8 = 0) (h1 : t.val % 9 = 0) (h3 : ¬t.val % 8 = 7) : Vec F S512x1 .f32 :=
  VS0_0.read (Elt F) (VS0_0.writes (Elt F) VS0_0.junk (runAt_A m c t h0 h1 h3).2.1)

/-- What case A leaves in the running sum at the point `t`: its stores read back. -/
def sout0_A_1 (c : Dev nD) (t : Fin cfg0.N) (h0 : t.val % 8 = 0) (h1 : t.val % 9 = 0) (h3 : ¬t.val % 8 = 7) : Vec F S512x1 .f32 :=
  VS0_1.read (Elt F) (VS0_1.writes (Elt F) VS0_1.junk (runAt_A m c t h0 h1 h3).2.2.1)

/-- What case A leaves in the partner logit at the point `t`: its stores read back. -/
def sout0_A_2 (c : Dev nD) (t : Fin cfg0.N) (h0 : t.val % 8 = 0) (h1 : t.val % 9 = 0) (h3 : ¬t.val % 8 = 7) : Vec F S512x1 .f32 :=
  VS0_2.read (Elt F) (VS0_2.writes (Elt F) VS0_2.junk (runAt_A m c t h0 h1 h3).2.2.2.1)

/-- Case B's run at the grid point `t`: on the staging memrefs the pipeline passes there, the three carried
    buffers, and the point's two input blocks. -/
abbrev runAt_B (c : Dev nD) (t : Fin cfg0.N) (h0 : t.val % 8 = 0) (h1 : ¬t.val % 9 = 0) (h3 : ¬t.val % 8 = 7) :=
  kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    ((hcond0_0 t).mpr h0) (fun h => h1 ((hcond0_1 t).mp h)) ((hcond0_2 t).mpr h1) (fun h => h3 ((hcond0_3 t).mp h)) (iblk m c 0 t) (iblk m c 1 t)

/-- What case B leaves in the running maximum at the point `t`: its stores read back. -/
def sout0_B_0 (c : Dev nD) (t : Fin cfg0.N) (h0 : t.val % 8 = 0) (h1 : ¬t.val % 9 = 0) (h3 : ¬t.val % 8 = 7) : Vec F S512x1 .f32 :=
  VS0_0.read (Elt F) (VS0_0.writes (Elt F) VS0_0.junk (runAt_B m c t h0 h1 h3).2.1)

/-- What case B leaves in the running sum at the point `t`: its stores read back. -/
def sout0_B_1 (c : Dev nD) (t : Fin cfg0.N) (h0 : t.val % 8 = 0) (h1 : ¬t.val % 9 = 0) (h3 : ¬t.val % 8 = 7) : Vec F S512x1 .f32 :=
  VS0_1.read (Elt F) (VS0_1.writes (Elt F) VS0_1.junk (runAt_B m c t h0 h1 h3).2.2.1)

/-- What case B leaves in the partner logit at the point `t`: its stores read back. -/
def sout0_B_2 (c : Dev nD) (t : Fin cfg0.N) (h0 : t.val % 8 = 0) (h1 : ¬t.val % 9 = 0) (h3 : ¬t.val % 8 = 7) : Vec F S512x1 .f32 :=
  VS0_2.read (Elt F) (VS0_2.writes (Elt F) VS0_2.junk (runAt_B m c t h0 h1 h3).2.2.2.1)

/-- Case C's run at the grid point `t`: on the staging memrefs the pipeline passes there, the three carried
    buffers, and the point's two input blocks. -/
abbrev runAt_C (c : Dev nD) (t : Fin cfg0.N) (h0 : ¬t.val % 8 = 0) (h1 : t.val % 9 = 0) (h3 : ¬t.val % 8 = 7) (xs0 xs1 xs2 : Vec F S512x1 .f32) :=
  kernelRun0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) (fun h => h3 ((hcond0_3 t).mp h)) (iblk m c 0 t) (iblk m c 1 t) xs0 xs1 xs2

/-- What case C leaves in the running maximum at the point `t`: its stores read back. -/
def sout0_C_0 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_0.read (Elt F) (VS0_0.writes (Elt F) VS0_0.junk (runAt_C m c t h0 h1 h3 xs0 xs1 xs2).2.1)

/-- What case C leaves in the running sum at the point `t`: its stores read back. -/
def sout0_C_1 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_1.read (Elt F) (VS0_1.writes (Elt F) VS0_1.junk (runAt_C m c t h0 h1 h3 xs0 xs1 xs2).2.2.1)

/-- What case C leaves in the partner logit at the point `t`: its stores read back. -/
def sout0_C_2 (c : Dev nD) (t : Fin cfg0.N) (h0 : ¬t.val % 8 = 0) (h1 : t.val % 9 = 0) (h3 : ¬t.val % 8 = 7) (xs0 xs1 xs2 : Vec F S512x1 .f32) : Vec F S512x1 .f32 :=
  VS0_2.read (Elt F) (VS0_2.writes (Elt F) VS0_2.junk (runAt_C m c t h0 h1 h3 xs0 xs1 xs2).2.2.2.1)

/-- Case D's run at the grid point `t`: on the staging memrefs the pipeline passes there, the three carried
    buffers, and the point's two input blocks. -/
abbrev runAt_D (c : Dev nD) (t : Fin cfg0.N) (h0 : ¬t.val % 8 = 0) (h1 : ¬t.val % 9 = 0) (h3 : ¬t.val % 8 = 7) (xs0 xs1 xs2 : Vec F S512x1 .f32) :=
  kernelRun0_D c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) (fun h => h3 ((hcond0_3 t).mp h)) (iblk m c 0 t) (iblk m c 1 t) xs0 xs1 xs2

/-- What case D leaves in the running maximum at the point `t`: its stores read back. -/
def sout0_D_0 (c : Dev nD) (t : Fin cfg0.N) (h0 : ¬t.val % 8 = 0) (h1 : ¬t.val % 9 = 0) (h3 : ¬t.val % 8 = 7) (xs0 xs1 xs2 : Vec F S512x1 .f32) : Vec F S512x1 .f32 :=
  VS0_0.read (Elt F) (VS0_0.writes (Elt F) VS0_0.junk (runAt_D m c t h0 h1 h3 xs0 xs1 xs2).2.1)

/-- What case D leaves in the running sum at the point `t`: its stores read back. -/
def sout0_D_1 (c : Dev nD) (t : Fin cfg0.N) (h0 : ¬t.val % 8 = 0) (h1 : ¬t.val % 9 = 0) (h3 : ¬t.val % 8 = 7) (xs0 xs1 xs2 : Vec F S512x1 .f32) : Vec F S512x1 .f32 :=
  VS0_1.read (Elt F) (VS0_1.writes (Elt F) VS0_1.junk (runAt_D m c t h0 h1 h3 xs0 xs1 xs2).2.2.1)

/-- Case E's run at the grid point `t`: on the staging memrefs the pipeline passes there, the three carried
    buffers, and the point's two input blocks. -/
abbrev runAt_E (c : Dev nD) (t : Fin cfg0.N) (h0 : ¬t.val % 8 = 0) (h1 : t.val % 9 = 0) (h3 : t.val % 8 = 7) (xs0 xs1 xs2 : Vec F S512x1 .f32) :=
  kernelRun0_E c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) ((hcond0_3 t).mpr h3) (iblk m c 0 t) (iblk m c 1 t) xs0 xs1 xs2

/-- What case E leaves in the output block's staging buffer at the point `t`: its stores read back. -/
def out0_E_2 (c : Dev nD) (t : Fin cfg0.N) (h0 : ¬t.val % 8 = 0) (h1 : t.val % 9 = 0) (h3 : t.val % 8 = 7) (xs0 xs1 xs2 : Vec F S512x1 .f32) : Vec F S512x1 .f32 :=
  VO0_2.read (Elt F) (VO0_2.writes (Elt F) VO0_2.junk (runAt_E m c t h0 h1 h3 xs0 xs1 xs2).1)

/-- What case E leaves in the running maximum at the point `t`: its stores read back. -/
def sout0_E_0 (c : Dev nD) (t : Fin cfg0.N) (h0 : ¬t.val % 8 = 0) (h1 : t.val % 9 = 0) (h3 : t.val % 8 = 7) (xs0 xs1 xs2 : Vec F S512x1 .f32) : Vec F S512x1 .f32 :=
  VS0_0.read (Elt F) (VS0_0.writes (Elt F) VS0_0.junk (runAt_E m c t h0 h1 h3 xs0 xs1 xs2).2.1)

/-- What case E leaves in the running sum at the point `t`: its stores read back. -/
def sout0_E_1 (c : Dev nD) (t : Fin cfg0.N) (h0 : ¬t.val % 8 = 0) (h1 : t.val % 9 = 0) (h3 : t.val % 8 = 7) (xs0 xs1 xs2 : Vec F S512x1 .f32) : Vec F S512x1 .f32 :=
  VS0_1.read (Elt F) (VS0_1.writes (Elt F) VS0_1.junk (runAt_E m c t h0 h1 h3 xs0 xs1 xs2).2.2.1)

/-- What case E leaves in the partner logit at the point `t`: its stores read back. -/
def sout0_E_2 (c : Dev nD) (t : Fin cfg0.N) (h0 : ¬t.val % 8 = 0) (h1 : t.val % 9 = 0) (h3 : t.val % 8 = 7) (xs0 xs1 xs2 : Vec F S512x1 .f32) : Vec F S512x1 .f32 :=
  VS0_2.read (Elt F) (VS0_2.writes (Elt F) VS0_2.junk (runAt_E m c t h0 h1 h3 xs0 xs1 xs2).2.2.2.1)

/-- Case F's run at the grid point `t`: on the staging memrefs the pipeline passes there, the three carried
    buffers, and the point's two input blocks. -/
abbrev runAt_F (c : Dev nD) (t : Fin cfg0.N) (h0 : ¬t.val % 8 = 0) (h1 : ¬t.val % 9 = 0) (h3 : t.val % 8 = 7) (xs0 xs1 xs2 : Vec F S512x1 .f32) :=
  kernelRun0_F c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) ((hcond0_3 t).mpr h3) (iblk m c 0 t) (iblk m c 1 t) xs0 xs1 xs2

/-- What case F leaves in the output block's staging buffer at the point `t`: its stores read back. -/
def out0_F_2 (c : Dev nD) (t : Fin cfg0.N) (h0 : ¬t.val % 8 = 0) (h1 : ¬t.val % 9 = 0) (h3 : t.val % 8 = 7) (xs0 xs1 xs2 : Vec F S512x1 .f32) : Vec F S512x1 .f32 :=
  VO0_2.read (Elt F) (VO0_2.writes (Elt F) VO0_2.junk (runAt_F m c t h0 h1 h3 xs0 xs1 xs2).1)

/-- What case F leaves in the running maximum at the point `t`: its stores read back. -/
def sout0_F_0 (c : Dev nD) (t : Fin cfg0.N) (h0 : ¬t.val % 8 = 0) (h1 : ¬t.val % 9 = 0) (h3 : t.val % 8 = 7) (xs0 xs1 xs2 : Vec F S512x1 .f32) : Vec F S512x1 .f32 :=
  VS0_0.read (Elt F) (VS0_0.writes (Elt F) VS0_0.junk (runAt_F m c t h0 h1 h3 xs0 xs1 xs2).2.1)

/-- What case F leaves in the running sum at the point `t`: its stores read back. -/
def sout0_F_1 (c : Dev nD) (t : Fin cfg0.N) (h0 : ¬t.val % 8 = 0) (h1 : ¬t.val % 9 = 0) (h3 : t.val % 8 = 7) (xs0 xs1 xs2 : Vec F S512x1 .f32) : Vec F S512x1 .f32 :=
  VS0_1.read (Elt F) (VS0_1.writes (Elt F) VS0_1.junk (runAt_F m c t h0 h1 h3 xs0 xs1 xs2).2.2.1)

/-- Where the tile is not the last of its row block (`ki ≠ 7`) the body stores nothing into the output block's
    staging buffer, the pipeline does not write it back and the next point does not read it: a placeholder that
    nothing consults. -/
def out0_idle_2 : Vec F S512x1 .f32 := VO0_2.read (Elt F) VO0_2.junk

end Cert.KernelIdeal.Body

end
-- ==== Proof.KDats.lean ====
/- The proof data of the pipeline: what the output block's staging buffer and the three carried buffers (running maximum, running sum, partner logit) hold after each of the 64 grid points, by recursion on the point; the invariant between points; the arrays, the windows' contents after the body and the small facts the launch and the body obligation take. -/
import proofs.«132228_j84499186581515_1_alg».proof.Proof.KOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
/-! ## What the buffers hold after each point -/

/-- The contents point by point. What the output block's staging buffer and the three carried buffers (the running maximum, the
    running sum, the partner logit) hold after the body at position `n`, as a tuple in that order: the case the
    closed forms select at `n`, run at the point's memrefs and input blocks, the carried contents it reads taken from
    position `n - 1`. The first tile of a row block (`ki = 0`) stores all three carried buffers before reading
    them; an off-diagonal tile leaves the partner logit as it found it. The first point is the only one that is both
    the first tile of its row block and diagonal. -/
def outsAt0 (c : Dev nD) : (n : ℕ) → n < cfg0.N → Vec F S512x1 .f32 × Vec F S512x1 .f32 × Vec F S512x1 .f32 × Vec F S512x1 .f32
  | 0, hn => (out0_idle_2, sout0_A_0 m c ⟨0, hn⟩ (Nat.zero_mod 8) (Nat.zero_mod 9) (fun h => (by decide : ¬ (0 % 8 = 7)) h), sout0_A_1 m c ⟨0, hn⟩ (Nat.zero_mod 8) (Nat.zero_mod 9) (fun h => (by decide : ¬ (0 % 8 = 7)) h), sout0_A_2 m c ⟨0, hn⟩ (Nat.zero_mod 8) (Nat.zero_mod 9) (fun h => (by decide : ¬ (0 % 8 = 7)) h))
  | n + 1, hn =>
    if h0 : (n + 1) % 8 = 0 then
      if h1 : (n + 1) % 9 = 0 then
        False.elim (by have hN : n + 1 < 64 := lt_of_lt_of_eq hn (show cfg0.N = 64 from N_0); omega)
      else
        (out0_idle_2, sout0_B_0 m c ⟨n + 1, hn⟩ h0 h1 (fun h => (by omega : ¬ ((n + 1) % 8 = 7)) h), sout0_B_1 m c ⟨n + 1, hn⟩ h0 h1 (fun h => (by omega : ¬ ((n + 1) % 8 = 7)) h), sout0_B_2 m c ⟨n + 1, hn⟩ h0 h1 (fun h => (by omega : ¬ ((n + 1) % 8 = 7)) h))
    else
      if h3 : (n + 1) % 8 = 7 then
        if h1 : (n + 1) % 9 = 0 then
          (out0_E_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_E_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2)
        else
          (out0_F_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_F_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_F_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)
      else
        if h1 : (n + 1) % 9 = 0 then
          (out0_idle_2, sout0_C_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_C_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_C_2 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2)
        else
          (out0_idle_2, sout0_D_0 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, sout0_D_1 m c ⟨n + 1, hn⟩ h0 h1 h3 (outsAt0 c n (Nat.lt_of_succ_lt hn)).2.1 (outsAt0 c n (Nat.lt_of_succ_lt hn)).2.2.1 (outsAt0 c n (Nat.lt_of_succ_lt hn)).2.2.2, (outsAt0 c n (Nat.lt_of_succ_lt hn)).2.2.2)

/-- `outsAt0` at a point of case A. -/
theorem outsAt0_A (c : Dev nD) (t : Fin cfg0.N) (h0 : t.val % 8 = 0) (h1 : t.val % 9 = 0) (h3 : ¬t.val % 8 = 7) :
    outsAt0 m c t.val t.isLt = (out0_idle_2, sout0_A_0 m c t h0 h1 h3, sout0_A_1 m c t h0 h1 h3, sout0_A_2 m c t h0 h1 h3) := by
  obtain ⟨n, hn⟩ := t
  cases n with
  | zero => exact rfl
  | succ n => exact (by exfalso; dsimp only at h0 h1; have hN : n + 1 < 64 := lt_of_lt_of_eq hn (show cfg0.N = 64 from N_0); omega)

/-- `outsAt0` at a point of case B. -/
theorem outsAt0_B (c : Dev nD) (t : Fin cfg0.N) (h0 : t.val % 8 = 0) (h1 : ¬t.val % 9 = 0) (h3 : ¬t.val % 8 = 7) :
    outsAt0 m c t.val t.isLt = (out0_idle_2, sout0_B_0 m c t h0 h1 h3, sout0_B_1 m c t h0 h1 h3, sout0_B_2 m c t h0 h1 h3) := by
  obtain ⟨n, hn⟩ := t
  cases n with
  | zero => exact (by exfalso; dsimp only at h1; exact absurd (Nat.zero_mod 9) h1)
  | succ n => exact (dif_pos h0).trans ((dif_neg h1).trans rfl)

/-- `outsAt0` at a point of case C. -/
theorem outsAt0_C (c : Dev nD) (t : Fin cfg0.N) (h0 : ¬t.val % 8 = 0) (h1 : t.val % 9 = 0) (h3 : ¬t.val % 8 = 7) :
    outsAt0 m c t.val t.isLt = (out0_idle_2, sout0_C_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_neg h3).trans ((dif_pos h1).trans rfl))

/-- `outsAt0` at a point of case D. -/
theorem outsAt0_D (c : Dev nD) (t : Fin cfg0.N) (h0 : ¬t.val % 8 = 0) (h1 : ¬t.val % 9 = 0) (h3 : ¬t.val % 8 = 7) :
    outsAt0 m c t.val t.isLt = (out0_idle_2, sout0_D_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_neg h3).trans ((dif_neg h1).trans rfl))

/-- `outsAt0` at a point of case E. -/
theorem outsAt0_E (c : Dev nD) (t : Fin cfg0.N) (h0 : ¬t.val % 8 = 0) (h1 : t.val % 9 = 0) (h3 : t.val % 8 = 7) :
    outsAt0 m c t.val t.isLt = (out0_E_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_E_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_pos h3).trans ((dif_pos h1).trans rfl))

/-- `outsAt0` at a point of case F. -/
theorem outsAt0_F (c : Dev nD) (t : Fin cfg0.N) (h0 : ¬t.val % 8 = 0) (h1 : ¬t.val % 9 = 0) (h3 : t.val % 8 = 7) :
    outsAt0 m c t.val t.isLt = (out0_F_2 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_F_0 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_F_1 m c t h0 h1 h3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, (outsAt0 m c (t.val - 1) (Nat.lt_of_le_of_lt (Nat.sub_le _ _) t.isLt)).2.2.2) := by
  obtain ⟨n, hn⟩ := t
  cases n with
  | zero => exact (by exfalso; dsimp only at h0; exact absurd (Nat.zero_mod 8) h0)
  | succ n => exact (dif_neg h0).trans ((dif_pos h3).trans ((dif_neg h1).trans rfl))

/-- The region's invariant before position `n`: before the first point the pipeline's own (every scratch buffer at
    some contents); afterwards the three carried buffers at what the point before left in them, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- At position `n + 1` the three carried buffers are owned at what point `n` left in them. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- At a position `n` past the first they are owned at what point `n - 1` left in them. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input window's buffer at its block and the output window's at `outsAt0`'s first component; the invariant
    `PhiS`; nothing owed. The two input windows read one array, each holding half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := fun w => match w with
    | ⟨0, _⟩ => fullShare.left
    | ⟨1, _⟩ => fullShare.right
    | ⟨2, _⟩ => fullShare
  owed _ := 0

/-- Each windowed array starts at the memory the region is launched on. -/
theorem A_eq (c : Dev nD) (w : Fin cfg0.W) : (dats m 0 c).A w = V m c (Pipeline.arrRef spec0 w) := by
  dsimp only [dats]

/-- The invariant the body meets at point `t` is `PhiS` at position `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- The contents each window's buffer is left at after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- At every point both input buffers hold the point's blocks, whether or not a fetch happened there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Entering the region: the pipeline's own invariant is `PhiS` at position 0. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- At any position past the first, `PhiS` entails the pipeline's own invariant: each carried buffer is still owned,
    and which contents it holds is dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- Leaving the region, after the 64th point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Body

end
-- ==== Proof.KCovers.lean ====
/- Every store of the kernel body is a store of a whole [512, 1] block, so in each case the stores into a buffer cover it: what they leave is the same whatever the buffer held before. -/
import proofs.«132228_j84499186581515_1_alg».proof.Proof.KRunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
/-- The stores of case A into the running maximum cover it: each is a store of the whole `[512, 1]` block. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.1, y ∈ pc.1.set :=
  View.cover_of_tiledL (kernelRun0_A c i arg2 harg2 arg3 harg3 arg4 harg4 arg5 harg5 arg6 harg6 arg7 harg7 hc0 hc1 hc2 hc3 x0 x1).2.1 S512x1.size (by sl_kernel_rfl) y

/-- The stores of case A into the running sum cover it: each is a store of the whole `[512, 1]` block. -/
theorem scover0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.1, y ∈ pc.1.set :=
  View.cover_of_tiledL (kernelRun0_A c i arg2 harg2 arg3 harg3 arg4 harg4 arg5 harg5 arg6 harg6 arg7 harg7 hc0 hc1 hc2 hc3 x0 x1).2.2.1 S512x1.size (by sl_kernel_rfl) y

/-- The stores of case A into the partner logit cover it: each is a store of the whole `[512, 1]` block. -/
theorem scover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : cond0_1 i) (hc2 : ¬cond0_2 i) (hc3 : ¬cond0_3 i)
    (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.2.1, y ∈ pc.1.set :=
  View.cover_of_tiledL (kernelRun0_A c i arg2 harg2 arg3 harg3 arg4 harg4 arg5 harg5 arg6 harg6 arg7 harg7 hc0 hc1 hc2 hc3 x0 x1).2.2.2.1 S512x1.size (by sl_kernel_rfl) y

/-- The stores of case B into the running maximum cover it: each is a store of the whole `[512, 1]` block. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.1, y ∈ pc.1.set :=
  View.cover_of_tiledL (kernelRun0_B c i arg2 harg2 arg3 harg3 arg4 harg4 arg5 harg5 arg6 harg6 arg7 harg7 hc0 hc1 hc2 hc3 x0 x1).2.1 S512x1.size (by sl_kernel_rfl) y

/-- The stores of case B into the running sum cover it: each is a store of the whole `[512, 1]` block. -/
theorem scover0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.1, y ∈ pc.1.set :=
  View.cover_of_tiledL (kernelRun0_B c i arg2 harg2 arg3 harg3 arg4 harg4 arg5 harg5 arg6 harg6 arg7 harg7 hc0 hc1 hc2 hc3 x0 x1).2.2.1 S512x1.size (by sl_kernel_rfl) y

/-- The stores of case B into the partner logit cover it: each is a store of the whole `[512, 1]` block. -/
theorem scover0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (hc2 : cond0_2 i) (hc3 : ¬cond0_3 i)
    (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.2.1, y ∈ pc.1.set :=
  View.cover_of_tiledL (kernelRun0_B c i arg2 harg2 arg3 harg3 arg4 harg4 arg5 harg5 arg6 harg6 arg7 harg7 hc0 hc1 hc2 hc3 x0 x1).2.2.2.1 S512x1.size (by sl_kernel_rfl) y

/-- The stores of case C into the running maximum cover it: each is a store of the whole `[512, 1]` block. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.1 S512x1.size (by sl_kernel_rfl) y

/-- The stores of case C into the running sum cover it: each is a store of the whole `[512, 1]` block. -/
theorem scover0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.1 S512x1.size (by sl_kernel_rfl) y

/-- The stores of case C into the partner logit cover it: each is a store of the whole `[512, 1]` block. -/
theorem scover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : ¬cond0_3 i)
    (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.2.1 S512x1.size (by sl_kernel_rfl) y

/-- The stores of case D into the running maximum cover it: each is a store of the whole `[512, 1]` block. -/
theorem scover0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.1 S512x1.size (by sl_kernel_rfl) y

/-- The stores of case D into the running sum cover it: each is a store of the whole `[512, 1]` block. -/
theorem scover0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : ¬cond0_3 i)
    (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.2.1 S512x1.size (by sl_kernel_rfl) y

/-- The stores of case E into the output block's staging buffer cover it: each is a store of the whole `[512, 1]` block. -/
theorem cover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).1, y ∈ pc.1.set :=
  View.cover_of_tiledL (kernelRun0_E c i arg2 harg2 arg3 harg3 arg4 harg4 arg5 harg5 arg6 harg6 arg7 harg7 hc0 hc1 hc2 hc3 x0 x1 xs0 xs1 xs2).1 S512x1.size (by sl_kernel_rfl) y

/-- The stores of case E into the running maximum cover it: each is a store of the whole `[512, 1]` block. -/
theorem scover0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.1 S512x1.size (by sl_kernel_rfl) y

/-- The stores of case E into the running sum cover it: each is a store of the whole `[512, 1]` block. -/
theorem scover0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.1 S512x1.size (by sl_kernel_rfl) y

/-- The stores of case E into the partner logit cover it: each is a store of the whole `[512, 1]` block. -/
theorem scover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (hc2 : ¬cond0_2 i) (hc3 : cond0_3 i)
    (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.2.1 S512x1.size (by sl_kernel_rfl) y

/-- The stores of case F into the output block's staging buffer cover it: each is a store of the whole `[512, 1]` block. -/
theorem cover0_F_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).1, y ∈ pc.1.set :=
  View.cover_of_tiledL (kernelRun0_F c i arg2 harg2 arg3 harg3 arg4 harg4 arg5 harg5 arg6 harg6 arg7 harg7 hc0 hc1 hc2 hc3 x0 x1 xs0 xs1 xs2).1 S512x1.size (by sl_kernel_rfl) y

/-- The stores of case F into the running maximum cover it: each is a store of the whole `[512, 1]` block. -/
theorem scover0_F_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.1 S512x1.size (by sl_kernel_rfl) y

/-- The stores of case F into the running sum cover it: each is a store of the whole `[512, 1]` block. -/
theorem scover0_F_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (hc2 : cond0_2 i) (hc3 : cond0_3 i)
    (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.2.1 S512x1.size (by sl_kernel_rfl) y

end Cert.KernelIdeal.Body

end
-- ==== Proof.KSound.lean ====
/- The body obligation of the pipeline: at every grid point, from the invariant and the windows' current staging buffers, the kernel body runs to the invariant at the next point and the buffers at what the proof data says, by the case the point is in. -/
import proofs.«132228_j84499186581515_1_alg».proof.Proof.KDats
import proofs.«132228_j84499186581515_1_alg».proof.Proof.KCovers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
/-! ## The body obligation, at a generic point -/

/-- The precondition of the body at point `t`, the three windows spelled out: the invariant, the core's debts (none),
    and the current staging buffer of each window with the contents the pipeline has brought it to. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- The postcondition: the invariant one position later, the same debts, and each buffer as the proof data says. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The two input windows' buffers hold their blocks; the closed forms of the four branch
    conditions say which of the six cases the point is in; that case's run applies, handed the carried buffers at what
    the point before left (at anything at the first point) and the output block's buffer — as it is where the tile is
    not the last of its row block, at anything where it is —, and gives the carried buffers back at this point's
    contents (the stores into a buffer cover it) and, at the last tile of a row block, the output block's buffer at
    the row losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq]
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 64 := lt_of_lt_of_eq t.isLt (show cfg0.N = 64 from N_0)
  by_cases h0 : t.val % 8 = 0
  · by_cases h1 : t.val % 9 = 0
    · -- the first point: first tile of its row block and diagonal
      have h3 : ¬t.val % 8 = 7 := by omega
      rw [Dat.leavesExact_idle (dats m 0 c) 2 t (idleAt0_2 t (fun h => h3 ((hcond0_3 t).mp h))) (noFlush0_2 t (fun h => h3 ((hcond0_3 t).mp h)))]
      rw [outsAt0_A m c t h0 h1 h3]
      unfold sout0_A_0 sout0_A_1 sout0_A_2; (try dsimp only)
      have hz : t.val = 0 := by omega
      rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((runAt_A m c t h0 h1 h3).2.2.2.2 ((dats m 0 c).before 2 t d2) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t))
        iexact Hg
      isplitl [Ho]; · iexact Ho
      isplitl [H0]; · iexact H0
      isplitl [H1]; · iexact H1
      iexists _; iexact H2
    · -- the first tile of a later row block, off the diagonal
      have h3 : ¬t.val % 8 = 7 := by omega
      rw [Dat.leavesExact_idle (dats m 0 c) 2 t (idleAt0_2 t (fun h => h3 ((hcond0_3 t).mp h))) (noFlush0_2 t (fun h => h3 ((hcond0_3 t).mp h)))]
      rw [outsAt0_B m c t h0 h1 h3]
      unfold sout0_B_0 sout0_B_1 sout0_B_2; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runAt_B m c t h0 h1 h3).2.2.2.2 ((dats m 0 c).before 2 t d2) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
          isplitl [HS1]
          · unfold owns; iexists _; isplitr
            swap; · iexact HS1
            ipureintro; exact View.read_writes_of_cover _ _ _ _ _ (scover0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
          unfold owns; iexists _; isplitr
          swap; · iexact HS2
          ipureintro; exact View.read_writes_of_cover _ _ _ _ _ (scover0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t))
        iexact Hg
      isplitl [Ho]; · iexact Ho
      isplitl [H0]; · iexact H0
      isplitl [H1]; · iexact H1
      iexists _; iexact H2
  · by_cases h3 : t.val % 8 = 7
    · by_cases h1 : t.val % 9 = 0
      · -- the last point: last tile of its row block and diagonal
        rw [show (dats m 0 c).leavesExact 2 t = owns (c : Thread nD τ) (ms0_2 t) fullShare ((dats m 0 c).after 2 t) from by
          unfold Dat.leavesExact; rw [liveAt0_2 t ((hcond0_3 t).mpr h3)], after0_2]
        rw [outsAt0_E m c t h0 h1 h3]
        unfold out0_E_2 sout0_E_0 sout0_E_1 sout0_E_2; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_E m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_E_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_E_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            unfold owns; iexists _; isplitr
            swap; · iexact HS2
            ipureintro; exact View.read_writes_of_cover _ _ _ _ _ (scover0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
      · -- the last tile of a row block, off the diagonal
        rw [show (dats m 0 c).leavesExact 2 t = owns (c : Thread nD τ) (ms0_2 t) fullShare ((dats m 0 c).after 2 t) from by
          unfold Dat.leavesExact; rw [liveAt0_2 t ((hcond0_3 t).mpr h3)], after0_2]
        rw [outsAt0_F m c t h0 h1 h3]
        unfold out0_F_2 sout0_F_0 sout0_F_1; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_F m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_F_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_F_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            iexact HS2
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_F_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
    · by_cases h1 : t.val % 9 = 0
      · -- a diagonal tile inside its row block
        rw [Dat.leavesExact_idle (dats m 0 c) 2 t (idleAt0_2 t (fun h => h3 ((hcond0_3 t).mp h))) (noFlush0_2 t (fun h => h3 ((hcond0_3 t).mp h)))]
        rw [outsAt0_C m c t h0 h1 h3]
        unfold sout0_C_0 sout0_C_1 sout0_C_2; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_C m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 ((dats m 0 c).before 2 t d2) Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            unfold owns; iexists _; isplitr
            swap; · iexact HS2
            ipureintro; exact View.read_writes_of_cover _ _ _ _ _ (scover0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
          iexact Hg
        isplitl [Ho]; · iexact Ho
        isplitl [H0]; · iexact H0
        isplitl [H1]; · iexact H1
        iexists _; iexact H2
      · -- an off-diagonal tile inside its row block
        rw [Dat.leavesExact_idle (dats m 0 c) 2 t (idleAt0_2 t (fun h => h3 ((hcond0_3 t).mp h))) (noFlush0_2 t (fun h => h3 ((hcond0_3 t).mp h)))]
        rw [outsAt0_D m c t h0 h1 h3]
        unfold sout0_D_0 sout0_D_1; (try dsimp only)
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runAt_D m c t h0 h1 h3 ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2)).2.2.2.2 ((dats m 0 c).before 2 t d2) Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, HS2⟩
        isplitl [HS0 HS1 HS2 Hg]
        · isplitl [HS0 HS1 HS2]
          · isplitl [HS0]
            · unfold owns; iexists _; isplitr
              swap; · iexact HS0
              ipureintro; exact View.read_writes_of_cover _ _ _ _ _ (scover0_D_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            isplitl [HS1]
            · unfold owns; iexists _; isplitr
              swap; · iexact HS1
              ipureintro; exact View.read_writes_of_cover _ _ _ _ _ (scover0_D_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2))
            iexact HS2
          iexact Hg
        isplitl [Ho]; · iexact Ho
        isplitl [H0]; · iexact H0
        isplitl [H1]; · iexact H1
        iexists _; iexact H2

/-- The body obligation holds at each of the 64 points. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KHyp.lean ====
/- The pipeline's proof data meets everything the launch asks of it: the arrays as the region finds them, the two input windows each holding half of the one array they read, nothing owed, the body obligation, and the invariant's two ends. -/
import proofs.«132228_j84499186581515_1_alg».proof.Proof.KLaunch
import proofs.«132228_j84499186581515_1_alg».proof.Proof.KSound

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)
/-- The launch's hypotheses, for the proof data `dats m`. -/
theorem hyp : Cert.KernelIdeal.Launch.Hyp m (dats m) where
  hA c w := A_eq m c w
  hq0 c := by dsimp only [dats]
  hq1 c := by dsimp only [dats]
  howed c t := by dsimp only [dats]
  hrec c t := by dsimp only [dats]
  hbody c := body_obligation m c
  hin c := hin m c
  hout c := hout m c

end Cert.KernelIdeal.Body

end
-- ==== Proof.KTail.lean ====
/-
  What the five host operations after the region leave, over the memory with the output array at what the region
  wrote back: the argument array is written by none of them, and the result is the column of row losses re-laid as a
  vector, summed from zero and divided by the row count.
-/
import proofs.«132228_j84499186581515_1_alg».proof.Proof.KLaunch
import Idealize.ShloMosaic.Lib.StableHlo.Run

noncomputable section

namespace Cert.KernelIdeal.Launch

open Cert.KernelIdeal Cert.KernelIdeal.Gen

open Idealize.ShloMosaic
open Idealize.ShloMosaic.TcCoe
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)
variable (dats : (p : Fin 1) → (c : Dev nD) → Dat τ (Elt F) Unit ℕ (UR sig nD τ) ℕ cfg0 c)

/-- No host operation writes the argument array. -/
theorem arg0_kept (c : Dev nD) :
    StableHlo.after hostOps1 (V₁ m dats c) (Proc.devRef .tc main_arg0) = m ((c : Thread nD τ).loc main_arg0) := by
  rw [StableHlo.after_of_forall_not_mem (b := Proc.devRef .tc main_arg0) hostOps1 (V₁ m dats c) ?_]
  · exact V₁_ne m dats c main_arg0 (by decide)
  · intro op hop
    simp only [hostOps1, List.mem_cons, List.mem_nil_iff, or_false] at hop
    rcases hop with rfl | rfl | rfl | rfl | rfl <;>
      simp only [StableHlo.unary_writes, StableHlo.binary_writes, StableHlo.nullary_writes, StableHlo.reshape_writes, Finset.mem_singleton] <;>
      exact StableHlo.devRef_ne_of_ne (by decide)

/-- The result buffer after the host operations. -/
theorem v3_eq (c : Dev nD) :
    StableHlo.after hostOps1 (V₁ m dats c) (Proc.devRef .tc main_v3)
      = Host.divf (Host.reduceAdd (shapeCast S4096 ((dats 0 c).arrAt 2 cfg0.N) shapeCasts_S4096x1_S4096) (constant S_ .f32 0x00000000#32) reducesTo_S4096_S_d0 h_S_)
          (constant S_ .f32 0x45800000#32) := by
  after_results
  rw [V₁_v0]
  rfl

variable {m dats}

/-- THE FRAME: the program runs, and the argument array ends unchanged. -/
theorem frame_of (H : Hyp m dats) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (Proc.devRef .tc main_arg0) (by decide)).trans (arg0_kept m dats c)) (run_main ρ H)

/-- THE RUN WITH ITS RESULT: the result buffer ends at the mean of the column the region wrote back, the argument
    array unchanged. -/
theorem run_result (H : Hyp m dats) :
    θ_run defs (onTc (τ := τ) (main (F := F))) ⟨m, fun _ => 0, ρ⟩ (fun r => ∀ c : Dev nD,
      r.2.mem ((c.tc : Thread nD τ).loc main_v3)
          = Host.divf (Host.reduceAdd (shapeCast S4096 ((dats 0 c).arrAt 2 cfg0.N) shapeCasts_S4096x1_S4096) (constant S_ .f32 0x00000000#32) reducesTo_S4096_S_d0 h_S_)
              (constant S_ .f32 0x45800000#32)
        ∧ r.2.mem ((c.tc : Thread nD τ).loc main_arg0) = m ((c.tc : Thread nD τ).loc main_arg0)) :=
  (θ_run defs _ _).mono (fun r h c =>
    ⟨(h c (Proc.devRef .tc main_v3) (by decide)).trans (v3_eq m dats c),
     (h c (Proc.devRef .tc main_arg0) (by decide)).trans (arg0_kept m dats c)⟩) (run_main ρ H)

end Cert.KernelIdeal.Launch

end
-- ==== Proof.KBlocks.lean ====
/-
  Where the windows' blocks sit in their arrays.  Point t of the 8 x 8 grid is block row qi = t / 8 against block row
  ki = t % 8.  Input window 0 stages rows 512 qi … 512 qi + 511 of the input, input window 1 rows 512 ki … 512 ki + 511,
  and the output window covers rows 512 qi … of the output column, written back at ki = 7; so the eight write-backs
  at t = 8 qi + 7 tile the 4096 rows.
-/
import proofs.«132228_j84499186581515_1_alg».proof.Proof.KDats
import Idealize.ShloMosaic.Lib.Pipeline.Value
import Idealize.ShloMosaic.Lib.ValueIdx

set_option maxRecDepth 16384

noncomputable section

namespace Cert.KernelIdeal.Body

open Cert.KernelIdeal Cert.KernelIdeal.Gen

open Idealize.ShloMosaic Idealize.ShloMosaic.TcCoe Idealize.ShloMosaic.ValueIdx
open Idealize.SL Idealize.SL.Sem
open Idealize.ShloMosaic.Pipeline (Dat)

variable {F : FTy → Type} [FloatOps F] [Named F]

variable (m : (ℓ : Loc nD τ sig) → Buf (Elt F) ℓ)

/-- Row p of block row k: row p + 512 k of the 4096. -/
abbrev row (k : Fin 8) (p : Fin 512) : Fin 4096 := (@finProdFinEquiv 8 512) (k, p)

theorem row_val (k : Fin 8) (p : Fin 512) : (row k p).val = p.val + 512 * k.val := rfl

theorem lt64 (t : Fin cfg0.N) : t.val < 64 := lt_of_lt_of_eq t.isLt (show cfg0.N = 64 from N_0)

/-- The block row of a point, -/
abbrev qiOf (t : Fin cfg0.N) : Fin 8 := ⟨t.val / 8, by have := lt64 t; omega⟩
/-- and its block column. -/
abbrev kiOf (t : Fin cfg0.N) : Fin 8 := ⟨t.val % 8, by omega⟩

/-- The printed index maps, decided over the grid. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Input window 0's block at point t is block row qi of the input. -/
theorem iblk0_apply (c : Dev nD) (t : Fin cfg0.N) (p : Fin 512) (d : Fin 512) :
    (iblk m c 0 t : Vec F S512x512 .f32) (ix2 p d) = V m c main_arg0 (ix2 (row (qiOf t) p) d) := by
  unfold iblk
  rw [View.read_apply]
  show V m c main_arg0 (((cfg0.win 0).blk t).view.emb (ix2 p d)) = _
  congr 1
  obtain ⟨e0, e1, -, -, -, -⟩ := idx_facts t
  funext a; apply Fin.ext
  match a with
  | ⟨0, _⟩ => show win0_0.index t (0 : Fin 2) * 512 + 1 * p.val = p.val + 512 * (t.val / 8); omega
  | ⟨1, _⟩ => show win0_0.index t (1 : Fin 2) * 512 + 1 * d.val = d.val; omega

/-- Input window 1's block at point t is block row ki of the input. -/
theorem iblk1_apply (c : Dev nD) (t : Fin cfg0.N) (p : Fin 512) (d : Fin 512) :
    (iblk m c 1 t : Vec F S512x512 .f32) (ix2 p d) = V m c main_arg0 (ix2 (row (kiOf t) p) d) := by
  unfold iblk
  rw [View.read_apply]
  show V m c main_arg0 (((cfg0.win 1).blk t).view.emb (ix2 p d)) = _
  congr 1
  obtain ⟨-, -, e0, e1, -, -⟩ := idx_facts t
  funext a; apply Fin.ext
  match a with
  | ⟨0, _⟩ => show win0_1.index t (0 : Fin 2) * 512 + 1 * p.val = p.val + 512 * (t.val % 8); omega
  | ⟨1, _⟩ => show win0_1.index t (1 : Fin 2) * 512 + 1 * d.val = d.val; omega

/-- An index of the output column is in point t's block iff each coordinate is in the block's range on its axis. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Every row of the output column is in the block some point writes back: row r in that of t = 8 (r / 512) + 7. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 64 := N_0
  refine ⟨⟨8 * ((i 0).val / 512) + 7, by omega⟩, (flush0_2 _).mpr (by show (8 * ((i 0).val / 512) + 7) % 8 = 7; omega), ?_⟩
  rw [mem_blk2]
  obtain ⟨-, -, -, -, e0, e1⟩ := idx_facts ⟨8 * ((i 0).val / 512) + 7, by omega⟩
  intro a
  match a with
  | ⟨0, _⟩ =>
    show win0_2.index _ (0 : Fin 2) * 512 ≤ (i 0).val ∧ (i 0).val < win0_2.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win0_2.index _ (1 : Fin 2) * 1 ≤ (i 1).val ∧ (i 1).val < win0_2.index _ (1 : Fin 2) * 1 + 1
    rw [e1]; omega

/-- The row of the output column under row p of point t's block. -/
theorem emb2_row (t : Fin cfg0.N) (p : Fin 512) (u : Fin 1) :
    ((((cfg0.win 2).blk t).view.emb (ix2 p u)) 0).val = p.val + 512 * (t.val / 8) := by
  obtain ⟨-, -, -, -, e0, -⟩ := idx_facts t
  show win0_2.index t (0 : Fin 2) * 512 + 1 * p.val = _
  omega

end Cert.KernelIdeal.Body

end
-- ==== Proof.Spec.lean ====
/-
  The loss both programs compute, written once over the extended reals.

  The input is 4096 rows of 512 numbers.  Each row is divided by its Euclidean length (clamped below by a
  small constant); the score of rows i and j is twice the inner product of the two scaled rows, except that a
  row's score with itself is -∞.  For each row i the loss is the negated log-softmax of its scores at the
  partner row (i+1 for even i, i-1 for odd i), and the result is the mean of the 4096 row losses.

  Two arrangements of this formula are stated, each in the order one of the programs evaluates it, so that
  each program can be read against its own arrangement; that the two arrangements agree on finite inputs is
  proved separately.  An online (tile-by-tile) evaluation of a row's maximum and exponential sum is also
  stated here, because one of the programs visits the 4096 columns as 8 tiles of 512.
-/
import Idealize.ShloMosaic.PureOps.Ideal

noncomputable section

namespace Cert.NTXent

open Idealize.ShloMosaic

/-- 4096 rows of 512 extended reals. -/
abbrev Rows := Fin 4096 → Fin 512 → EReal

/-- The clamp on a row's length: the binary value nearest 1e-8. -/
def eps : EReal := Ideal.ofBits .f32 0x322BCC77#32
/-- 2, the reciprocal of the temperature. -/
def two : EReal := Ideal.ofBits .f32 0x40000000#32
/-- 1/2, the temperature. -/
def half : EReal := Ideal.ofBits .f32 0x3F000000#32
/-- 4096, the number of rows. -/
def count : EReal := Ideal.ofBits .f32 0x45800000#32

/-- A row's Euclidean length, clamped below by eps. -/
def nrm (x : Rows) (i : Fin 4096) : EReal := max (Ideal.sqrt (∑ d, x i d * x i d)) eps

/-- A row scaled to unit length. -/
def unit (x : Rows) (i : Fin 4096) (d : Fin 512) : EReal := Ideal.div (x i d) (nrm x i)

/-- The cosine similarity of rows i and j. -/
def sim (x : Rows) (i j : Fin 4096) : EReal := ∑ d, unit x i d * unit x j d

/-- A row's partner: its neighbour in the pair (2k, 2k+1). -/
def tgt (i : Fin 4096) : Fin 4096 :=
  if h : i.val % 2 = 0 then ⟨i.val + 1, by omega⟩ else ⟨i.val - 1, by omega⟩

/-- Scores in the first arrangement: the similarity doubled, the diagonal replaced by -∞ afterwards. -/
def zK (x : Rows) (i j : Fin 4096) : EReal := if i = j then ⊥ else sim x i j * two

/-- Scores in the second arrangement: the diagonal replaced by -∞ first, then everything divided by 1/2. -/
def zR (x : Rows) (i j : Fin 4096) : EReal := Ideal.div (if i = j then ⊥ else sim x i j) half

/-- Row loss, first arrangement: 0 - (t - (M + log L)) with M the row's largest score, L the sum of
    exp (score - M), t the doubled similarity with the partner. -/
def rowK (x : Rows) (i : Fin 4096) : EReal :=
  0 - (sim x i (tgt i) * two
        - (Finset.univ.sup (zK x i) + Ideal.log (∑ j, Ideal.exp (zK x i j - Finset.univ.sup (zK x i)))))

/-- The loss, first arrangement: the mean of the row losses. -/
def lossK (x : Rows) : EReal := Ideal.div (∑ i, rowK x i) count

/-- Row log-probability, second arrangement: (score at the partner - M) - log L. -/
def rowR (x : Rows) (i : Fin 4096) : EReal :=
  (zR x i (tgt i) - Finset.univ.sup (zR x i))
    - Ideal.log (∑ j, Ideal.exp (zR x i j - Finset.univ.sup (zR x i)))

/-- The loss, second arrangement: the negated mean of the row log-probabilities. -/
def lossR (x : Rows) : EReal := -(Ideal.div (∑ i, rowR x i) count)

/-! ## Tile-by-tile evaluation of a row's maximum and exponential sum -/

/-- One step: from the running maximum m and the running sum l (of exponentials relative to m),
    take in a tile of 512 scores: the new maximum, the old sum rescaled to it plus the tile's sum. -/
def step (s : Fin 512 → EReal) (ml : EReal × EReal) : EReal × EReal :=
  (max ml.1 (Finset.univ.sup s),
   Ideal.exp (ml.1 - max ml.1 (Finset.univ.sup s)) * ml.2
     + ∑ c, Ideal.exp (s c - max ml.1 (Finset.univ.sup s)))

/-- The state after the first k of 8 tiles, from maximum -∞ and sum 0. -/
def online (z : Fin 8 → Fin 512 → EReal) : ℕ → EReal × EReal
  | 0 => (⊥, 0)
  | k + 1 => if h : k < 8 then step (z ⟨k, h⟩) (online z k) else online z k

end Cert.NTXent

end
-- ==== Proof.KPayInit.lean ====
/-
  A row's running state before the first tile, and the row's loss once the last tile is in.

  The running maximum starts at -∞ (the pattern 0xFF800000), the running sum of exponentials and the partner's
  score at 0.  After the last tile a row holds its partner's score t, its maximum M and its sum L, and the loss
  of the row is 0 - (t - (M + log L)).
-/
import proofs.«132228_j84499186581515_1_alg».proof.Proof.Gen.KernelIdeal.Skeleton
import proofs.«132228_j84499186581515_1_alg».proof.Proof.Spec
import Idealize.ShloMosaic.Lib.ValueIdx
import Idealize.ShloMosaic.Lib.ValueLayout
import Idealize.ShloMosaic.Lib.Pipeline.Value
import Idealize.ShloMosaic.PureOps.Ideal.Laws

namespace Cert.KernelIdeal.PayValue

open Idealize.ShloMosaic Idealize.ShloMosaic.ValueIdx Cert.KernelIdeal Cert.KernelIdeal.Gen Cert.NTXent

/-- The pattern 0xFF800000 is -∞. -/
theorem ofBits_neg_inf_f32 : Ideal.ofBits .f32 0xFF800000#32 = ⊥ := by simp [Ideal.ofBits, Ideal.ieee]

/-- The running maximum starts at -∞ in every row. -/
theorem pay1_apply (p : Fin 512) (u : Fin 1) : k0_pay1 (F := Ideal) (ix2 p u) = ⊥ := by
  unfold k0_pay1
  refine (congrFun (shapeCast_self _ _) (ix2 p u)).trans ?_
  exact ofBits_neg_inf_f32

/-- The running sum of exponentials starts at 0 in every row. -/
theorem pay2_apply (p : Fin 512) (u : Fin 1) : k0_pay2 (F := Ideal) (ix2 p u) = 0 := by
  unfold k0_pay2
  refine (congrFun (shapeCast_self _ _) (ix2 p u)).trans ?_
  exact Ideal.ofBits_zero_f32

/-- The partner's score starts at 0 in every row. -/
theorem pay3_apply (p : Fin 512) (u : Fin 1) : k0_pay3 (F := Ideal) (ix2 p u) = 0 := by
  unfold k0_pay3
  refine (congrFun (shapeCast_self _ _) (ix2 p u)).trans ?_
  exact Ideal.ofBits_zero_f32

/-- The row's loss from its partner's score, its maximum and its sum of exponentials. -/
theorem pay13_apply (tv mv lv : Vec Ideal S512x1 .f32) (p : Fin 512) (u : Fin 1) :
    k0_pay13 tv mv lv (ix2 p u) = 0 - (tv (ix2 p u) - (mv (ix2 p u) + Ideal.log (lv (ix2 p u)))) := by
  unfold k0_pay13
  show Ideal.ofBits .f32 0x00000000#32 - _ = _
  rw [Ideal.ofBits_zero_f32]
  rfl

end Cert.KernelIdeal.PayValue
-- ==== Proof.MathConsts.lean ====
/-
  The four constants of the loss as extended reals: 2, 1/2, 4096, and the positive clamp on a row's length.
-/
import proofs.«132228_j84499186581515_1_alg».proof.Proof.Spec

noncomputable section

namespace Cert.NTXent

open Idealize.ShloMosaic

/-- The pattern 0x40000000 denotes the real 2. -/
theorem two_eq : two = ((2 : ℝ) : EReal) := by
  unfold two
  simp [Ideal.ofBits, Ideal.ieee, -EReal.coe_mul]
  norm_num

/-- The pattern 0x3F000000 denotes the real 1/2. -/
theorem half_eq : half = ((1 / 2 : ℝ) : EReal) := by
  unfold half
  simp [Ideal.ofBits, Ideal.ieee, -EReal.coe_mul]
  norm_num

/-- The pattern 0x45800000 denotes the real 4096. -/
theorem count_eq : count = ((4096 : ℝ) : EReal) := by
  unfold count
  simp [Ideal.ofBits, Ideal.ieee, -EReal.coe_mul]
  norm_num

/-- The clamp is a positive real. -/
theorem eps_pos : ∃ e : ℝ, 0 < e ∧ eps = (e : EReal) := by
  refine ⟨11258999 * (2 : ℝ) ^ (-50 : ℤ), by positivity, ?_⟩
  unfold eps
  simp [Ideal.ofBits, Ideal.ieee, -EReal.coe_mul]

end Cert.NTXent

end
-- ==== Proof.LibERealExpSum.lean ====
/-
  Exponential sums on the extended reals, taken relative to a maximum.

  On the extended reals the exponential sends -∞ to 0, a real r to the real exponential of r, and +∞ to +∞; it is
  nowhere negative.  For scores that are real or -∞, and a maximum M over a finite set of them, this file proves:

  * rescaling: for x ≤ M ≤ M' with M' below +∞, exp (M - M') * exp (x - M) = exp (x - M') (a score at -∞ gives
    0 on both sides; otherwise all three are real and this is exp (a + b) = exp a * exp b);
  * a product distributes over a finite sum of nonnegative extended reals;
  * one accumulation step: the sum of exp (z - sup A) over A, rescaled by exp (sup A - sup (A ∪ B)) and joined by
    the sum of exp (z - sup (A ∪ B)) over a disjoint B, is the sum of exp (z - sup (A ∪ B)) over A ∪ B.  The set
    A may be empty (its maximum is then -∞ and its sum 0);
  * relative to a real m that bounds the scores, the sum of exp (z - m) is a real; positive if some score is real;
  * a finite sum of coerced reals is the coerced sum; a supremum over a finite type is unchanged by reindexing
    along a bijection.
-/
import Idealize.ShloMosaic.PureOps.Ideal

namespace ERealExpSum

open Finset Idealize.ShloMosaic

variable {α : Type*}

/-- The coercion of the reals into the extended reals commutes with finite sums. -/
theorem coe_sum (J : Finset α) (f : α → ℝ) : ((∑ j ∈ J, f j : ℝ) : EReal) = ∑ j ∈ J, (f j : EReal) := by
  classical
  induction J using Finset.induction_on with
  | empty => simp
  | insert a J ha ih => rw [sum_insert ha, sum_insert ha, EReal.coe_add, ih]

/-- An extended real that is neither infinity is a real. -/
theorem exists_real {x : EReal} (hb : x ≠ ⊥) (ht : x ≠ ⊤) : ∃ r : ℝ, x = (r : EReal) :=
  ⟨x.toReal, (EReal.coe_toReal ht hb).symm⟩

/-- The exponential is nowhere negative. -/
theorem exp_nonneg (x : EReal) : 0 ≤ Ideal.exp x := by
  induction x using EReal.rec with
  | bot => rw [Ideal.exp_bot]
  | coe r => rw [Ideal.exp_coe]; exact EReal.coe_nonneg.2 (Real.exp_pos r).le
  | top => rw [Ideal.exp_top]; exact le_top

/-- The exponential of a difference of reals. -/
theorem exp_sub_coe (r m : ℝ) : Ideal.exp ((r : EReal) - (m : EReal)) = ((Real.exp (r - m) : ℝ) : EReal) := by
  rw [← EReal.coe_sub, Ideal.exp_coe]

/-- A product distributes over a finite sum of nonnegative terms. -/
theorem mul_sum_of_nonneg (c : EReal) (J : Finset α) (f : α → EReal) (hf : ∀ j, 0 ≤ f j) :
    c * ∑ j ∈ J, f j = ∑ j ∈ J, c * f j := by
  classical
  induction J using Finset.induction_on with
  | empty => simp
  | insert a J ha ih =>
    rw [sum_insert ha, sum_insert ha, EReal.left_distrib_of_nonneg (hf a) (Finset.sum_nonneg fun j _ => hf j), ih]

/-- Rescaling one term from the maximum M to a later maximum M'. -/
theorem exp_rescale {x M M' : EReal} (hx : x ≤ M) (hM : M ≤ M') (ht : M' ≠ ⊤) :
    Ideal.exp (M - M') * Ideal.exp (x - M) = Ideal.exp (x - M') := by
  induction x using EReal.rec with
  | bot => rw [EReal.bot_sub, EReal.bot_sub, Ideal.exp_bot, mul_zero]
  | top => exact absurd (top_le_iff.mp (hx.trans hM)) ht
  | coe r =>
    induction M using EReal.rec with
    | bot => exact absurd (le_bot_iff.mp hx) (EReal.coe_ne_bot r)
    | top => exact absurd (top_le_iff.mp hM) ht
    | coe m =>
      induction M' using EReal.rec with
      | bot => exact absurd (le_bot_iff.mp hM) (EReal.coe_ne_bot m)
      | top => exact absurd rfl ht
      | coe m' =>
        rw [exp_sub_coe, exp_sub_coe, exp_sub_coe, ← EReal.coe_mul, ← Real.exp_add]
        congr 2
        ring

/-- A maximum of finitely many values below +∞ is below +∞. -/
theorem sup_ne_top (J : Finset α) (z : α → EReal) (hz : ∀ j ∈ J, z j ≠ ⊤) : J.sup z ≠ ⊤ :=
  ((Finset.sup_lt_iff bot_lt_top).2 fun j hj => lt_top_iff_ne_top.2 (hz j hj)).ne

/-- One accumulation step: the sum over A relative to A's maximum, rescaled to the maximum of A ∪ B, plus the sum
    over B relative to that maximum, is the sum over A ∪ B relative to it. -/
theorem sup_expsum_step [DecidableEq α] (A B : Finset α) (hAB : Disjoint A B) (z : α → EReal)
    (hz : ∀ j, z j ≠ ⊤) :
    Ideal.exp (A.sup z - max (A.sup z) (B.sup z)) * (∑ a ∈ A, Ideal.exp (z a - A.sup z))
        + ∑ b ∈ B, Ideal.exp (z b - max (A.sup z) (B.sup z))
      = ∑ j ∈ A ∪ B, Ideal.exp (z j - (A ∪ B).sup z) := by
  have hM : max (A.sup z) (B.sup z) = (A ∪ B).sup z := by rw [Finset.sup_union]
  rw [hM, sum_union hAB, mul_sum_of_nonneg _ _ _ (fun j => exp_nonneg _)]
  congr 1
  refine sum_congr rfl fun a ha => ?_
  exact exp_rescale (Finset.le_sup ha) (Finset.sup_mono subset_union_left) (sup_ne_top _ _ fun j _ => hz j)

/-- Relative to a real bound m, the exponential of a score is a nonnegative real. -/
theorem exp_sub_real {x : EReal} {m : ℝ} (hx : x ≤ (m : EReal)) :
    ∃ e : ℝ, 0 ≤ e ∧ Ideal.exp (x - (m : EReal)) = (e : EReal) := by
  induction x using EReal.rec with
  | bot => exact ⟨0, le_rfl, by rw [EReal.bot_sub, Ideal.exp_bot, EReal.coe_zero]⟩
  | top => exact absurd (top_le_iff.mp hx) (EReal.coe_ne_top m)
  | coe r => exact ⟨Real.exp (r - m), (Real.exp_pos _).le, exp_sub_coe r m⟩

/-- If every score is at most the real m and one of them is real, the sum of exp (score - m) is a positive real. -/
theorem expsum_pos_real (J : Finset α) (z : α → EReal) (m : ℝ) (hz : ∀ j ∈ J, z j ≤ (m : EReal))
    (h1 : ∃ j ∈ J, ∃ r : ℝ, z j = (r : EReal)) :
    ∃ l : ℝ, 0 < l ∧ ∑ j ∈ J, Ideal.exp (z j - (m : EReal)) = (l : EReal) := by
  have hterm : ∀ j ∈ J, Ideal.exp (z j - (m : EReal)) = (((Ideal.exp (z j - (m : EReal))).toReal : ℝ) : EReal)
      ∧ 0 ≤ (Ideal.exp (z j - (m : EReal))).toReal := by
    intro j hj
    obtain ⟨e, he0, he⟩ := exp_sub_real (hz j hj)
    rw [he, EReal.toReal_coe]
    exact ⟨rfl, he0⟩
  refine ⟨∑ j ∈ J, (Ideal.exp (z j - (m : EReal))).toReal, ?_, ?_⟩
  · obtain ⟨j, hj, r, hr⟩ := h1
    refine Finset.sum_pos' (fun i hi => (hterm i hi).2) ⟨j, hj, ?_⟩
    rw [hr, exp_sub_coe, EReal.toReal_coe]
    exact Real.exp_pos _
  · rw [coe_sum]
    exact sum_congr rfl fun j hj => (hterm j hj).1

/-- A supremum over a finite type is unchanged by reindexing along a bijection. -/
theorem sup_univ_equiv {β γ : Type*} [Fintype α] [Fintype β] [SemilatticeSup γ] [OrderBot γ] (e : α ≃ β)
    (f : β → γ) : Finset.univ.sup (fun a => f (e a)) = Finset.univ.sup f := by
  apply le_antisymm
  · exact Finset.sup_le fun a _ => Finset.le_sup (f := f) (Finset.mem_univ (e a))
  · refine Finset.sup_le fun b _ => ?_
    have h := Finset.le_sup (f := fun a => f (e a)) (Finset.mem_univ (e.symm b))
    simpa using h

end ERealExpSum
-- ==== Proof.MathSim.lean ====
/-
  Finite input gives a positive real length for every row, real scaled rows, and real similarities.
-/
import proofs.«132228_j84499186581515_1_alg».proof.Proof.MathConsts
import proofs.«132228_j84499186581515_1_alg».proof.Proof.LibERealExpSum

noncomputable section

namespace Cert.NTXent

open Finset Idealize.ShloMosaic ERealExpSum

/-- A finite row's clamped length is a positive real. -/
theorem nrm_pos (x : Rows) (hx : ∀ i d, ∃ r : ℝ, x i d = (r : EReal)) (i : Fin 4096) :
    ∃ n : ℝ, 0 < n ∧ nrm x i = (n : EReal) := by
  choose r hr using hx i
  obtain ⟨e, he0, he⟩ := eps_pos
  have hs : ∑ d, x i d * x i d = ((∑ d, r d * r d : ℝ) : EReal) := by
    rw [coe_sum]
    exact Finset.sum_congr rfl fun d _ => by rw [hr d, EReal.coe_mul]
  have hnn : 0 ≤ ∑ d, r d * r d := Finset.sum_nonneg fun d _ => mul_self_nonneg _
  refine ⟨max (Real.sqrt (∑ d, r d * r d)) e, lt_max_of_lt_right he0, ?_⟩
  unfold nrm
  rw [hs, Ideal.sqrt_coe, if_neg (not_lt.mpr hnn), he]
  exact (EReal.coe_strictMono.monotone.map_max).symm

/-- Every entry of a finite row scaled to unit length is real. -/
theorem unit_real (x : Rows) (hx : ∀ i d, ∃ r : ℝ, x i d = (r : EReal)) (i : Fin 4096) (d : Fin 512) :
    ∃ u : ℝ, unit x i d = (u : EReal) := by
  obtain ⟨n, hn0, hn⟩ := nrm_pos x hx i
  obtain ⟨r, hr⟩ := hx i d
  refine ⟨r * (1 / n), ?_⟩
  unfold unit
  rw [hn, Ideal.div_coe hn0.ne', hr, EReal.coe_mul]

/-- Finite input gives real similarities. -/
theorem sim_real (x : Rows) (hx : ∀ i d, ∃ r : ℝ, x i d = (r : EReal)) (i j : Fin 4096) :
    ∃ r : ℝ, sim x i j = (r : EReal) := by
  choose u hu using unit_real x hx i
  choose v hv using unit_real x hx j
  refine ⟨∑ d, u d * v d, ?_⟩
  unfold sim
  rw [coe_sum]
  exact Finset.sum_congr rfl fun d _ => by rw [hu d, hv d, EReal.coe_mul]

end Cert.NTXent

end
-- ==== Proof.MathOnline.lean ====
/-
  The tile-by-tile evaluation of a row's maximum and exponential sum ends at the whole-row values.

  After the first k of the 8 tiles the running maximum is the maximum of the scores in those tiles and the running
  sum is the sum of exp (score - that maximum) over them; this holds at k = 0 (maximum -∞, empty sum) and is
  carried from k to k + 1 by the accumulation step for a disjoint union.  At k = 8 every column has been seen.
-/
import proofs.«132228_j84499186581515_1_alg».proof.Proof.Spec
import proofs.«132228_j84499186581515_1_alg».proof.Proof.LibERealExpSum

noncomputable section

namespace Cert.NTXent

open Finset Idealize.ShloMosaic ERealExpSum

/-- The columns of the first k tiles. -/
def seen (k : ℕ) : Finset (Fin 8 × Fin 512) := univ.filter fun kc => kc.1.val < k

/-- The columns of tile k. -/
def tile (k : Fin 8) : Finset (Fin 8 × Fin 512) := ({k} : Finset (Fin 8)) ×ˢ (univ : Finset (Fin 512))

theorem seen_zero : seen 0 = ∅ := by
  ext ⟨a, c⟩
  simp [seen]

theorem seen_eight : seen 8 = univ := by
  ext ⟨a, c⟩
  simp [seen]

theorem seen_succ (k : ℕ) (h : k < 8) : seen (k + 1) = seen k ∪ tile ⟨k, h⟩ := by
  ext ⟨a, c⟩
  simp only [seen, tile, mem_filter, mem_univ, true_and, mem_union, mem_product, mem_singleton, and_true]
  constructor
  · intro hlt
    rcases Nat.lt_succ_iff_lt_or_eq.mp hlt with h1 | h1
    · exact Or.inl h1
    · exact Or.inr (Fin.ext h1)
  · rintro (h1 | h1)
    · exact Nat.lt_succ_of_lt h1
    · rw [h1]
      exact Nat.lt_succ_self k

theorem seen_disjoint (k : ℕ) (h : k < 8) : Disjoint (seen k) (tile ⟨k, h⟩) := by
  rw [Finset.disjoint_left]
  rintro ⟨a, c⟩ ha hb
  simp only [seen, mem_filter, mem_univ, true_and] at ha
  simp only [tile, mem_product, mem_singleton, mem_univ, and_true] at hb
  rw [hb] at ha
  exact lt_irrefl _ ha

theorem tile_sup (z : Fin 8 → Fin 512 → EReal) (k : Fin 8) :
    (tile k).sup (fun kc => z kc.1 kc.2) = univ.sup (z k) := by
  unfold tile
  rw [Finset.sup_product_left, Finset.sup_singleton]

theorem tile_sum (k : Fin 8) (f : Fin 8 × Fin 512 → EReal) : ∑ kc ∈ tile k, f kc = ∑ c, f (k, c) := by
  unfold tile
  rw [Finset.sum_product, Finset.sum_singleton]

theorem online_succ (z : Fin 8 → Fin 512 → EReal) (k : ℕ) (h : k < 8) :
    online z (k + 1) = step (z ⟨k, h⟩) (online z k) := by
  show (if h : k < 8 then step (z ⟨k, h⟩) (online z k) else online z k) = _
  rw [dif_pos h]

theorem step_pair (s : Fin 512 → EReal) (m l : EReal) :
    step s (m, l) = (max m (univ.sup s),
      Ideal.exp (m - max m (univ.sup s)) * l + ∑ c, Ideal.exp (s c - max m (univ.sup s))) := rfl

/-- After k tiles: the maximum and the exponential sum over the columns seen. -/
theorem online_inv (z : Fin 8 → Fin 512 → EReal) (hz : ∀ k c, z k c ≠ ⊤) (k : ℕ) (hk : k ≤ 8) :
    online z k = ((seen k).sup (fun kc => z kc.1 kc.2),
      ∑ kc ∈ seen k, Ideal.exp (z kc.1 kc.2 - (seen k).sup (fun kc => z kc.1 kc.2))) := by
  induction k with
  | zero =>
    rw [seen_zero, Finset.sup_empty, Finset.sum_empty]
    rfl
  | succ k ih =>
    have h : k < 8 := hk
    rw [online_succ z k h, ih (Nat.le_of_lt h), step_pair, Prod.mk.injEq]
    constructor
    · rw [seen_succ k h, Finset.sup_union, tile_sup]
    · rw [seen_succ k h, ← tile_sup z ⟨k, h⟩,
        ← sup_expsum_step (seen k) (tile ⟨k, h⟩) (seen_disjoint k h) (fun kc => z kc.1 kc.2) (fun kc => hz _ _),
        tile_sum]

/-- The tile-by-tile evaluation ends at the whole-row maximum and exponential sum. -/
theorem online_eq (z : Fin 8 → Fin 512 → EReal)
    (hz : ∀ k c, z k c = ⊥ ∨ ∃ r : ℝ, z k c = (r : EReal)) (hne : ∀ k, ∃ c, ∃ r : ℝ, z k c = (r : EReal)) :
    online z 8 = (Finset.univ.sup (fun kc : Fin 8 × Fin 512 => z kc.1 kc.2),
      ∑ kc : Fin 8 × Fin 512, Ideal.exp (z kc.1 kc.2 - Finset.univ.sup (fun kc : Fin 8 × Fin 512 => z kc.1 kc.2))) := by
  have hz' : ∀ k c, z k c ≠ ⊤ := by
    intro k c
    rcases hz k c with h | ⟨r, h⟩
    · rw [h]; exact bot_ne_top
    · rw [h]; exact EReal.coe_ne_top r
  have h := online_inv z hz' 8 le_rfl
  rw [seen_eight] at h
  exact h

/-- The same for a row of 4096 scores cut into 8 tiles of 512: column c of tile k is column c + 512 * k. -/
theorem online_eq_row (zr : Fin 4096 → EReal)
    (hz : ∀ j, zr j = ⊥ ∨ ∃ r : ℝ, zr j = (r : EReal))
    (hne : ∀ k : Fin 8, ∃ c : Fin 512, ∃ r : ℝ, zr (finProdFinEquiv (k, c)) = (r : EReal)) :
    online (fun k c => zr (finProdFinEquiv (k, c))) 8
      = (Finset.univ.sup zr, ∑ j, Ideal.exp (zr j - Finset.univ.sup zr)) := by
  have hs : Finset.univ.sup (fun kc : Fin 8 × Fin 512 => zr (finProdFinEquiv (kc.1, kc.2))) = Finset.univ.sup zr :=
    sup_univ_equiv (@finProdFinEquiv 8 512) zr
  rw [online_eq (fun k c => zr (finProdFinEquiv (k, c))) (fun k c => hz _) hne, hs, Prod.mk.injEq]
  exact ⟨rfl, Equiv.sum_comp (@finProdFinEquiv 8 512) (fun j => Ideal.exp (zr j - Finset.univ.sup zr))⟩

end Cert.NTXent

end
-- ==== Proof.Math.lean ====
/-
  The two arrangements of the loss agree on finite input, and the tile-by-tile evaluation of a row of the first
  arrangement's scores ends at that row's maximum and exponential sum.

  On finite input every similarity s is real.  Off the diagonal the first arrangement's score is s * 2 and the
  second's is s / (1/2) = s * 2; on the diagonal both are -∞ (-∞ / (1/2) = -∞ * 2 = -∞).  So the two score rows
  are equal.  A row's partner is another row, so the partner's score t is real; the row's maximum M is at least t
  and below +∞, so it is real; the exponential sum L relative to M is a positive real (the diagonal contributes
  exp (-∞) = 0, the partner a positive term), so log L is real.  The first arrangement's row loss is
  0 - (t - (M + log L)) and the second's row log-probability is (t - M) - log L: over the reals one is the negation
  of the other.  A sum of negations is the negation of the sum, and dividing by 4096 commutes with negation.
-/
import proofs.«132228_j84499186581515_1_alg».proof.Proof.MathSim
import proofs.«132228_j84499186581515_1_alg».proof.Proof.MathOnline

noncomputable section

namespace Cert.NTXent

open Finset Idealize.ShloMosaic ERealExpSum

/-- A row's partner is another row. -/
theorem tgt_ne (i : Fin 4096) : tgt i ≠ i := by
  intro h
  have hv : (tgt i).val = i.val := congrArg Fin.val h
  unfold tgt at hv
  by_cases hp : i.val % 2 = 0
  · rw [dif_pos hp] at hv
    change i.val + 1 = i.val at hv
    omega
  · rw [dif_neg hp] at hv
    change i.val - 1 = i.val at hv
    omega

theorem zK_self (x : Rows) (i : Fin 4096) : zK x i i = ⊥ := by
  unfold zK
  rw [if_pos rfl]

theorem zK_of_ne (x : Rows) {i j : Fin 4096} (h : i ≠ j) : zK x i j = sim x i j * two := by
  unfold zK
  rw [if_neg h]

/-- Off the diagonal the scores of finite input are real. -/
theorem zK_real_of_ne (x : Rows) (hx : ∀ i d, ∃ r : ℝ, x i d = (r : EReal)) {i j : Fin 4096} (h : i ≠ j) :
    ∃ r : ℝ, zK x i j = (r : EReal) := by
  obtain ⟨s, hs⟩ := sim_real x hx i j
  exact ⟨s * 2, by rw [zK_of_ne x h, hs, two_eq, EReal.coe_mul]⟩

/-- Every score of finite input is -∞ or real. -/
theorem zK_cases (x : Rows) (hx : ∀ i d, ∃ r : ℝ, x i d = (r : EReal)) (i j : Fin 4096) :
    zK x i j = ⊥ ∨ ∃ r : ℝ, zK x i j = (r : EReal) := by
  by_cases h : i = j
  · left
    rw [← h]
    exact zK_self x i
  · exact Or.inr (zK_real_of_ne x hx h)

/-- The two arrangements have the same scores: dividing by 1/2 is doubling, at -∞ too. -/
theorem zR_eq_zK (x : Rows) (i j : Fin 4096) : zR x i j = zK x i j := by
  unfold zR zK
  have h2 : ((1 / (1 / 2) : ℝ)) = 2 := by norm_num
  rw [half_eq, Ideal.div_coe (by norm_num : (1 / 2 : ℝ) ≠ 0), h2, two_eq]
  by_cases h : i = j
  · rw [if_pos h, if_pos h]
    exact EReal.bot_mul_coe_of_pos (by norm_num)
  · rw [if_neg h, if_neg h]

/-- The tile-by-tile evaluation of a row of scores of finite input ends at the row's maximum and exponential sum. -/
theorem online_zK (x : Rows) (hx : ∀ i d, ∃ r : ℝ, x i d = (r : EReal)) (i : Fin 4096) :
    online (fun k c => zK x i (finProdFinEquiv (k, c))) 8
      = (Finset.univ.sup (zK x i), ∑ j, Ideal.exp (zK x i j - Finset.univ.sup (zK x i))) := by
  refine online_eq_row (zK x i) (zK_cases x hx i) ?_
  intro k
  by_cases h0 : i = (@finProdFinEquiv 8 512) (k, (0 : Fin 512))
  · refine ⟨1, zK_real_of_ne x hx ?_⟩
    rw [h0]
    intro h
    have h1 := (@finProdFinEquiv 8 512).injective h
    simp at h1
  · exact ⟨0, zK_real_of_ne x hx h0⟩

/-- For finite input the second arrangement's row log-probability is a real ρ and the first arrangement's row
    loss is -ρ. -/
theorem row_real (x : Rows) (hx : ∀ i d, ∃ r : ℝ, x i d = (r : EReal)) (i : Fin 4096) :
    ∃ ρ : ℝ, rowR x i = (ρ : EReal) ∧ rowK x i = ((-ρ : ℝ) : EReal) := by
  have hzz : zR x i = zK x i := funext fun j => zR_eq_zK x i j
  obtain ⟨s, hs⟩ := sim_real x hx i (tgt i)
  have ht : zK x i (tgt i) = ((s * 2 : ℝ) : EReal) := by
    rw [zK_of_ne x (tgt_ne i).symm, hs, two_eq, EReal.coe_mul]
  have hle : zK x i (tgt i) ≤ Finset.univ.sup (zK x i) := Finset.le_sup (Finset.mem_univ _)
  have hMt : Finset.univ.sup (zK x i) ≠ ⊤ := by
    refine sup_ne_top _ _ fun j _ => ?_
    rcases zK_cases x hx i j with h | ⟨r, h⟩
    · rw [h]; exact bot_ne_top
    · rw [h]; exact EReal.coe_ne_top r
  have hMb : Finset.univ.sup (zK x i) ≠ ⊥ := by
    intro hb
    rw [hb, ht] at hle
    exact EReal.coe_ne_bot _ (le_bot_iff.mp hle)
  obtain ⟨m, hm⟩ := exists_real hMb hMt
  have hbound : ∀ j ∈ (Finset.univ : Finset (Fin 4096)), zK x i j ≤ (m : EReal) := by
    intro j hj
    rw [← hm]
    exact Finset.le_sup hj
  obtain ⟨l, hl0, hl⟩ := expsum_pos_real Finset.univ (zK x i) m hbound ⟨tgt i, Finset.mem_univ _, s * 2, ht⟩
  have hlog : Ideal.log (l : EReal) = ((Real.log l : ℝ) : EReal) := by
    rw [Ideal.log_coe, if_neg (not_le.mpr hl0)]
  refine ⟨(s * 2 - m) - Real.log l, ?_, ?_⟩
  · unfold rowR
    rw [hzz, ht, hm, hl, hlog, ← EReal.coe_sub, ← EReal.coe_sub]
  · unfold rowK
    rw [hs, two_eq, ← EReal.coe_mul, hm, hl, hlog, ← EReal.coe_add, ← EReal.coe_sub, ← EReal.coe_zero,
      ← EReal.coe_sub]
    congr 1
    ring

/-- The two arrangements of the loss agree on finite input. -/
theorem lossK_eq_lossR (x : Rows) (hx : ∀ i d, ∃ r : ℝ, x i d = (r : EReal)) : lossK x = lossR x := by
  choose ρ hR hK using row_real x hx
  have hc : (4096 : ℝ) ≠ 0 := by norm_num
  have h1 : ∑ i, rowK x i = ((∑ i, -ρ i : ℝ) : EReal) := by
    rw [coe_sum]
    exact Finset.sum_congr rfl fun i _ => hK i
  have h2 : ∑ i, rowR x i = ((∑ i, ρ i : ℝ) : EReal) := by
    rw [coe_sum]
    exact Finset.sum_congr rfl fun i _ => hR i
  unfold lossK lossR
  rw [count_eq, Ideal.div_coe hc, Ideal.div_coe hc, h1, h2, ← EReal.coe_mul, ← EReal.coe_mul, ← EReal.coe_neg,
    Finset.sum_neg_distrib, neg_mul]

end Cert.NTXent

end
-- ==== Proof.KValue.lean ====
/-
  The kernel's scratch buffers, point by point, at the ideal instance, and the column the region writes back.

  Fix a block row qi and a row p of it; write i for that row of the input.  Over the eight points (qi, 0) … (qi, 7)
  the kernel keeps for row i a running maximum m, a running sum l of exponentials relative to m, and the partner's
  score t.  At ki = 0 they are reset to (-∞, 0, 0); every point then takes in the tile of scores of row i against
  block row ki (with the diagonal entry -∞ when ki = qi): this is one step of the tile-by-tile evaluation, so after
  point (qi, ki) the pair (m, l) is the state after ki + 1 tiles, and t holds the partner's score from the point
  ki = qi on.  At ki = 7 the stored value 0 - (t - (m + log l)) is therefore the row loss.  What the case of each
  point leaves in the buffers, as payloads of the blocks, and what each payload reads at an index, enter as two
  bundles of equations.
-/
import proofs.«132228_j84499186581515_1_alg».proof.Proof.KBlocks
import proofs.«132228_j84499186581515_1_alg».proof.Proof.KPayInit
import proofs.«132228_j84499186581515_1_alg».proof.Proof.Math

set_option maxRecDepth 16384

noncomputable section

namespace Cert.KernelIdeal.KValue

open Cert.KernelIdeal Cert.KernelIdeal.Gen Cert.KernelIdeal.Body Cert.KernelIdeal.PayValue Cert.NTXent

open Idealize.ShloMosaic Idealize.ShloMosaic.TcCoe Idealize.ShloMosaic.ValueIdx
open Idealize.SL Idealize.SL.Sem
open Idealize.ShloMosaic.Pipeline (Dat)

/-- A column of 512 extended reals. -/
abbrev Col := Vec Ideal S512x1 .f32
/-- A tile of 512 x 512 extended reals. -/
abbrev Tile := Vec Ideal S512x512 .f32

/-- What each payload of the body reads at an index, in terms of the whole input X: the update of (m, l) is one
    step of the tile-by-tile evaluation, on the diagonal tile and off it; the partner's score. -/
structure PayEqs : Prop where
  upd_diag : ∀ (X : Rows) (qi ki : Fin 8) (x0 x1 : Tile),
    (∀ p d, x0 (ix2 p d) = X (row qi p) d) → (∀ p d, x1 (ix2 p d) = X (row ki p) d) → qi = ki →
    ∀ (mp lp : Col) (p : Fin 512),
      (k0_pay9 x0 x1 mp (ix2 p (0 : Fin 1)), k0_pay8 x0 x1 mp lp (ix2 p (0 : Fin 1)))
        = step (fun cc => zK X (row qi p) (row ki cc)) (mp (ix2 p (0 : Fin 1)), lp (ix2 p (0 : Fin 1)))
  upd_off : ∀ (X : Rows) (qi ki : Fin 8) (x0 x1 : Tile),
    (∀ p d, x0 (ix2 p d) = X (row qi p) d) → (∀ p d, x1 (ix2 p d) = X (row ki p) d) → qi ≠ ki →
    ∀ (mp lp : Col) (p : Fin 512),
      (k0_pay12 x0 x1 mp (ix2 p (0 : Fin 1)), k0_pay11 x0 x1 mp lp (ix2 p (0 : Fin 1)))
        = step (fun cc => zK X (row qi p) (row ki cc)) (mp (ix2 p (0 : Fin 1)), lp (ix2 p (0 : Fin 1)))
  partner : ∀ (X : Rows) (qi ki : Fin 8) (x0 x1 : Tile),
    (∀ p d, x0 (ix2 p d) = X (row qi p) d) → (∀ p d, x1 (ix2 p d) = X (row ki p) d) → qi = ki →
    ∀ p : Fin 512, k0_pay5 x0 x1 (ix2 p (0 : Fin 1)) = sim X (row qi p) (tgt (row qi p)) * two

variable (m : (ℓ : Loc nD τ sig) → Buf (Elt Ideal) ℓ) (c : Dev nD)

/-- What each control case leaves in the scratch buffers and the output block, as payloads of the point's blocks
    and of what the point found. -/
structure PieceEqs : Prop where
  A0 : ∀ t h0 h1 h3, sout0_A_0 m c t h0 h1 h3 = k0_pay9 (iblk m c 0 t) (iblk m c 1 t) (k0_pay1 (F := Ideal))
  A1 : ∀ t h0 h1 h3, sout0_A_1 m c t h0 h1 h3 = k0_pay8 (iblk m c 0 t) (iblk m c 1 t) (k0_pay1 (F := Ideal)) (k0_pay2 (F := Ideal))
  A2 : ∀ t h0 h1 h3, sout0_A_2 m c t h0 h1 h3 = k0_pay5 (iblk m c 0 t) (iblk m c 1 t)
  B0 : ∀ t h0 h1 h3, sout0_B_0 m c t h0 h1 h3 = k0_pay12 (iblk m c 0 t) (iblk m c 1 t) (k0_pay1 (F := Ideal))
  B1 : ∀ t h0 h1 h3, sout0_B_1 m c t h0 h1 h3 = k0_pay11 (iblk m c 0 t) (iblk m c 1 t) (k0_pay1 (F := Ideal)) (k0_pay2 (F := Ideal))
  B2 : ∀ t h0 h1 h3, sout0_B_2 m c t h0 h1 h3 = (k0_pay3 (F := Ideal))
  C0 : ∀ t h0 h1 h3 xs0 xs1 xs2, sout0_C_0 m c t h0 h1 h3 xs0 xs1 xs2 = k0_pay9 (iblk m c 0 t) (iblk m c 1 t) xs0
  C1 : ∀ t h0 h1 h3 xs0 xs1 xs2, sout0_C_1 m c t h0 h1 h3 xs0 xs1 xs2 = k0_pay8 (iblk m c 0 t) (iblk m c 1 t) xs0 xs1
  C2 : ∀ t h0 h1 h3 xs0 xs1 xs2, sout0_C_2 m c t h0 h1 h3 xs0 xs1 xs2 = k0_pay5 (iblk m c 0 t) (iblk m c 1 t)
  D0 : ∀ t h0 h1 h3 xs0 xs1 xs2, sout0_D_0 m c t h0 h1 h3 xs0 xs1 xs2 = k0_pay12 (iblk m c 0 t) (iblk m c 1 t) xs0
  D1 : ∀ t h0 h1 h3 xs0 xs1 xs2, sout0_D_1 m c t h0 h1 h3 xs0 xs1 xs2 = k0_pay11 (iblk m c 0 t) (iblk m c 1 t) xs0 xs1
  E0 : ∀ t h0 h1 h3 xs0 xs1 xs2, sout0_E_0 m c t h0 h1 h3 xs0 xs1 xs2 = k0_pay9 (iblk m c 0 t) (iblk m c 1 t) xs0
  E1 : ∀ t h0 h1 h3 xs0 xs1 xs2, sout0_E_1 m c t h0 h1 h3 xs0 xs1 xs2 = k0_pay8 (iblk m c 0 t) (iblk m c 1 t) xs0 xs1
  E2 : ∀ t h0 h1 h3 xs0 xs1 xs2, sout0_E_2 m c t h0 h1 h3 xs0 xs1 xs2 = k0_pay5 (iblk m c 0 t) (iblk m c 1 t)
  Eo : ∀ t h0 h1 h3 xs0 xs1 xs2, out0_E_2 m c t h0 h1 h3 xs0 xs1 xs2
      = k0_pay13 (k0_pay5 (iblk m c 0 t) (iblk m c 1 t)) (k0_pay9 (iblk m c 0 t) (iblk m c 1 t) xs0) (k0_pay8 (iblk m c 0 t) (iblk m c 1 t) xs0 xs1)
  F0 : ∀ t h0 h1 h3 xs0 xs1 xs2, sout0_F_0 m c t h0 h1 h3 xs0 xs1 xs2 = k0_pay12 (iblk m c 0 t) (iblk m c 1 t) xs0
  F1 : ∀ t h0 h1 h3 xs0 xs1 xs2, sout0_F_1 m c t h0 h1 h3 xs0 xs1 xs2 = k0_pay11 (iblk m c 0 t) (iblk m c 1 t) xs0 xs1
  Fo : ∀ t h0 h1 h3 xs0 xs1 xs2, out0_F_2 m c t h0 h1 h3 xs0 xs1 xs2
      = k0_pay13 xs2 (k0_pay12 (iblk m c 0 t) (iblk m c 1 t) xs0) (k0_pay11 (iblk m c 0 t) (iblk m c 1 t) xs0 xs1)

/-- The input as 4096 rows of 512. -/
def X : Rows := fun i d => V m c main_arg0 (ix2 i d)

/-- Row i's scores, tile by tile. -/
def zt (i : Fin 4096) : Fin 8 → Fin 512 → EReal := fun k cc => zK (X m c) i (row k cc)

/-- The scratch contents (m, l, t) are GOOD for block row qi after k tiles: row by row, (m, l) is the tile-by-tile
    state after k tiles, and t is the partner's score once tile qi is among them. -/
def Good (qi : Fin 8) (k : ℕ) (mv lv tv : Col) : Prop :=
  ∀ p : Fin 512,
    (mv (ix2 p (0 : Fin 1)), lv (ix2 p (0 : Fin 1))) = online (zt m c (row qi p)) k
    ∧ (qi.val < k → tv (ix2 p (0 : Fin 1)) = sim (X m c) (row qi p) (tgt (row qi p)) * two)

/-- The reset contents are good after no tile. -/
theorem good_init (qi : Fin 8) : Good m c qi 0 (k0_pay1 (F := Ideal)) (k0_pay2 (F := Ideal)) (k0_pay3 (F := Ideal)) := fun p =>
  ⟨by rw [pay1_apply, pay2_apply]; rfl, fun h => absurd h (Nat.not_lt_zero _)⟩

variable {m c}

/-- The diagonal tile's update keeps the contents good, one tile further, and sets the partner's score. -/
theorem good_diag (PE : PayEqs) (t : Fin cfg0.N) (hd : qiOf t = kiOf t) (mv lv tv : Col)
    (hs : Good m c (qiOf t) (t.val % 8) mv lv tv) :
    Good m c (qiOf t) (t.val % 8 + 1)
      (k0_pay9 (iblk m c 0 t) (iblk m c 1 t) mv) (k0_pay8 (iblk m c 0 t) (iblk m c 1 t) mv lv) (k0_pay5 (iblk m c 0 t) (iblk m c 1 t)) := fun p => by
  refine ⟨?_, fun _ => ?_⟩
  · have h := PE.upd_diag (X m c) (qiOf t) (kiOf t) (iblk m c 0 t) (iblk m c 1 t) (fun p d => iblk0_apply m c t p d) (fun p d => iblk1_apply m c t p d) hd mv lv p
    rw [online_succ (zt m c (row (qiOf t) p)) (t.val % 8) (kiOf t).isLt, ← (hs p).1]
    exact h
  · exact PE.partner (X m c) (qiOf t) (kiOf t) (iblk m c 0 t) (iblk m c 1 t) (fun p d => iblk0_apply m c t p d) (fun p d => iblk1_apply m c t p d) hd p

/-- An off-diagonal tile's update keeps the contents good, one tile further, and leaves the partner's score. -/
theorem good_off (PE : PayEqs) (t : Fin cfg0.N) (hd : qiOf t ≠ kiOf t) (mv lv tv : Col)
    (hs : Good m c (qiOf t) (t.val % 8) mv lv tv) :
    Good m c (qiOf t) (t.val % 8 + 1)
      (k0_pay12 (iblk m c 0 t) (iblk m c 1 t) mv) (k0_pay11 (iblk m c 0 t) (iblk m c 1 t) mv lv) tv := fun p => by
  refine ⟨?_, fun hlt => ?_⟩
  · have h := PE.upd_off (X m c) (qiOf t) (kiOf t) (iblk m c 0 t) (iblk m c 1 t) (fun p d => iblk0_apply m c t p d) (fun p d => iblk1_apply m c t p d) hd mv lv p
    rw [online_succ (zt m c (row (qiOf t) p)) (t.val % 8) (kiOf t).isLt, ← (hs p).1]
    exact h
  · exact (hs p).2 (by have h1 : (qiOf t).val ≠ (kiOf t).val := fun e => hd (Fin.ext e); have h2 : (kiOf t).val = t.val % 8 := rfl; omega)

/-- The scratch contents after the body at position n. -/
abbrev sAt (m : (ℓ : Loc nD τ sig) → Buf (Elt Ideal) ℓ) (c : Dev nD) (n : ℕ) (hn : n < cfg0.N) : Col × Col × Col := (outsAt0 m c n hn).2

/-- One point: the contents after the body are good for one tile more than those before it (at ki = 0, where the
    body resets them first, whatever was there before). -/
theorem inv_step (PE : PayEqs) (QE : PieceEqs m c) (t : Fin cfg0.N)
    (hprev : ¬t.val % 8 = 0 → Good m c (qiOf t) (t.val % 8)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) :
    Good m c (qiOf t) (t.val % 8 + 1) (outsAt0 m c t.val t.isLt).2.1 (outsAt0 m c t.val t.isLt).2.2.1 (outsAt0 m c t.val t.isLt).2.2.2 := by
  have hN := lt64 t
  have hdiag : t.val % 9 = 0 ↔ qiOf t = kiOf t := by
    constructor
    · intro h; apply Fin.ext; show t.val / 8 = t.val % 8; omega
    · intro h; have : t.val / 8 = t.val % 8 := congrArg Fin.val h; omega
  by_cases h0 : t.val % 8 = 0
  · have h3 : ¬t.val % 8 = 7 := by omega
    have g0 : Good m c (qiOf t) (t.val % 8) (k0_pay1 (F := Ideal)) (k0_pay2 (F := Ideal)) (k0_pay3 (F := Ideal)) := by rw [h0]; exact good_init m c (qiOf t)
    by_cases h1 : t.val % 9 = 0
    · rw [outsAt0_A m c t h0 h1 h3]
      dsimp only
      rw [QE.A0, QE.A1, QE.A2]
      exact good_diag PE t (hdiag.mp h1) _ _ _ g0
    · rw [outsAt0_B m c t h0 h1 h3]
      dsimp only
      rw [QE.B0, QE.B1, QE.B2]
      exact good_off PE t (fun e => h1 (hdiag.mpr e)) _ _ _ g0
  · have gp := hprev h0
    by_cases h1 : t.val % 9 = 0
    · by_cases h3 : t.val % 8 = 7
      · rw [outsAt0_E m c t h0 h1 h3]
        generalize outsAt0 m c (t.val - 1) _ = P at gp ⊢
        obtain ⟨o, mv, lv, tv⟩ := P
        dsimp only
        rw [QE.E0, QE.E1, QE.E2]
        exact good_diag PE t (hdiag.mp h1) mv lv tv gp
      · rw [outsAt0_C m c t h0 h1 h3]
        generalize outsAt0 m c (t.val - 1) _ = P at gp ⊢
        obtain ⟨o, mv, lv, tv⟩ := P
        dsimp only
        rw [QE.C0, QE.C1, QE.C2]
        exact good_diag PE t (hdiag.mp h1) mv lv tv gp
    · by_cases h3 : t.val % 8 = 7
      · rw [outsAt0_F m c t h0 h1 h3]
        generalize outsAt0 m c (t.val - 1) _ = P at gp ⊢
        obtain ⟨o, mv, lv, tv⟩ := P
        dsimp only
        rw [QE.F0, QE.F1]
        exact good_off PE t (fun e => h1 (hdiag.mpr e)) mv lv tv gp
      · rw [outsAt0_D m c t h0 h1 h3]
        generalize outsAt0 m c (t.val - 1) _ = P at gp ⊢
        obtain ⟨o, mv, lv, tv⟩ := P
        dsimp only
        rw [QE.D0, QE.D1]
        exact good_off PE t (fun e => h1 (hdiag.mpr e)) mv lv tv gp

/-- THE INVARIANT: after the body at every position the scratch contents are good for the tiles taken in so far. -/
theorem inv (PE : PayEqs) (QE : PieceEqs m c) : ∀ (n : ℕ) (hn : n < cfg0.N),
    Good m c (qiOf ⟨n, hn⟩) (n % 8 + 1) (outsAt0 m c n hn).2.1 (outsAt0 m c n hn).2.2.1 (outsAt0 m c n hn).2.2.2 := by
  intro n
  induction n with
  | zero => intro hn; exact inv_step PE QE ⟨0, hn⟩ (fun h => absurd rfl h)
  | succ n ih =>
    intro hn
    refine inv_step PE QE ⟨n + 1, hn⟩ (fun hk => ?_)
    have hp := ih (Nat.lt_of_succ_lt hn)
    have hq : qiOf ⟨n + 1, hn⟩ = qiOf ⟨n, Nat.lt_of_succ_lt hn⟩ := Fin.ext (by show (n + 1) / 8 = n / 8; have : ¬(n + 1) % 8 = 0 := hk; omega)
    have hk' : (n + 1) % 8 = n % 8 + 1 := by have : ¬(n + 1) % 8 = 0 := hk; omega
    show Good m c (qiOf ⟨n + 1, hn⟩) ((n + 1) % 8) (outsAt0 m c n _).2.1 (outsAt0 m c n _).2.2.1 (outsAt0 m c n _).2.2.2
    rw [hq, hk']
    exact hp

/-! ## The column the region writes back -/

variable (m c)

/-- The output column as one function of the input: row i holds row i's loss. -/
def G : S4096x1.Idx → EReal := fun i => rowK (X m c) ⟨(i 0).val, (i 0).isLt⟩

variable {m c}

/-- What the body leaves in the output block at a point with ki = 7: each row's loss. -/
theorem out_value (PE : PayEqs) (QE : PieceEqs m c) (hx : ∀ i d, ∃ r : ℝ, X m c i d = (r : EReal))
    (t : Fin cfg0.N) (h3 : t.val % 8 = 7) (p : Fin 512) :
    (outsAt0 m c t.val t.isLt).1 (ix2 p (0 : Fin 1)) = rowK (X m c) (row (qiOf t) p) := by
  have hN := lt64 t
  have h0 : ¬t.val % 8 = 0 := by omega
  have hg := inv PE QE t.val t.isLt
  have h8 : t.val % 8 + 1 = 8 := by omega
  rw [h8] at hg
  have hon := online_zK (X m c) hx (row (qiOf t) p)
  have hlt : (qiOf t).val < 8 := (qiOf t).isLt
  by_cases h1 : t.val % 9 = 0
  · rw [outsAt0_E m c t h0 h1 h3] at hg ⊢
    dsimp only at hg
    have hg' := hg
    rw [QE.E0, QE.E1, QE.E2] at hg'
    obtain ⟨hml, ht⟩ := hg' p
    dsimp only
    rw [QE.Eo, pay13_apply]
    have hm := congrArg Prod.fst hml
    have hl := congrArg Prod.snd hml
    rw [show online (zt m c (row (qiOf t) p)) 8 = _ from hon] at hm hl
    dsimp only at hm hl ht
    rw [hm, hl, ht hlt]
    rfl
  · rw [outsAt0_F m c t h0 h1 h3] at hg ⊢
    dsimp only at hg
    have hg' := hg
    rw [QE.F0, QE.F1] at hg'
    obtain ⟨hml, ht⟩ := hg' p
    dsimp only
    rw [QE.Fo, pay13_apply]
    have hm := congrArg Prod.fst hml
    have hl := congrArg Prod.snd hml
    rw [show online (zt m c (row (qiOf t) p)) 8 = _ from hon] at hm hl
    dsimp only at hm hl ht
    rw [hm, hl, ht hlt]
    rfl

/-- WHAT A WRITE-BACK WRITES is its block of the column of row losses. -/
theorem flushed_eq (PE : PayEqs) (QE : PieceEqs m c) (hx : ∀ i d, ∃ r : ℝ, X m c i d = (r : EReal))
    (t : Fin cfg0.N) (hf : (cfg0.win 2).flush t = true) :
    (dats m 0 c).flushed 2 t = ((cfg0.win 2).blk t).view.read (Elt Ideal) (G m c) := by
  have h3 : t.val % 8 = 7 := (flush0_2 t).mp hf
  show (cfg0.win 2).cut (grid0.coords t) ((dats m 0 c).after 2 t) = _
  rw [after0_2]
  funext j
  obtain ⟨p, u, rfl⟩ : ∃ (p : Fin 512) (u : Fin 1), j = ix2 p u := ⟨j 0, j 1, eq_ix2 j⟩
  obtain rfl : u = 0 := Subsingleton.elim _ _
  rw [View.read_apply]
  show (outsAt0 m c t.val t.isLt).1 (ix2 p (0 : Fin 1)) = G m c (((cfg0.win 2).blk t).view.emb (ix2 p (0 : Fin 1)))
  rw [out_value PE QE hx t h3 p]
  unfold G
  congr 1
  apply Fin.ext
  rw [row_val]
  exact (emb2_row t p 0).symm

/-- THE OUTPUT ARRAY after the region: the column of row losses. -/
theorem final_arr (PE : PayEqs) (QE : PieceEqs m c) (hx : ∀ i d, ∃ r : ℝ, X m c i d = (r : EReal)) :
    (dats m 0 c).arrAt 2 cfg0.N = G m c :=
  (dats m 0 c).arrAt_eq_of_cover 2 (G m c) (fun t hf => flushed_eq PE QE hx t hf) cover2

/-- Row i of the column is row i's loss. -/
theorem G_apply (i : Fin 4096) : G m c (ix2 i (0 : Fin 1)) = rowK (X m c) i := rfl

end Cert.KernelIdeal.KValue

end
-- ==== Proof.KPieces.lean ====
/- What the pieces each run found read back as: per control case and per buffer the case stores into, the contents its stores leave are one payload of the kernel's arithmetic, a function of the two input blocks and of what the carried buffers held before the point. Generic in the float instance and in the memrefs. -/
import proofs.«132228_j84499186581515_1_alg».proof.Proof.KOuts
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 rectangle, however spelt. -/
theorem zeros2 : (![0, 0] : Fin 2 → ℕ) = fun _ => 0 := by funext a; fin_cases a <;> rfl

/-- Reading back, through any view and over any prior contents, a covering list of pieces whose canonical
    contents are `w`. -/
theorem read_of_canon {s : Shape} (v : View sig .tc .vmem s .f32) (f : v.ty.Contents (Elt F))
    (L : List (View.Piece (Elt F) s .f32)) (w : s.Idx → Elt F .f32)
    (hc : ∀ y, ∃ p ∈ L, y ∈ p.1.set) (h : View.canon L = w) : v.read (Elt F) (v.writes (Elt F) f L) = w :=
  (View.read_writes_eq_canon v f L hc).trans h

variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole)

/-- Case D, the running maximum: the canonical contents of the pieces found. -/
theorem cspiece0_D_0 (hc0 : ¬cond0_0 i) (hc1 : ¬cond0_1 i) (hc2 : cond0_2 i) (hc3 : ¬cond0_3 i) (x0 x1 : Vec F S512x512 .f32) (xs0 xs1 xs2 : Vec F S512x1 .f32) :
    View.canon (kernelRun0_D c i arg2 harg2 arg3 harg3 arg4 harg4 arg5 harg5 arg6 harg6 arg7 harg7 hc0 hc1 hc2 hc3 x0 x1 xs0 xs1 xs2).2.1 = k0_pay12 x0 x1 xs0 := by
  unfold kernelRun0_D; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_D_0 (hc0 : ¬cond0_0 i) (hc1 : ¬cond0_1 i) (hc2 : cond0_2 i) (hc3 : ¬cond0_3 i) (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.1 S512x1.size (by sl_kernel_rfl) y

/-- Case D, the running maximum: what the pieces read back as through the scratch view. -/
theorem spiece0_D_0 (hc0 : ¬cond0_0 i) (hc1 : ¬cond0_1 i) (hc2 : cond0_2 i) (hc3 : ¬cond0_3 i) (x0 x1 : Vec F S512x512 .f32) (xs0 xs1 xs2 : Vec F S512x1 .f32) :
    VS0_0.read (Elt F) (VS0_0.writes (Elt F) VS0_0.junk (kernelRun0_D c i arg2 harg2 arg3 harg3 arg4 harg4 arg5 harg5 arg6 harg6 arg7 harg7 hc0 hc1 hc2 hc3 x0 x1 xs0 xs1 xs2).2.1) = k0_pay12 x0 x1 xs0 :=
  read_of_canon VS0_0 VS0_0.junk _ _ (spcover0_D_0 c i arg2 harg2 arg3 harg3 arg4 harg4 arg5 harg5 arg6 harg6 arg7 harg7 hc0 hc1 hc2 hc3 x0 x1 xs0 xs1 xs2) (cspiece0_D_0 c i arg2 harg2 arg3 harg3 arg4 harg4 arg5 harg5 arg6 harg6 arg7 harg7 hc0 hc1 hc2 hc3 x0 x1 xs0 xs1 xs2)

/-- Case D, the running sum: the canonical contents of the pieces found. -/
theorem cspiece0_D_1 (hc0 : ¬cond0_0 i) (hc1 : ¬cond0_1 i) (hc2 : cond0_2 i) (hc3 : ¬cond0_3 i) (x0 x1 : Vec F S512x512 .f32) (xs0 xs1 xs2 : Vec F S512x1 .f32) :
    View.canon (kernelRun0_D c i arg2 harg2 arg3 harg3 arg4 harg4 arg5 harg5 arg6 harg6 arg7 harg7 hc0 hc1 hc2 hc3 x0 x1 xs0 xs1 xs2).2.2.1 = k0_pay11 x0 x1 xs0 xs1 := by
  unfold kernelRun0_D; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_D_1 (hc0 : ¬cond0_0 i) (hc1 : ¬cond0_1 i) (hc2 : cond0_2 i) (hc3 : ¬cond0_3 i) (x0 x1 : Vec F S512x512 .f32) (xs0 xs1 xs2 : Vec F S512x1 .f32) (y : S512x1.Idx) :
    ∃ pc ∈ (kernelRun0_D c i arg2 harg2 arg3 harg3 arg4 harg4 arg5 harg5 arg6 harg6 arg7 harg7 hc0 hc1 hc2 hc3 x0 x1 xs0 xs1 xs2).2.2.1, y ∈ pc.1.set :=
  View.cover_of_tiledL (kernelRun0_D c i arg2 harg2 arg3 harg3 arg4 harg4 arg5 harg5 arg6 harg6 arg7 harg7 hc0 hc1 hc2 hc3 x0 x1 xs0 xs1 xs2).2.2.1 S512x1.size (by sl_kernel_rfl) y

/-- Case D, the running sum: what the pieces read back as through the scratch view. -/
theorem spiece0_D_1 (hc0 : ¬cond0_0 i) (hc1 : ¬cond0_1 i) (hc2 : cond0_2 i) (hc3 : ¬cond0_3 i) (x0 x1 : Vec F S512x512 .f32) (xs0 xs1 xs2 : Vec F S512x1 .f32) :
    VS0_1.read (Elt F) (VS0_1.writes (Elt F) VS0_1.junk (kernelRun0_D c i arg2 harg2 arg3 harg3 arg4 harg4 arg5 harg5 arg6 harg6 arg7 harg7 hc0 hc1 hc2 hc3 x0 x1 xs0 xs1 xs2).2.2.1) = k0_pay11 x0 x1 xs0 xs1 :=
  read_of_canon VS0_1 VS0_1.junk _ _ (spcover0_D_1 c i arg2 harg2 arg3 harg3 arg4 harg4 arg5 harg5 arg6 harg6 arg7 harg7 hc0 hc1 hc2 hc3 x0 x1 xs0 xs1 xs2) (cspiece0_D_1 c i arg2 harg2 arg3 harg3 arg4 harg4 arg5 harg5 arg6 harg6 arg7 harg7 hc0 hc1 hc2 hc3 x0 x1 xs0 xs1 xs2)

/-- Case C, the running maximum: the canonical contents of the pieces found. -/
theorem cspiece0_C_0 (hc0 : ¬cond0_0 i) (hc1 : cond0_1 i) (hc2 : ¬cond0_2 i) (hc3 : ¬cond0_3 i) (x0 x1 : Vec F S512x512 .f32) (xs0 xs1 xs2 : Vec F S512x1 .f32) :
    View.canon (kernelRun0_C c i arg2 harg2 arg3 harg3 arg4 harg4 arg5 harg5 arg6 harg6 arg7 harg7 hc0 hc1 hc2 hc3 x0 x1 xs0 xs1 xs2).2.1 = k0_pay9 x0 x1 xs0 := by
  unfold kernelRun0_C; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_C_0 (hc0 : ¬cond0_0 i) (hc1 : cond0_1 i) (hc2 : ¬cond0_2 i) (hc3 : ¬cond0_3 i) (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.1 S512x1.size (by sl_kernel_rfl) y

/-- Case C, the running maximum: what the pieces read back as through the scratch view. -/
theorem spiece0_C_0 (hc0 : ¬cond0_0 i) (hc1 : cond0_1 i) (hc2 : ¬cond0_2 i) (hc3 : ¬cond0_3 i) (x0 x1 : Vec F S512x512 .f32) (xs0 xs1 xs2 : Vec F S512x1 .f32) :
    VS0_0.read (Elt F) (VS0_0.writes (Elt F) VS0_0.junk (kernelRun0_C c i arg2 harg2 arg3 harg3 arg4 harg4 arg5 harg5 arg6 harg6 arg7 harg7 hc0 hc1 hc2 hc3 x0 x1 xs0 xs1 xs2).2.1) = k0_pay9 x0 x1 xs0 :=
  read_of_canon VS0_0 VS0_0.junk _ _ (spcover0_C_0 c i arg2 harg2 arg3 harg3 arg4 harg4 arg5 harg5 arg6 harg6 arg7 harg7 hc0 hc1 hc2 hc3 x0 x1 xs0 xs1 xs2) (cspiece0_C_0 c i arg2 harg2 arg3 harg3 arg4 harg4 arg5 harg5 arg6 harg6 arg7 harg7 hc0 hc1 hc2 hc3 x0 x1 xs0 xs1 xs2)

/-- Case C, the running sum: the canonical contents of the pieces found. -/
theorem cspiece0_C_1 (hc0 : ¬cond0_0 i) (hc1 : cond0_1 i) (hc2 : ¬cond0_2 i) (hc3 : ¬cond0_3 i) (x0 x1 : Vec F S512x512 .f32) (xs0 xs1 xs2 : Vec F S512x1 .f32) :
    View.canon (kernelRun0_C c i arg2 harg2 arg3 harg3 arg4 harg4 arg5 harg5 arg6 harg6 arg7 harg7 hc0 hc1 hc2 hc3 x0 x1 xs0 xs1 xs2).2.2.1 = k0_pay8 x0 x1 xs0 xs1 := by
  unfold kernelRun0_C; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_C_1 (hc0 : ¬cond0_0 i) (hc1 : cond0_1 i) (hc2 : ¬cond0_2 i) (hc3 : ¬cond0_3 i) (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.1 S512x1.size (by sl_kernel_rfl) y

/-- Case C, the running sum: what the pieces read back as through the scratch view. -/
theorem spiece0_C_1 (hc0 : ¬cond0_0 i) (hc1 : cond0_1 i) (hc2 : ¬cond0_2 i) (hc3 : ¬cond0_3 i) (x0 x1 : Vec F S512x512 .f32) (xs0 xs1 xs2 : Vec F S512x1 .f32) :
    VS0_1.read (Elt F) (VS0_1.writes (Elt F) VS0_1.junk (kernelRun0_C c i arg2 harg2 arg3 harg3 arg4 harg4 arg5 harg5 arg6 harg6 arg7 harg7 hc0 hc1 hc2 hc3 x0 x1 xs0 xs1 xs2).2.2.1) = k0_pay8 x0 x1 xs0 xs1 :=
  read_of_canon VS0_1 VS0_1.junk _ _ (spcover0_C_1 c i arg2 harg2 arg3 harg3 arg4 harg4 arg5 harg5 arg6 harg6 arg7 harg7 hc0 hc1 hc2 hc3 x0 x1 xs0 xs1 xs2) (cspiece0_C_1 c i arg2 harg2 arg3 harg3 arg4 harg4 arg5 harg5 arg6 harg6 arg7 harg7 hc0 hc1 hc2 hc3 x0 x1 xs0 xs1 xs2)

/-- Case C, the partner logit: the canonical contents of the pieces found. -/
theorem cspiece0_C_2 (hc0 : ¬cond0_0 i) (hc1 : cond0_1 i) (hc2 : ¬cond0_2 i) (hc3 : ¬cond0_3 i) (x0 x1 : Vec F S512x512 .f32) (xs0 xs1 xs2 : Vec F S512x1 .f32) :
    View.canon (kernelRun0_C c i arg2 harg2 arg3 harg3 arg4 harg4 arg5 harg5 arg6 harg6 arg7 harg7 hc0 hc1 hc2 hc3 x0 x1 xs0 xs1 xs2).2.2.2.1 = k0_pay5 x0 x1 := by
  unfold kernelRun0_C; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_C_2 (hc0 : ¬cond0_0 i) (hc1 : cond0_1 i) (hc2 : ¬cond0_2 i) (hc3 : ¬cond0_3 i) (x0 x1 : Vec F S512x512 .f32) (xs0 xs1 xs2 : Vec F S512x1 .f32) (y : S512x1.Idx) :
    ∃ pc ∈ (kernelRun0_C c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_C c i arg2 harg2 arg3 harg3 arg4 harg4 arg5 harg5 arg6 harg6 arg7 harg7 hc0 hc1 hc2 hc3 x0 x1 xs0 xs1 xs2).2.2.2.1 S512x1.size (by sl_kernel_rfl) y

/-- Case C, the partner logit: what the pieces read back as through the scratch view. -/
theorem spiece0_C_2 (hc0 : ¬cond0_0 i) (hc1 : cond0_1 i) (hc2 : ¬cond0_2 i) (hc3 : ¬cond0_3 i) (x0 x1 : Vec F S512x512 .f32) (xs0 xs1 xs2 : Vec F S512x1 .f32) :
    VS0_2.read (Elt F) (VS0_2.writes (Elt F) VS0_2.junk (kernelRun0_C c i arg2 harg2 arg3 harg3 arg4 harg4 arg5 harg5 arg6 harg6 arg7 harg7 hc0 hc1 hc2 hc3 x0 x1 xs0 xs1 xs2).2.2.2.1) = k0_pay5 x0 x1 :=
  read_of_canon VS0_2 VS0_2.junk _ _ (spcover0_C_2 c i arg2 harg2 arg3 harg3 arg4 harg4 arg5 harg5 arg6 harg6 arg7 harg7 hc0 hc1 hc2 hc3 x0 x1 xs0 xs1 xs2) (cspiece0_C_2 c i arg2 harg2 arg3 harg3 arg4 harg4 arg5 harg5 arg6 harg6 arg7 harg7 hc0 hc1 hc2 hc3 x0 x1 xs0 xs1 xs2)

/-- Case B, the running maximum: the canonical contents of the pieces found. -/
theorem cspiece0_B_0 (hc0 : cond0_0 i) (hc1 : ¬cond0_1 i) (hc2 : cond0_2 i) (hc3 : ¬cond0_3 i) (x0 x1 : Vec F S512x512 .f32) :
    View.canon (kernelRun0_B c i arg2 harg2 arg3 harg3 arg4 harg4 arg5 harg5 arg6 harg6 arg7 harg7 hc0 hc1 hc2 hc3 x0 x1).2.1 = k0_pay12 x0 x1 k0_pay1 := by
  unfold kernelRun0_B; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_B_0 (hc0 : cond0_0 i) (hc1 : ¬cond0_1 i) (hc2 : cond0_2 i) (hc3 : ¬cond0_3 i) (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.1, y ∈ pc.1.set :=
  View.cover_of_tiledL (kernelRun0_B c i arg2 harg2 arg3 harg3 arg4 harg4 arg5 harg5 arg6 harg6 arg7 harg7 hc0 hc1 hc2 hc3 x0 x1).2.1 S512x1.size (by sl_kernel_rfl) y

/-- Case B, the running maximum: what the pieces read back as through the scratch view. -/
theorem spiece0_B_0 (hc0 : cond0_0 i) (hc1 : ¬cond0_1 i) (hc2 : cond0_2 i) (hc3 : ¬cond0_3 i) (x0 x1 : Vec F S512x512 .f32) :
    VS0_0.read (Elt F) (VS0_0.writes (Elt F) VS0_0.junk (kernelRun0_B c i arg2 harg2 arg3 harg3 arg4 harg4 arg5 harg5 arg6 harg6 arg7 harg7 hc0 hc1 hc2 hc3 x0 x1).2.1) = k0_pay12 x0 x1 k0_pay1 :=
  read_of_canon VS0_0 VS0_0.junk _ _ (spcover0_B_0 c i arg2 harg2 arg3 harg3 arg4 harg4 arg5 harg5 arg6 harg6 arg7 harg7 hc0 hc1 hc2 hc3 x0 x1) (cspiece0_B_0 c i arg2 harg2 arg3 harg3 arg4 harg4 arg5 harg5 arg6 harg6 arg7 harg7 hc0 hc1 hc2 hc3 x0 x1)

/-- Case B, the running sum: the canonical contents of the pieces found. -/
theorem cspiece0_B_1 (hc0 : cond0_0 i) (hc1 : ¬cond0_1 i) (hc2 : cond0_2 i) (hc3 : ¬cond0_3 i) (x0 x1 : Vec F S512x512 .f32) :
    View.canon (kernelRun0_B c i arg2 harg2 arg3 harg3 arg4 harg4 arg5 harg5 arg6 harg6 arg7 harg7 hc0 hc1 hc2 hc3 x0 x1).2.2.1 = k0_pay11 x0 x1 k0_pay1 k0_pay2 := by
  unfold kernelRun0_B; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_B_1 (hc0 : cond0_0 i) (hc1 : ¬cond0_1 i) (hc2 : cond0_2 i) (hc3 : ¬cond0_3 i) (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.1, y ∈ pc.1.set :=
  View.cover_of_tiledL (kernelRun0_B c i arg2 harg2 arg3 harg3 arg4 harg4 arg5 harg5 arg6 harg6 arg7 harg7 hc0 hc1 hc2 hc3 x0 x1).2.2.1 S512x1.size (by sl_kernel_rfl) y

/-- Case B, the running sum: what the pieces read back as through the scratch view. -/
theorem spiece0_B_1 (hc0 : cond0_0 i) (hc1 : ¬cond0_1 i) (hc2 : cond0_2 i) (hc3 : ¬cond0_3 i) (x0 x1 : Vec F S512x512 .f32) :
    VS0_1.read (Elt F) (VS0_1.writes (Elt F) VS0_1.junk (kernelRun0_B c i arg2 harg2 arg3 harg3 arg4 harg4 arg5 harg5 arg6 harg6 arg7 harg7 hc0 hc1 hc2 hc3 x0 x1).2.2.1) = k0_pay11 x0 x1 k0_pay1 k0_pay2 :=
  read_of_canon VS0_1 VS0_1.junk _ _ (spcover0_B_1 c i arg2 harg2 arg3 harg3 arg4 harg4 arg5 harg5 arg6 harg6 arg7 harg7 hc0 hc1 hc2 hc3 x0 x1) (cspiece0_B_1 c i arg2 harg2 arg3 harg3 arg4 harg4 arg5 harg5 arg6 harg6 arg7 harg7 hc0 hc1 hc2 hc3 x0 x1)

/-- Case B, the partner logit: the canonical contents of the pieces found. -/
theorem cspiece0_B_2 (hc0 : cond0_0 i) (hc1 : ¬cond0_1 i) (hc2 : cond0_2 i) (hc3 : ¬cond0_3 i) (x0 x1 : Vec F S512x512 .f32) :
    View.canon (kernelRun0_B c i arg2 harg2 arg3 harg3 arg4 harg4 arg5 harg5 arg6 harg6 arg7 harg7 hc0 hc1 hc2 hc3 x0 x1).2.2.2.1 = k0_pay3 := by
  unfold kernelRun0_B; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_B_2 (hc0 : cond0_0 i) (hc1 : ¬cond0_1 i) (hc2 : cond0_2 i) (hc3 : ¬cond0_3 i) (x0 x1 : Vec F S512x512 .f32) (y : S512x1.Idx) :
    ∃ pc ∈ (kernelRun0_B c i arg2 harg2 arg3 harg3 arg4 harg4 arg5 harg5 arg6 harg6 arg7 harg7 hc0 hc1 hc2 hc3 x0 x1).2.2.2.1, y ∈ pc.1.set :=
  View.cover_of_tiledL (kernelRun0_B c i arg2 harg2 arg3 harg3 arg4 harg4 arg5 harg5 arg6 harg6 arg7 harg7 hc0 hc1 hc2 hc3 x0 x1).2.2.2.1 S512x1.size (by sl_kernel_rfl) y

/-- Case B, the partner logit: what the pieces read back as through the scratch view. -/
theorem spiece0_B_2 (hc0 : cond0_0 i) (hc1 : ¬cond0_1 i) (hc2 : cond0_2 i) (hc3 : ¬cond0_3 i) (x0 x1 : Vec F S512x512 .f32) :
    VS0_2.read (Elt F) (VS0_2.writes (Elt F) VS0_2.junk (kernelRun0_B c i arg2 harg2 arg3 harg3 arg4 harg4 arg5 harg5 arg6 harg6 arg7 harg7 hc0 hc1 hc2 hc3 x0 x1).2.2.2.1) = k0_pay3 :=
  read_of_canon VS0_2 VS0_2.junk _ _ (spcover0_B_2 c i arg2 harg2 arg3 harg3 arg4 harg4 arg5 harg5 arg6 harg6 arg7 harg7 hc0 hc1 hc2 hc3 x0 x1) (cspiece0_B_2 c i arg2 harg2 arg3 harg3 arg4 harg4 arg5 harg5 arg6 harg6 arg7 harg7 hc0 hc1 hc2 hc3 x0 x1)

/-- Case A, the running maximum: the canonical contents of the pieces found. -/
theorem cspiece0_A_0 (hc0 : cond0_0 i) (hc1 : cond0_1 i) (hc2 : ¬cond0_2 i) (hc3 : ¬cond0_3 i) (x0 x1 : Vec F S512x512 .f32) :
    View.canon (kernelRun0_A c i arg2 harg2 arg3 harg3 arg4 harg4 arg5 harg5 arg6 harg6 arg7 harg7 hc0 hc1 hc2 hc3 x0 x1).2.1 = k0_pay9 x0 x1 k0_pay1 := by
  unfold kernelRun0_A; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_A_0 (hc0 : cond0_0 i) (hc1 : cond0_1 i) (hc2 : ¬cond0_2 i) (hc3 : ¬cond0_3 i) (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.1, y ∈ pc.1.set :=
  View.cover_of_tiledL (kernelRun0_A c i arg2 harg2 arg3 harg3 arg4 harg4 arg5 harg5 arg6 harg6 arg7 harg7 hc0 hc1 hc2 hc3 x0 x1).2.1 S512x1.size (by sl_kernel_rfl) y

/-- Case A, the running maximum: what the pieces read back as through the scratch view. -/
theorem spiece0_A_0 (hc0 : cond0_0 i) (hc1 : cond0_1 i) (hc2 : ¬cond0_2 i) (hc3 : ¬cond0_3 i) (x0 x1 : Vec F S512x512 .f32) :
    VS0_0.read (Elt F) (VS0_0.writes (Elt F) VS0_0.junk (kernelRun0_A c i arg2 harg2 arg3 harg3 arg4 harg4 arg5 harg5 arg6 harg6 arg7 harg7 hc0 hc1 hc2 hc3 x0 x1).2.1) = k0_pay9 x0 x1 k0_pay1 :=
  read_of_canon VS0_0 VS0_0.junk _ _ (spcover0_A_0 c i arg2 harg2 arg3 harg3 arg4 harg4 arg5 harg5 arg6 harg6 arg7 harg7 hc0 hc1 hc2 hc3 x0 x1) (cspiece0_A_0 c i arg2 harg2 arg3 harg3 arg4 harg4 arg5 harg5 arg6 harg6 arg7 harg7 hc0 hc1 hc2 hc3 x0 x1)

/-- Case A, the running sum: the canonical contents of the pieces found. -/
theorem cspiece0_A_1 (hc0 : cond0_0 i) (hc1 : cond0_1 i) (hc2 : ¬cond0_2 i) (hc3 : ¬cond0_3 i) (x0 x1 : Vec F S512x512 .f32) :
    View.canon (kernelRun0_A c i arg2 harg2 arg3 harg3 arg4 harg4 arg5 harg5 arg6 harg6 arg7 harg7 hc0 hc1 hc2 hc3 x0 x1).2.2.1 = k0_pay8 x0 x1 k0_pay1 k0_pay2 := by
  unfold kernelRun0_A; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_A_1 (hc0 : cond0_0 i) (hc1 : cond0_1 i) (hc2 : ¬cond0_2 i) (hc3 : ¬cond0_3 i) (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.1, y ∈ pc.1.set :=
  View.cover_of_tiledL (kernelRun0_A c i arg2 harg2 arg3 harg3 arg4 harg4 arg5 harg5 arg6 harg6 arg7 harg7 hc0 hc1 hc2 hc3 x0 x1).2.2.1 S512x1.size (by sl_kernel_rfl) y

/-- Case A, the running sum: what the pieces read back as through the scratch view. -/
theorem spiece0_A_1 (hc0 : cond0_0 i) (hc1 : cond0_1 i) (hc2 : ¬cond0_2 i) (hc3 : ¬cond0_3 i) (x0 x1 : Vec F S512x512 .f32) :
    VS0_1.read (Elt F) (VS0_1.writes (Elt F) VS0_1.junk (kernelRun0_A c i arg2 harg2 arg3 harg3 arg4 harg4 arg5 harg5 arg6 harg6 arg7 harg7 hc0 hc1 hc2 hc3 x0 x1).2.2.1) = k0_pay8 x0 x1 k0_pay1 k0_pay2 :=
  read_of_canon VS0_1 VS0_1.junk _ _ (spcover0_A_1 c i arg2 harg2 arg3 harg3 arg4 harg4 arg5 harg5 arg6 harg6 arg7 harg7 hc0 hc1 hc2 hc3 x0 x1) (cspiece0_A_1 c i arg2 harg2 arg3 harg3 arg4 harg4 arg5 harg5 arg6 harg6 arg7 harg7 hc0 hc1 hc2 hc3 x0 x1)

/-- Case A, the partner logit: the canonical contents of the pieces found. -/
theorem cspiece0_A_2 (hc0 : cond0_0 i) (hc1 : cond0_1 i) (hc2 : ¬cond0_2 i) (hc3 : ¬cond0_3 i) (x0 x1 : Vec F S512x512 .f32) :
    View.canon (kernelRun0_A c i arg2 harg2 arg3 harg3 arg4 harg4 arg5 harg5 arg6 harg6 arg7 harg7 hc0 hc1 hc2 hc3 x0 x1).2.2.2.1 = k0_pay5 x0 x1 := by
  unfold kernelRun0_A; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_A_2 (hc0 : cond0_0 i) (hc1 : cond0_1 i) (hc2 : ¬cond0_2 i) (hc3 : ¬cond0_3 i) (x0 x1 : Vec F S512x512 .f32) (y : S512x1.Idx) :
    ∃ pc ∈ (kernelRun0_A c i arg2 harg2 arg3 harg3 arg4 harg4 arg5 harg5 arg6 harg6 arg7 harg7 hc0 hc1 hc2 hc3 x0 x1).2.2.2.1, y ∈ pc.1.set :=
  View.cover_of_tiledL (kernelRun0_A c i arg2 harg2 arg3 harg3 arg4 harg4 arg5 harg5 arg6 harg6 arg7 harg7 hc0 hc1 hc2 hc3 x0 x1).2.2.2.1 S512x1.size (by sl_kernel_rfl) y

/-- Case A, the partner logit: what the pieces read back as through the scratch view. -/
theorem spiece0_A_2 (hc0 : cond0_0 i) (hc1 : cond0_1 i) (hc2 : ¬cond0_2 i) (hc3 : ¬cond0_3 i) (x0 x1 : Vec F S512x512 .f32) :
    VS0_2.read (Elt F) (VS0_2.writes (Elt F) VS0_2.junk (kernelRun0_A c i arg2 harg2 arg3 harg3 arg4 harg4 arg5 harg5 arg6 harg6 arg7 harg7 hc0 hc1 hc2 hc3 x0 x1).2.2.2.1) = k0_pay5 x0 x1 :=
  read_of_canon VS0_2 VS0_2.junk _ _ (spcover0_A_2 c i arg2 harg2 arg3 harg3 arg4 harg4 arg5 harg5 arg6 harg6 arg7 harg7 hc0 hc1 hc2 hc3 x0 x1) (cspiece0_A_2 c i arg2 harg2 arg3 harg3 arg4 harg4 arg5 harg5 arg6 harg6 arg7 harg7 hc0 hc1 hc2 hc3 x0 x1)

/-- Case F, the running maximum: the canonical contents of the pieces found. -/
theorem cspiece0_F_0 (hc0 : ¬cond0_0 i) (hc1 : ¬cond0_1 i) (hc2 : cond0_2 i) (hc3 : cond0_3 i) (x0 x1 : Vec F S512x512 .f32) (xs0 xs1 xs2 : Vec F S512x1 .f32) :
    View.canon (kernelRun0_F c i arg2 harg2 arg3 harg3 arg4 harg4 arg5 harg5 arg6 harg6 arg7 harg7 hc0 hc1 hc2 hc3 x0 x1 xs0 xs1 xs2).2.1 = k0_pay12 x0 x1 xs0 := by
  unfold kernelRun0_F; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_F_0 (hc0 : ¬cond0_0 i) (hc1 : ¬cond0_1 i) (hc2 : cond0_2 i) (hc3 : cond0_3 i) (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.1 S512x1.size (by sl_kernel_rfl) y

/-- Case F, the running maximum: what the pieces read back as through the scratch view. -/
theorem spiece0_F_0 (hc0 : ¬cond0_0 i) (hc1 : ¬cond0_1 i) (hc2 : cond0_2 i) (hc3 : cond0_3 i) (x0 x1 : Vec F S512x512 .f32) (xs0 xs1 xs2 : Vec F S512x1 .f32) :
    VS0_0.read (Elt F) (VS0_0.writes (Elt F) VS0_0.junk (kernelRun0_F c i arg2 harg2 arg3 harg3 arg4 harg4 arg5 harg5 arg6 harg6 arg7 harg7 hc0 hc1 hc2 hc3 x0 x1 xs0 xs1 xs2).2.1) = k0_pay12 x0 x1 xs0 :=
  read_of_canon VS0_0 VS0_0.junk _ _ (spcover0_F_0 c i arg2 harg2 arg3 harg3 arg4 harg4 arg5 harg5 arg6 harg6 arg7 harg7 hc0 hc1 hc2 hc3 x0 x1 xs0 xs1 xs2) (cspiece0_F_0 c i arg2 harg2 arg3 harg3 arg4 harg4 arg5 harg5 arg6 harg6 arg7 harg7 hc0 hc1 hc2 hc3 x0 x1 xs0 xs1 xs2)

/-- Case F, the running sum: the canonical contents of the pieces found. -/
theorem cspiece0_F_1 (hc0 : ¬cond0_0 i) (hc1 : ¬cond0_1 i) (hc2 : cond0_2 i) (hc3 : cond0_3 i) (x0 x1 : Vec F S512x512 .f32) (xs0 xs1 xs2 : Vec F S512x1 .f32) :
    View.canon (kernelRun0_F c i arg2 harg2 arg3 harg3 arg4 harg4 arg5 harg5 arg6 harg6 arg7 harg7 hc0 hc1 hc2 hc3 x0 x1 xs0 xs1 xs2).2.2.1 = k0_pay11 x0 x1 xs0 xs1 := by
  unfold kernelRun0_F; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_F_1 (hc0 : ¬cond0_0 i) (hc1 : ¬cond0_1 i) (hc2 : cond0_2 i) (hc3 : cond0_3 i) (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).2.2.1, y ∈ pc.1.set :=
  View.cover_of_tiledL (kernelRun0_F c i arg2 harg2 arg3 harg3 arg4 harg4 arg5 harg5 arg6 harg6 arg7 harg7 hc0 hc1 hc2 hc3 x0 x1 xs0 xs1 xs2).2.2.1 S512x1.size (by sl_kernel_rfl) y

/-- Case F, the running sum: what the pieces read back as through the scratch view. -/
theorem spiece0_F_1 (hc0 : ¬cond0_0 i) (hc1 : ¬cond0_1 i) (hc2 : cond0_2 i) (hc3 : cond0_3 i) (x0 x1 : Vec F S512x512 .f32) (xs0 xs1 xs2 : Vec F S512x1 .f32) :
    VS0_1.read (Elt F) (VS0_1.writes (Elt F) VS0_1.junk (kernelRun0_F c i arg2 harg2 arg3 harg3 arg4 harg4 arg5 harg5 arg6 harg6 arg7 harg7 hc0 hc1 hc2 hc3 x0 x1 xs0 xs1 xs2).2.2.1) = k0_pay11 x0 x1 xs0 xs1 :=
  read_of_canon VS0_1 VS0_1.junk _ _ (spcover0_F_1 c i arg2 harg2 arg3 harg3 arg4 harg4 arg5 harg5 arg6 harg6 arg7 harg7 hc0 hc1 hc2 hc3 x0 x1 xs0 xs1 xs2) (cspiece0_F_1 c i arg2 harg2 arg3 harg3 arg4 harg4 arg5 harg5 arg6 harg6 arg7 harg7 hc0 hc1 hc2 hc3 x0 x1 xs0 xs1 xs2)

/-- Case F, the output block: the canonical contents of the pieces found. -/
theorem cpiece0_F_2 (hc0 : ¬cond0_0 i) (hc1 : ¬cond0_1 i) (hc2 : cond0_2 i) (hc3 : cond0_3 i) (x0 x1 : Vec F S512x512 .f32) (xs0 xs1 xs2 : Vec F S512x1 .f32) :
    View.canon (kernelRun0_F c i arg2 harg2 arg3 harg3 arg4 harg4 arg5 harg5 arg6 harg6 arg7 harg7 hc0 hc1 hc2 hc3 x0 x1 xs0 xs1 xs2).1 = k0_pay13 xs2 (k0_pay12 x0 x1 xs0) (k0_pay11 x0 x1 xs0 xs1) := by
  unfold kernelRun0_F; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem pcover0_F_2 (hc0 : ¬cond0_0 i) (hc1 : ¬cond0_1 i) (hc2 : cond0_2 i) (hc3 : cond0_3 i) (x0 x1 : Vec F S512x512 .f32) (xs0 xs1 xs2 : Vec F S512x1 .f32) (y : S512x1.Idx) :
    ∃ pc ∈ (kernelRun0_F c i arg2 harg2 arg3 harg3 arg4 harg4 arg5 harg5 arg6 harg6 arg7 harg7 hc0 hc1 hc2 hc3 x0 x1 xs0 xs1 xs2).1, y ∈ pc.1.set :=
  View.cover_of_tiledL (kernelRun0_F c i arg2 harg2 arg3 harg3 arg4 harg4 arg5 harg5 arg6 harg6 arg7 harg7 hc0 hc1 hc2 hc3 x0 x1 xs0 xs1 xs2).1 S512x1.size (by sl_kernel_rfl) y

/-- Case F, the output block: what the pieces read back as through the output's staging view. -/
theorem piece0_F_2 (hc0 : ¬cond0_0 i) (hc1 : ¬cond0_1 i) (hc2 : cond0_2 i) (hc3 : cond0_3 i) (x0 x1 : Vec F S512x512 .f32) (xs0 xs1 xs2 : Vec F S512x1 .f32) :
    VO0_2.read (Elt F) (VO0_2.writes (Elt F) VO0_2.junk (kernelRun0_F c i arg2 harg2 arg3 harg3 arg4 harg4 arg5 harg5 arg6 harg6 arg7 harg7 hc0 hc1 hc2 hc3 x0 x1 xs0 xs1 xs2).1) = k0_pay13 xs2 (k0_pay12 x0 x1 xs0) (k0_pay11 x0 x1 xs0 xs1) :=
  read_of_canon VO0_2 VO0_2.junk _ _ (pcover0_F_2 c i arg2 harg2 arg3 harg3 arg4 harg4 arg5 harg5 arg6 harg6 arg7 harg7 hc0 hc1 hc2 hc3 x0 x1 xs0 xs1 xs2) (cpiece0_F_2 c i arg2 harg2 arg3 harg3 arg4 harg4 arg5 harg5 arg6 harg6 arg7 harg7 hc0 hc1 hc2 hc3 x0 x1 xs0 xs1 xs2)

/-- Case E, the running maximum: the canonical contents of the pieces found. -/
theorem cspiece0_E_0 (hc0 : ¬cond0_0 i) (hc1 : cond0_1 i) (hc2 : ¬cond0_2 i) (hc3 : cond0_3 i) (x0 x1 : Vec F S512x512 .f32) (xs0 xs1 xs2 : Vec F S512x1 .f32) :
    View.canon (kernelRun0_E c i arg2 harg2 arg3 harg3 arg4 harg4 arg5 harg5 arg6 harg6 arg7 harg7 hc0 hc1 hc2 hc3 x0 x1 xs0 xs1 xs2).2.1 = k0_pay9 x0 x1 xs0 := by
  unfold kernelRun0_E; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_E_0 (hc0 : ¬cond0_0 i) (hc1 : cond0_1 i) (hc2 : ¬cond0_2 i) (hc3 : cond0_3 i) (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.1 S512x1.size (by sl_kernel_rfl) y

/-- Case E, the running maximum: what the pieces read back as through the scratch view. -/
theorem spiece0_E_0 (hc0 : ¬cond0_0 i) (hc1 : cond0_1 i) (hc2 : ¬cond0_2 i) (hc3 : cond0_3 i) (x0 x1 : Vec F S512x512 .f32) (xs0 xs1 xs2 : Vec F S512x1 .f32) :
    VS0_0.read (Elt F) (VS0_0.writes (Elt F) VS0_0.junk (kernelRun0_E c i arg2 harg2 arg3 harg3 arg4 harg4 arg5 harg5 arg6 harg6 arg7 harg7 hc0 hc1 hc2 hc3 x0 x1 xs0 xs1 xs2).2.1) = k0_pay9 x0 x1 xs0 :=
  read_of_canon VS0_0 VS0_0.junk _ _ (spcover0_E_0 c i arg2 harg2 arg3 harg3 arg4 harg4 arg5 harg5 arg6 harg6 arg7 harg7 hc0 hc1 hc2 hc3 x0 x1 xs0 xs1 xs2) (cspiece0_E_0 c i arg2 harg2 arg3 harg3 arg4 harg4 arg5 harg5 arg6 harg6 arg7 harg7 hc0 hc1 hc2 hc3 x0 x1 xs0 xs1 xs2)

/-- Case E, the running sum: the canonical contents of the pieces found. -/
theorem cspiece0_E_1 (hc0 : ¬cond0_0 i) (hc1 : cond0_1 i) (hc2 : ¬cond0_2 i) (hc3 : cond0_3 i) (x0 x1 : Vec F S512x512 .f32) (xs0 xs1 xs2 : Vec F S512x1 .f32) :
    View.canon (kernelRun0_E c i arg2 harg2 arg3 harg3 arg4 harg4 arg5 harg5 arg6 harg6 arg7 harg7 hc0 hc1 hc2 hc3 x0 x1 xs0 xs1 xs2).2.2.1 = k0_pay8 x0 x1 xs0 xs1 := by
  unfold kernelRun0_E; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_E_1 (hc0 : ¬cond0_0 i) (hc1 : cond0_1 i) (hc2 : ¬cond0_2 i) (hc3 : cond0_3 i) (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.1 S512x1.size (by sl_kernel_rfl) y

/-- Case E, the running sum: what the pieces read back as through the scratch view. -/
theorem spiece0_E_1 (hc0 : ¬cond0_0 i) (hc1 : cond0_1 i) (hc2 : ¬cond0_2 i) (hc3 : cond0_3 i) (x0 x1 : Vec F S512x512 .f32) (xs0 xs1 xs2 : Vec F S512x1 .f32) :
    VS0_1.read (Elt F) (VS0_1.writes (Elt F) VS0_1.junk (kernelRun0_E c i arg2 harg2 arg3 harg3 arg4 harg4 arg5 harg5 arg6 harg6 arg7 harg7 hc0 hc1 hc2 hc3 x0 x1 xs0 xs1 xs2).2.2.1) = k0_pay8 x0 x1 xs0 xs1 :=
  read_of_canon VS0_1 VS0_1.junk _ _ (spcover0_E_1 c i arg2 harg2 arg3 harg3 arg4 harg4 arg5 harg5 arg6 harg6 arg7 harg7 hc0 hc1 hc2 hc3 x0 x1 xs0 xs1 xs2) (cspiece0_E_1 c i arg2 harg2 arg3 harg3 arg4 harg4 arg5 harg5 arg6 harg6 arg7 harg7 hc0 hc1 hc2 hc3 x0 x1 xs0 xs1 xs2)

/-- Case E, the partner logit: the canonical contents of the pieces found. -/
theorem cspiece0_E_2 (hc0 : ¬cond0_0 i) (hc1 : cond0_1 i) (hc2 : ¬cond0_2 i) (hc3 : cond0_3 i) (x0 x1 : Vec F S512x512 .f32) (xs0 xs1 xs2 : Vec F S512x1 .f32) :
    View.canon (kernelRun0_E c i arg2 harg2 arg3 harg3 arg4 harg4 arg5 harg5 arg6 harg6 arg7 harg7 hc0 hc1 hc2 hc3 x0 x1 xs0 xs1 xs2).2.2.2.1 = k0_pay5 x0 x1 := by
  unfold kernelRun0_E; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem spcover0_E_2 (hc0 : ¬cond0_0 i) (hc1 : cond0_1 i) (hc2 : ¬cond0_2 i) (hc3 : cond0_3 i) (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).2.2.2.1, y ∈ pc.1.set :=
  View.cover_of_tiledL (kernelRun0_E c i arg2 harg2 arg3 harg3 arg4 harg4 arg5 harg5 arg6 harg6 arg7 harg7 hc0 hc1 hc2 hc3 x0 x1 xs0 xs1 xs2).2.2.2.1 S512x1.size (by sl_kernel_rfl) y

/-- Case E, the partner logit: what the pieces read back as through the scratch view. -/
theorem spiece0_E_2 (hc0 : ¬cond0_0 i) (hc1 : cond0_1 i) (hc2 : ¬cond0_2 i) (hc3 : cond0_3 i) (x0 x1 : Vec F S512x512 .f32) (xs0 xs1 xs2 : Vec F S512x1 .f32) :
    VS0_2.read (Elt F) (VS0_2.writes (Elt F) VS0_2.junk (kernelRun0_E c i arg2 harg2 arg3 harg3 arg4 harg4 arg5 harg5 arg6 harg6 arg7 harg7 hc0 hc1 hc2 hc3 x0 x1 xs0 xs1 xs2).2.2.2.1) = k0_pay5 x0 x1 :=
  read_of_canon VS0_2 VS0_2.junk _ _ (spcover0_E_2 c i arg2 harg2 arg3 harg3 arg4 harg4 arg5 harg5 arg6 harg6 arg7 harg7 hc0 hc1 hc2 hc3 x0 x1 xs0 xs1 xs2) (cspiece0_E_2 c i arg2 harg2 arg3 harg3 arg4 harg4 arg5 harg5 arg6 harg6 arg7 harg7 hc0 hc1 hc2 hc3 x0 x1 xs0 xs1 xs2)

/-- Case E, the output block: the canonical contents of the pieces found. -/
theorem cpiece0_E_2 (hc0 : ¬cond0_0 i) (hc1 : cond0_1 i) (hc2 : ¬cond0_2 i) (hc3 : cond0_3 i) (x0 x1 : Vec F S512x512 .f32) (xs0 xs1 xs2 : Vec F S512x1 .f32) :
    View.canon (kernelRun0_E c i arg2 harg2 arg3 harg3 arg4 harg4 arg5 harg5 arg6 harg6 arg7 harg7 hc0 hc1 hc2 hc3 x0 x1 xs0 xs1 xs2).1 = k0_pay13 (k0_pay5 x0 x1) (k0_pay9 x0 x1 xs0) (k0_pay8 x0 x1 xs0 xs1) := by
  unfold kernelRun0_E; dsimp only; sl_unfold_words
  first | rw [View.canon_unit_zero (S := S512x1) zeros2] | rw [View.canon_cons_unit_zero (S := S512x1) zeros2]
  try simp only [View.readCov_unit_zero (S := S512x1) _ zeros2, View.readAt_eq_ld, Memref.IsWhole.read_unread,
    View.ld_unit_zero (S := S512x512) zeros2, View.ld_unit_zero (S := S512x1) zeros2]

/-- The pieces cover the buffer. -/
theorem pcover0_E_2 (hc0 : ¬cond0_0 i) (hc1 : cond0_1 i) (hc2 : ¬cond0_2 i) (hc3 : cond0_3 i) (x0 x1 : Vec F S512x512 .f32) (xs0 xs1 xs2 : Vec F S512x1 .f32) (y : S512x1.Idx) :
    ∃ pc ∈ (kernelRun0_E c i arg2 harg2 arg3 harg3 arg4 harg4 arg5 harg5 arg6 harg6 arg7 harg7 hc0 hc1 hc2 hc3 x0 x1 xs0 xs1 xs2).1, y ∈ pc.1.set :=
  View.cover_of_tiledL (kernelRun0_E c i arg2 harg2 arg3 harg3 arg4 harg4 arg5 harg5 arg6 harg6 arg7 harg7 hc0 hc1 hc2 hc3 x0 x1 xs0 xs1 xs2).1 S512x1.size (by sl_kernel_rfl) y

/-- Case E, the output block: what the pieces read back as through the output's staging view. -/
theorem piece0_E_2 (hc0 : ¬cond0_0 i) (hc1 : cond0_1 i) (hc2 : ¬cond0_2 i) (hc3 : cond0_3 i) (x0 x1 : Vec F S512x512 .f32) (xs0 xs1 xs2 : Vec F S512x1 .f32) :
    VO0_2.read (Elt F) (VO0_2.writes (Elt F) VO0_2.junk (kernelRun0_E c i arg2 harg2 arg3 harg3 arg4 harg4 arg5 harg5 arg6 harg6 arg7 harg7 hc0 hc1 hc2 hc3 x0 x1 xs0 xs1 xs2).1) = k0_pay13 (k0_pay5 x0 x1) (k0_pay9 x0 x1 xs0) (k0_pay8 x0 x1 xs0 xs1) :=
  read_of_canon VO0_2 VO0_2.junk _ _ (pcover0_E_2 c i arg2 harg2 arg3 harg3 arg4 harg4 arg5 harg5 arg6 harg6 arg7 harg7 hc0 hc1 hc2 hc3 x0 x1 xs0 xs1 xs2) (cpiece0_E_2 c i arg2 harg2 arg3 harg3 arg4 harg4 arg5 harg5 arg6 harg6 arg7 harg7 hc0 hc1 hc2 hc3 x0 x1 xs0 xs1 xs2)

/-! ## At a grid point: what each case leaves, in terms of the point's two input blocks -/

variable (m : (ℓ : Loc nD τ sig) → Buf (Elt F) ℓ)

/-- Case D at the point `t`, the running maximum. -/
theorem sout0_D_0_eq (c : Dev nD) (t : Fin cfg0.N) (h0 : ¬t.val % 8 = 0) (h1 : ¬t.val % 9 = 0) (h3 : ¬t.val % 8 = 7) (xs0 xs1 xs2 : Vec F S512x1 .f32) :
    sout0_D_0 m c t h0 h1 h3 xs0 xs1 xs2 = k0_pay12 (iblk m c 0 t) (iblk m c 1 t) xs0 := by
  unfold sout0_D_0
  exact spiece0_D_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) xs0 xs1 xs2

/-- Case D at the point `t`, the running sum. -/
theorem sout0_D_1_eq (c : Dev nD) (t : Fin cfg0.N) (h0 : ¬t.val % 8 = 0) (h1 : ¬t.val % 9 = 0) (h3 : ¬t.val % 8 = 7) (xs0 xs1 xs2 : Vec F S512x1 .f32) :
    sout0_D_1 m c t h0 h1 h3 xs0 xs1 xs2 = k0_pay11 (iblk m c 0 t) (iblk m c 1 t) xs0 xs1 := by
  unfold sout0_D_1
  exact spiece0_D_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) (fun h => h3 ((hcond0_3 t).mp h)) (iblk m c 0 t) (iblk m c 1 t) xs0 xs1 xs2

/-- Case F at the point `t`, the running maximum. -/
theorem sout0_F_0_eq (c : Dev nD) (t : Fin cfg0.N) (h0 : ¬t.val % 8 = 0) (h1 : ¬t.val % 9 = 0) (h3 : t.val % 8 = 7) (xs0 xs1 xs2 : Vec F S512x1 .f32) :
    sout0_F_0 m c t h0 h1 h3 xs0 xs1 xs2 = k0_pay12 (iblk m c 0 t) (iblk m c 1 t) xs0 := by
  unfold sout0_F_0
  exact spiece0_F_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) xs0 xs1 xs2

/-- Case F at the point `t`, the running sum. -/
theorem sout0_F_1_eq (c : Dev nD) (t : Fin cfg0.N) (h0 : ¬t.val % 8 = 0) (h1 : ¬t.val % 9 = 0) (h3 : t.val % 8 = 7) (xs0 xs1 xs2 : Vec F S512x1 .f32) :
    sout0_F_1 m c t h0 h1 h3 xs0 xs1 xs2 = k0_pay11 (iblk m c 0 t) (iblk m c 1 t) xs0 xs1 := by
  unfold sout0_F_1
  exact spiece0_F_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) xs0 xs1 xs2

/-- Case F at the point `t`, the output block. -/
theorem out0_F_2_eq (c : Dev nD) (t : Fin cfg0.N) (h0 : ¬t.val % 8 = 0) (h1 : ¬t.val % 9 = 0) (h3 : t.val % 8 = 7) (xs0 xs1 xs2 : Vec F S512x1 .f32) :
    out0_F_2 m c t h0 h1 h3 xs0 xs1 xs2 = k0_pay13 xs2 (k0_pay12 (iblk m c 0 t) (iblk m c 1 t) xs0) (k0_pay11 (iblk m c 0 t) (iblk m c 1 t) xs0 xs1) := by
  unfold out0_F_2
  exact piece0_F_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h1) ((hcond0_3 t).mpr h3) (iblk m c 0 t) (iblk m c 1 t) xs0 xs1 xs2

/-- Case C at the point `t`, the running maximum. -/
theorem sout0_C_0_eq (c : Dev nD) (t : Fin cfg0.N) (h0 : ¬t.val % 8 = 0) (h1 : t.val % 9 = 0) (h3 : ¬t.val % 8 = 7) (xs0 xs1 xs2 : Vec F S512x1 .f32) :
    sout0_C_0 m c t h0 h1 h3 xs0 xs1 xs2 = k0_pay9 (iblk m c 0 t) (iblk m c 1 t) xs0 := by
  unfold sout0_C_0
  exact spiece0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) xs0 xs1 xs2

/-- Case C at the point `t`, the running sum. -/
theorem sout0_C_1_eq (c : Dev nD) (t : Fin cfg0.N) (h0 : ¬t.val % 8 = 0) (h1 : t.val % 9 = 0) (h3 : ¬t.val % 8 = 7) (xs0 xs1 xs2 : Vec F S512x1 .f32) :
    sout0_C_1 m c t h0 h1 h3 xs0 xs1 xs2 = k0_pay8 (iblk m c 0 t) (iblk m c 1 t) xs0 xs1 := by
  unfold sout0_C_1
  exact spiece0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) xs0 xs1 xs2

/-- Case C at the point `t`, the partner logit. -/
theorem sout0_C_2_eq (c : Dev nD) (t : Fin cfg0.N) (h0 : ¬t.val % 8 = 0) (h1 : t.val % 9 = 0) (h3 : ¬t.val % 8 = 7) (xs0 xs1 xs2 : Vec F S512x1 .f32) :
    sout0_C_2 m c t h0 h1 h3 xs0 xs1 xs2 = k0_pay5 (iblk m c 0 t) (iblk m c 1 t) := by
  unfold sout0_C_2
  exact spiece0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) (fun h => h3 ((hcond0_3 t).mp h)) (iblk m c 0 t) (iblk m c 1 t) xs0 xs1 xs2

/-- Case E at the point `t`, the running maximum. -/
theorem sout0_E_0_eq (c : Dev nD) (t : Fin cfg0.N) (h0 : ¬t.val % 8 = 0) (h1 : t.val % 9 = 0) (h3 : t.val % 8 = 7) (xs0 xs1 xs2 : Vec F S512x1 .f32) :
    sout0_E_0 m c t h0 h1 h3 xs0 xs1 xs2 = k0_pay9 (iblk m c 0 t) (iblk m c 1 t) xs0 := by
  unfold sout0_E_0
  exact spiece0_E_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) xs0 xs1 xs2

/-- Case E at the point `t`, the running sum. -/
theorem sout0_E_1_eq (c : Dev nD) (t : Fin cfg0.N) (h0 : ¬t.val % 8 = 0) (h1 : t.val % 9 = 0) (h3 : t.val % 8 = 7) (xs0 xs1 xs2 : Vec F S512x1 .f32) :
    sout0_E_1 m c t h0 h1 h3 xs0 xs1 xs2 = k0_pay8 (iblk m c 0 t) (iblk m c 1 t) xs0 xs1 := by
  unfold sout0_E_1
  exact spiece0_E_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) xs0 xs1 xs2

/-- Case E at the point `t`, the partner logit. -/
theorem sout0_E_2_eq (c : Dev nD) (t : Fin cfg0.N) (h0 : ¬t.val % 8 = 0) (h1 : t.val % 9 = 0) (h3 : t.val % 8 = 7) (xs0 xs1 xs2 : Vec F S512x1 .f32) :
    sout0_E_2 m c t h0 h1 h3 xs0 xs1 xs2 = k0_pay5 (iblk m c 0 t) (iblk m c 1 t) := by
  unfold sout0_E_2
  exact spiece0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) xs0 xs1 xs2

/-- Case E at the point `t`, the output block. -/
theorem out0_E_2_eq (c : Dev nD) (t : Fin cfg0.N) (h0 : ¬t.val % 8 = 0) (h1 : t.val % 9 = 0) (h3 : t.val % 8 = 7) (xs0 xs1 xs2 : Vec F S512x1 .f32) :
    out0_E_2 m c t h0 h1 h3 xs0 xs1 xs2 = k0_pay13 (k0_pay5 (iblk m c 0 t) (iblk m c 1 t)) (k0_pay9 (iblk m c 0 t) (iblk m c 1 t) xs0) (k0_pay8 (iblk m c 0 t) (iblk m c 1 t) xs0 xs1) := by
  unfold out0_E_2
  exact piece0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => (hcond0_2 t).mp h h1) ((hcond0_3 t).mpr h3) (iblk m c 0 t) (iblk m c 1 t) xs0 xs1 xs2

/-- Case B at the point `t`, the running maximum. -/
theorem sout0_B_0_eq (c : Dev nD) (t : Fin cfg0.N) (h0 : t.val % 8 = 0) (h1 : ¬t.val % 9 = 0) (h3 : ¬t.val % 8 = 7) :
    sout0_B_0 m c t h0 h1 h3 = k0_pay12 (iblk m c 0 t) (iblk m c 1 t) k0_pay1 := by
  unfold sout0_B_0
  exact spiece0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t)

/-- Case B at the point `t`, the running sum. -/
theorem sout0_B_1_eq (c : Dev nD) (t : Fin cfg0.N) (h0 : t.val % 8 = 0) (h1 : ¬t.val % 9 = 0) (h3 : ¬t.val % 8 = 7) :
    sout0_B_1 m c t h0 h1 h3 = k0_pay11 (iblk m c 0 t) (iblk m c 1 t) k0_pay1 k0_pay2 := by
  unfold sout0_B_1
  exact spiece0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t)

/-- Case B at the point `t`, the partner logit. -/
theorem sout0_B_2_eq (c : Dev nD) (t : Fin cfg0.N) (h0 : t.val % 8 = 0) (h1 : ¬t.val % 9 = 0) (h3 : ¬t.val % 8 = 7) :
    sout0_B_2 m c t h0 h1 h3 = k0_pay3 := by
  unfold sout0_B_2
  exact spiece0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) ((hcond0_2 t).mpr h1) (fun h => h3 ((hcond0_3 t).mp h)) (iblk m c 0 t) (iblk m c 1 t)

/-- Case A at the point `t`, the running maximum. -/
theorem sout0_A_0_eq (c : Dev nD) (t : Fin cfg0.N) (h0 : t.val % 8 = 0) (h1 : t.val % 9 = 0) (h3 : ¬t.val % 8 = 7) :
    sout0_A_0 m c t h0 h1 h3 = k0_pay9 (iblk m c 0 t) (iblk m c 1 t) k0_pay1 := by
  unfold sout0_A_0
  exact spiece0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t)

/-- Case A at the point `t`, the running sum. -/
theorem sout0_A_1_eq (c : Dev nD) (t : Fin cfg0.N) (h0 : t.val % 8 = 0) (h1 : t.val % 9 = 0) (h3 : ¬t.val % 8 = 7) :
    sout0_A_1 m c t h0 h1 h3 = k0_pay8 (iblk m c 0 t) (iblk m c 1 t) k0_pay1 k0_pay2 := by
  unfold sout0_A_1
  exact spiece0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t)

/-- Case A at the point `t`, the partner logit. -/
theorem sout0_A_2_eq (c : Dev nD) (t : Fin cfg0.N) (h0 : t.val % 8 = 0) (h1 : t.val % 9 = 0) (h3 : ¬t.val % 8 = 7) :
    sout0_A_2 m c t h0 h1 h3 = k0_pay5 (iblk m c 0 t) (iblk m c 1 t) := by
  unfold sout0_A_2
  exact spiece0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => (hcond0_2 t).mp h h1) (fun h => h3 ((hcond0_3 t).mp h)) (iblk m c 0 t) (iblk m c 1 t)

end Cert.KernelIdeal.Body

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KPayLogit.lean ====
/-
  The logits of one tile.

  A tile pairs block row qi of the input (512 rows) with block row ki.  Each loaded block is scaled row by row:
  the row's squared entries are summed along the lanes, the square root is clamped below by eps, and the row is
  divided by that length.  The product of the first scaled block with the transpose of the second has, at
  (p, c), the inner product of scaled row p of the first with scaled row c of the second, which is the cosine
  similarity of the two input rows; the logit is that similarity times 2.  A change of float format is the
  identity on the extended reals, so the narrowing before the product changes nothing.
-/
import proofs.«132228_j84499186581515_1_alg».proof.Proof.Gen.KernelIdeal.Skeleton
import proofs.«132228_j84499186581515_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«132228_j84499186581515_1_alg».proof.Proof.LibColumnLayout

noncomputable section

namespace Cert.KernelIdeal.PayValue

open Idealize.ShloMosaic Idealize.ShloMosaic.ValueIdx Cert.KernelIdeal Cert.KernelIdeal.Gen Cert.NTXent

open Cert.ColumnLayout

/-- Row p of block row k of the input: row p + 512 k. -/
abbrev row (k : Fin 8) (p : Fin 512) : Fin 4096 := finProdFinEquiv (k, p)

theorem row_val (k : Fin 8) (p : Fin 512) : (row k p).val = p.val + 512 * k.val := rfl

/-- Within one block row, two rows coincide exactly when their positions in the block do. -/
theorem row_eq_iff (k : Fin 8) (p c : Fin 512) : row k p = row k c ↔ p = c := by
  constructor
  · intro h
    have := congrArg Fin.val h
    rw [row_val, row_val] at this
    exact Fin.ext (by omega)
  · intro h; rw [h]

/-- Rows of different block rows are different. -/
theorem row_ne_of_ne {k k' : Fin 8} (h : k ≠ k') (p c : Fin 512) : row k p ≠ row k' c := by
  intro e
  have := congrArg Fin.val e
  rw [row_val, row_val] at this
  exact h (Fin.ext (by have := p.isLt; have := c.isLt; omega))

/-- A sum along the lanes of a 512 x 512 block, read at a row: the sum of that row's 512 entries. -/
theorem laneSum_apply (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ d : Fin 512, src (ix2 p d) := by
  refine (Ideal.multiReduction_add_single src 0x00000000#32 h hφ hacc (ix1 p)).trans ?_
  refine Finset.sum_congr rfl fun d _ => congrArg src ?_
  funext a
  match a with
  | ⟨0, _⟩ => rfl
  | ⟨1, _⟩ => rfl

/-- The clamped lengths of a block's rows, as a column. -/
def lenCol (x : Vec Ideal S512x512 .f32) : FVec Ideal S512x1 .f32 :=
  maximumf
    (sqrt (shapeCast S512x1
      (multiReduction .add [1] S512 (mulf x x) 0x00000000#32 reduces_S512x512_S512 (.inl rfl) rfl)
      shapeCasts_S512_S512x1))
    (broadcast S512x1 (Scalar.ofBits .f32 0x322BCC77#32))

theorem lenCol_apply (x : Vec Ideal S512x512 .f32) (X : Rows) (k : Fin 8)
    (hx : ∀ p d, x (ix2 p d) = X (row k p) d) (p : Fin 512) (u : Fin 1) :
    lenCol x (ix2 p u) = nrm X (row k p) := by
  show max (Ideal.sqrt (shapeCast S512x1 _ shapeCasts_S512_S512x1 (ix2 p u))) (Ideal.ofBits .f32 0x322BCC77#32) = _
  rw [shapeCast_a_a1_apply, laneSum_apply]
  unfold nrm eps
  refine congrArg (fun t => max (Ideal.sqrt t) _) (Finset.sum_congr rfl fun d _ => ?_)
  show x (ix2 p d) * x (ix2 p d) = _
  rw [hx]

/-- A block with every row divided by its clamped length (and narrowed, which changes nothing here). -/
def unitBlock (x : Vec Ideal S512x512 .f32) : FVec Ideal S512x512 .bf16 :=
  truncf .bf16 (divf x (broadcastTo S512x512 (lenCol x) broadcasts_S512x1_S512x512)) bitsLt_bf16_f32

theorem unitBlock_apply (x : Vec Ideal S512x512 .f32) (X : Rows) (k : Fin 8)
    (hx : ∀ p d, x (ix2 p d) = X (row k p) d) (p d : Fin 512) :
    unitBlock x (ix2 p d) = unit X (row k p) d := by
  show Ideal.div (x (ix2 p d)) (broadcastTo S512x512 (lenCol x) broadcasts_S512x1_S512x512 (ix2 p d)) = _
  rw [broadcastTo_a1_ab_apply, lenCol_apply x X k hx, hx]
  rfl

end Cert.KernelIdeal.PayValue

end
-- ==== Proof.KPayStep.lean ====
/-
  One step of the tile-by-tile evaluation of a row's maximum and exponential sum, over any block of scores.

  Given a 512 x 512 block of scores z, a column m of running maxima and a column l of running sums, the new
  maximum of row p is max (m p) (the largest of the 512 scores of row p); the largest score is a fold of max from
  -∞ along the lanes, and a fold of max from -∞ is the supremum.  The new sum is exp (m p - new maximum) * l p
  plus the sum along the lanes of exp (score - new maximum).  Together these are the step of the online
  recurrence, taken in the tile's row of scores.
-/
import proofs.«132228_j84499186581515_1_alg».proof.Proof.KPayLogit
import proofs.«132228_j84499186581515_1_alg».proof.Proof.KPayInit

noncomputable section

namespace Cert.KernelIdeal.PayValue

open Idealize.ShloMosaic Idealize.ShloMosaic.ValueIdx Cert.KernelIdeal Cert.KernelIdeal.Gen Cert.NTXent Cert.ColumnLayout

/-- A fold of max from -∞ over a finite set is the supremum over the set. -/
theorem fold_max_bot_eq_sup {ι : Type} [DecidableEq ι] (s : Finset ι) (f : ι → EReal) :
    s.fold max ⊥ f = s.sup f := by
  induction s using Finset.induction_on with
  | empty => rfl
  | insert a s ha ih => rw [Finset.fold_insert ha, Finset.sup_insert, ih]

/-- The largest entry along the lanes of a 512 x 512 block, read at a row: the supremum of that row's entries. -/
theorem laneMax_apply (src : FVec Ideal S512x512 .f32) (h : S512x512.Reduces [1] S512) (hφ : FKind.Formats .f32)
    (hacc : (0xFF800000#32 : BitVec 32) = 0xFF800000#32) (p : Fin 512) :
    multiReduction (F := Ideal) .maximumf [1] S512 src 0xFF800000#32 h hφ hacc (ix1 p)
      = Finset.univ.sup fun c : Fin 512 => src (ix2 p c) := by
  refine (Ideal.multiReduction_maximumf_single src 0xFF800000#32 h hφ hacc (ix1 p)).trans ?_
  refine (congrArg (fun b => (Finset.univ : Finset (Fin (S512x512.size 1))).fold max b (src ∘ h.lift (ix1 p)))
    ofBits_neg_inf_f32).trans ?_
  refine (fold_max_bot_eq_sup _ _).trans ?_
  show (Finset.univ : Finset (Fin 512)).sup (fun c => src (h.lift (ix1 p) c)) = _
  refine congrArg (Finset.univ.sup) (funext fun c => congrArg src ?_)
  funext a
  match a with
  | ⟨0, _⟩ => rfl
  | ⟨1, _⟩ => rfl

/-- The new running maxima: the old ones against the largest score of each row. -/
def newMax (z : FVec Ideal S512x512 .f32) (m : Vec Ideal S512x1 .f32) : FVec Ideal S512x1 .f32 :=
  maximumf m
    (shapeCast S512x1
      (multiReduction .maximumf [1] S512 z 0xFF800000#32 reduces_S512x512_S512 (.inl rfl) rfl)
      shapeCasts_S512_S512x1)

theorem newMax_apply (z : FVec Ideal S512x512 .f32) (m : Vec Ideal S512x1 .f32) (p : Fin 512) (u : Fin 1)
    (s : Fin 512 → EReal) (hz : ∀ c, z (ix2 p c) = s c) :
    newMax z m (ix2 p u) = max (m (ix2 p u)) (Finset.univ.sup s) := by
  show max (m (ix2 p u)) (shapeCast S512x1 _ shapeCasts_S512_S512x1 (ix2 p u)) = _
  rw [shapeCast_a_a1_apply, laneMax_apply, funext hz]

/-- The new running sums: the old ones rescaled to the new maxima, plus each row's sum of exponentials. -/
def newSum (z : FVec Ideal S512x512 .f32) (m l : Vec Ideal S512x1 .f32) : FVec Ideal S512x1 .f32 :=
  addf (mulf (exp (subf m (newMax z m))) l)
    (shapeCast S512x1
      (multiReduction .add [1] S512
        (exp (subf z (broadcastTo S512x512 (newMax z m) broadcasts_S512x1_S512x512)))
        0x00000000#32 reduces_S512x512_S512 (.inl rfl) rfl)
      shapeCasts_S512_S512x1)

theorem newSum_apply (z : FVec Ideal S512x512 .f32) (m l : Vec Ideal S512x1 .f32) (p : Fin 512) (u : Fin 1)
    (s : Fin 512 → EReal) (hz : ∀ c, z (ix2 p c) = s c) :
    newSum z m l (ix2 p u)
      = Ideal.exp (m (ix2 p u) - max (m (ix2 p u)) (Finset.univ.sup s)) * l (ix2 p u)
        + ∑ c, Ideal.exp (s c - max (m (ix2 p u)) (Finset.univ.sup s)) := by
  obtain rfl : u = 0 := Subsingleton.elim u 0
  show Ideal.exp (m (ix2 p 0) - newMax z m (ix2 p 0)) * l (ix2 p 0)
      + shapeCast S512x1 _ shapeCasts_S512_S512x1 (ix2 p 0) = _
  rw [shapeCast_a_a1_apply, laneSum_apply, newMax_apply z m p 0 s hz]
  refine congrArg (_ + ·) (Finset.sum_congr rfl fun c _ => ?_)
  show Ideal.exp (z (ix2 p c) - broadcastTo S512x512 (newMax z m) broadcasts_S512x1_S512x512 (ix2 p c)) = _
  rw [broadcastTo_a1_ab_apply, newMax_apply z m p 0 s hz, hz]

/-- The pair (new maximum, new sum) of row p is the step of the online recurrence in the row's scores. -/
theorem step_apply (z : FVec Ideal S512x512 .f32) (m l : Vec Ideal S512x1 .f32) (p : Fin 512) (u : Fin 1)
    (s : Fin 512 → EReal) (hz : ∀ c, z (ix2 p c) = s c) :
    (newMax z m (ix2 p u), newSum z m l (ix2 p u)) = step s (m (ix2 p u), l (ix2 p u)) := by
  rw [newMax_apply z m p u s hz, newSum_apply z m l p u s hz]
  rfl

end Cert.KernelIdeal.PayValue

end
-- ==== Proof.KPaySim.lean ====
/-
  The product of the two scaled blocks of a tile, read at an entry.

  The matrix product contracts the lanes of the first scaled block with the rows of the transposed second one,
  so its entry (p, c) is the sum over d of (scaled row p of the first)(d) times (scaled row c of the second)(d):
  the cosine similarity of input rows row qi p and row ki c.  The logit is that number times 2.
-/
import proofs.«132228_j84499186581515_1_alg».proof.Proof.KPayLogit

noncomputable section

namespace Cert.KernelIdeal.PayValue

open Idealize.ShloMosaic Idealize.ShloMosaic.ValueIdx Cert.KernelIdeal Cert.KernelIdeal.Gen Cert.NTXent Cert.ColumnLayout

/-- The dimension numbers of the tile's product: lanes of the left against rows of the right. -/
abbrev tileDot := dot_S512x512_S512x512_S512x512_1_0_0_1_n_n

theorem tileDot_lhs_0 (i : S512x512.Idx) (q : tileDot.contr.Idx) : (tileDot.lhsIdx i q 0).val = (i 0).val := by
  unfold DotDims.lhsIdx
  rw [dif_neg (show ¬(0 : Fin S512x512.rank) ∈ tileDot.lhsBatch by decide),
    dif_pos (show (0 : Fin S512x512.rank) ∈ tileDot.lhsNonContracting by decide)]
  rfl

theorem tileDot_lhs_1 (i : S512x512.Idx) (q : tileDot.contr.Idx) :
    (tileDot.lhsIdx i q 1).val = (q ⟨0, by decide⟩).val :=
  tileDot.lhsIdx_val_of_single rfl i q

theorem tileDot_rhs_0 (i : S512x512.Idx) (q : tileDot.contr.Idx) :
    (tileDot.rhsIdx i q 0).val = (q ⟨0, by decide⟩).val :=
  tileDot.rhsIdx_val_of_single rfl i q

theorem tileDot_rhs_1 (i : S512x512.Idx) (q : tileDot.contr.Idx) : (tileDot.rhsIdx i q 1).val = (i 1).val := by
  unfold DotDims.rhsIdx
  rw [dif_neg (show ¬(1 : Fin S512x512.rank) ∈ tileDot.rhsBatch by decide),
    dif_pos (show (1 : Fin S512x512.rank) ∈ tileDot.rhsNonContracting by decide)]
  rfl

/-- The product of the first scaled block with the transposed second scaled block. -/
def simBlock (x0 x1 : Vec Ideal S512x512 .f32) : FVec Ideal S512x512 .f32 :=
  matmul tileDot none (unitBlock x0)
    (transpose S512x512 [1, 0] (unitBlock x1) transposes_S512x512_p1_0_S512x512)
    (constant S512x512 .f32 0x00000000#32)

theorem simBlock_apply (x0 x1 : Vec Ideal S512x512 .f32) (X : Rows) (qi ki : Fin 8)
    (hx0 : ∀ p d, x0 (ix2 p d) = X (row qi p) d) (hx1 : ∀ c d, x1 (ix2 c d) = X (row ki c) d) (p c : Fin 512) :
    simBlock x0 x1 (ix2 p c) = sim X (row qi p) (row ki c) := by
  unfold simBlock
  simp only [matmul]
  rw [Ideal.matmul_constant_zero_apply, ← Equiv.sum_comp (contrEquiv1 tileDot 512 rfl rfl).symm]
  unfold sim
  refine Finset.sum_congr rfl fun k _ => ?_
  have hk := contrEquiv1_symm_val tileDot 512 rfl rfl k
  have el : tileDot.lhsIdx (ix2 p c) ((contrEquiv1 tileDot 512 rfl rfl).symm k) = ix2 p k :=
    funext fun a => Fin.ext (by
      match a with
      | ⟨0, _⟩ => exact tileDot_lhs_0 _ _
      | ⟨1, _⟩ => exact (tileDot_lhs_1 _ _).trans hk)
  have er : tileDot.rhsIdx (ix2 p c) ((contrEquiv1 tileDot 512 rfl rfl).symm k) = ix2 k c :=
    funext fun a => Fin.ext (by
      match a with
      | ⟨0, _⟩ => exact (tileDot_rhs_0 _ _).trans hk
      | ⟨1, _⟩ => exact tileDot_rhs_1 _ _)
  rw [el, er, transpose_ix2_apply, unitBlock_apply x0 X qi hx0, unitBlock_apply x1 X ki hx1]

/-- The logits of a tile are the product block times 2. -/
theorem pay4_eq (x0 x1 : Vec Ideal S512x512 .f32) :
    k0_pay4 x0 x1 = mulf (simBlock x0 x1) (broadcast S512x512 (Scalar.ofBits .f32 0x40000000#32)) := rfl

/-- The logit at (p, c) of the tile (qi, ki): twice the cosine similarity of rows row qi p and row ki c. -/
theorem pay4_apply (X : Rows) (qi ki : Fin 8) (x0 x1 : Vec Ideal S512x512 .f32)
    (hx0 : ∀ p d, x0 (ix2 p d) = X (row qi p) d) (hx1 : ∀ p d, x1 (ix2 p d) = X (row ki p) d) (p c : Fin 512) :
    k0_pay4 (F := Ideal) x0 x1 (ix2 p c) = sim X (row qi p) (row ki c) * two := by
  rw [pay4_eq]
  show simBlock x0 x1 (ix2 p c) * Ideal.ofBits .f32 0x40000000#32 = _
  rw [simBlock_apply x0 x1 X qi ki hx0 hx1]
  rfl

end Cert.KernelIdeal.PayValue

end
-- ==== Proof.KPayMask.lean ====
/-
  The two masks of the diagonal tile, as facts about positions inside a block.

  Both masks compare 32-bit words built from the row position p and the lane position c of an entry (both below
  512).  The first mask holds where the two words are equal, which is where p = c.  The second holds where the
  lane's word equals the row's word with its lowest bit flipped; flipping the lowest bit of p gives p + 1 for
  even p and p - 1 for odd p, the position of the other row of the pair (2k, 2k + 1).
-/
import Idealize.ShloMosaic.Lib.ValueIdx
import Idealize.ShloMosaic.Lib.Pipeline.Value

namespace Cert.KernelIdeal.PayValue

open Idealize.ShloMosaic Idealize.ShloMosaic.ValueIdx

/-- The other position of the pair: p + 1 for even p, p - 1 for odd p. -/
def partner (p : Fin 512) : Fin 512 :=
  if h : p.val % 2 = 0 then ⟨p.val + 1, by have := p.isLt; omega⟩ else ⟨p.val - 1, by have := p.isLt; omega⟩

theorem partner_val (p : Fin 512) : (partner p).val = if p.val % 2 = 0 then p.val + 1 else p.val - 1 := by
  unfold partner; split <;> rfl

/-- Flipping the lowest bit of the word of p gives the word of its partner. -/
theorem xor_one_toNat : ∀ p : Fin 512, (BitVec.ofNat 32 p.val ^^^ 1#32).toNat = (partner p).val := by
  decide +kernel

/-- The word of a position below 512 is the position. -/
theorem ofNat_toNat_512 (p : Fin 512) : (BitVec.ofNat 32 p.val).toNat = p.val := by
  rw [BitVec.toNat_ofNat]; have := p.isLt; omega

/-- A one-bit word made from a truth value is 1 exactly when the value is true. -/
theorem ofBool_one_iff (b : Bool) : BitVec.ofBool b = 1#1 ↔ b = true := by cases b <;> decide

/-- The equality mask holds exactly on the diagonal. -/
theorem cmpi_eq_iff (p c : Fin 512) :
    IntOp.cmpi .eq (BitVec.ofNat 32 p.val) (BitVec.ofNat 32 c.val) = 1#1 ↔ p = c := by
  show BitVec.ofBool (BitVec.ofNat 32 p.val == BitVec.ofNat 32 c.val) = 1#1 ↔ p = c
  rw [ofBool_one_iff, beq_iff_eq]
  constructor
  · intro h
    have := congrArg BitVec.toNat h
    rw [ofNat_toNat_512, ofNat_toNat_512] at this
    exact Fin.ext this
  · intro h; rw [h]

/-- The partner mask holds exactly where the lane is the row's partner. -/
theorem cmpi_xor_iff (p c : Fin 512) :
    IntOp.cmpi .eq (BitVec.ofNat 32 c.val) (IntOp.xori (BitVec.ofNat 32 p.val) 1#32) = 1#1 ↔ c = partner p := by
  show BitVec.ofBool (BitVec.ofNat 32 c.val == BitVec.ofNat 32 p.val ^^^ 1#32) = 1#1 ↔ c = partner p
  rw [ofBool_one_iff, beq_iff_eq]
  constructor
  · intro h
    have := congrArg BitVec.toNat h
    rw [ofNat_toNat_512, xor_one_toNat] at this
    exact Fin.ext this
  · intro h
    apply BitVec.eq_of_toNat_eq
    rw [ofNat_toNat_512, xor_one_toNat, h]

end Cert.KernelIdeal.PayValue
-- ==== Proof.KPayScore.lean ====
/-
  The scores of one tile, in the arrangement "similarity doubled, a row's score with itself replaced by -∞".

  On a diagonal tile (qi = ki) entry (p, c) pairs input row row qi p with row qi c, which is the same row exactly
  when p = c; there the logit is replaced by the constant the statement names -∞.  On an off-diagonal tile the
  two rows are never the same, so the scores are the logits.
-/
import proofs.«132228_j84499186581515_1_alg».proof.Proof.KPaySim
import proofs.«132228_j84499186581515_1_alg».proof.Proof.KPayMask
import proofs.«132228_j84499186581515_1_alg».proof.Proof.KPayInit

noncomputable section

namespace Cert.KernelIdeal.PayValue

open Idealize.ShloMosaic Idealize.ShloMosaic.ValueIdx Cert.KernelIdeal Cert.KernelIdeal.Gen Cert.NTXent Cert.ColumnLayout

/-- The named constant of the diagonal is -∞. -/
theorem neg_big_eq : Named.named (F := Ideal) Cert.KernelIdeal.κ "neg_big" (φ := .f32) 0xFF333332#32 = ⊥ :=
  IdealRules.named_const.ideal_named_scalar _ _ _ _ rfl

/-- The scores of a diagonal tile. -/
theorem pay6_apply (X : Rows) (qi ki : Fin 8) (x0 x1 : Vec Ideal S512x512 .f32)
    (hx0 : ∀ p d, x0 (ix2 p d) = X (row qi p) d) (hx1 : ∀ p d, x1 (ix2 p d) = X (row ki p) d)
    (h : qi = ki) (p c : Fin 512) :
    k0_pay6 (F := Ideal) x0 x1 (ix2 p c) = zK X (row qi p) (row ki c) := by
  unfold k0_pay6
  show Scalar.select
      (IntOp.cmpi .eq (iota .tc S512x512 32 [0] iota_S512x512_d0_w32 (ix2 p c))
        (iota .tc S512x512 32 [1] iota_S512x512_d1_w32 (ix2 p c)))
      (Named.named (F := Ideal) Cert.KernelIdeal.κ "neg_big" (φ := .f32) 0xFF333332#32)
      (k0_pay4 x0 x1 (ix2 p c)) = _
  rw [iota_single_apply, iota_single_apply, pay4_apply X qi ki x0 x1 hx0 hx1, neg_big_eq]
  show Scalar.select (IntOp.cmpi .eq (BitVec.ofNat 32 p.val) (BitVec.ofNat 32 c.val)) ⊥ _ = _
  unfold zK
  subst h
  by_cases hpc : p = c
  · rw [(cmpi_eq_iff p c).mpr hpc, select_one, if_pos ((row_eq_iff qi p c).mpr hpc)]
  · rw [eq_zero_of_ne_one (mt (cmpi_eq_iff p c).mp hpc), select_zero, if_neg (mt (row_eq_iff qi p c).mp hpc)]

/-- The scores of an off-diagonal tile are its logits. -/
theorem pay4_apply_zK (X : Rows) (qi ki : Fin 8) (x0 x1 : Vec Ideal S512x512 .f32)
    (hx0 : ∀ p d, x0 (ix2 p d) = X (row qi p) d) (hx1 : ∀ p d, x1 (ix2 p d) = X (row ki p) d)
    (h : qi ≠ ki) (p c : Fin 512) :
    k0_pay4 (F := Ideal) x0 x1 (ix2 p c) = zK X (row qi p) (row ki c) := by
  rw [pay4_apply X qi ki x0 x1 hx0 hx1]
  unfold zK
  rw [if_neg (row_ne_of_ne h p c)]

end Cert.KernelIdeal.PayValue

end
-- ==== Proof.KPayUpdate.lean ====
/-
  The update of a row's running maximum and running sum by one tile.

  The stored new maximum and new sum of row p are the step of the online recurrence, from the loaded running
  maximum and sum, in the 512 scores the tile holds for row p: on a diagonal tile the scores with the row's own
  position replaced by -∞, on an off-diagonal tile the logits themselves.
-/
import proofs.«132228_j84499186581515_1_alg».proof.Proof.KPayStep
import proofs.«132228_j84499186581515_1_alg».proof.Proof.KPayScore

noncomputable section

namespace Cert.KernelIdeal.PayValue

open Idealize.ShloMosaic Idealize.ShloMosaic.ValueIdx Cert.KernelIdeal Cert.KernelIdeal.Gen Cert.NTXent Cert.ColumnLayout

/-- On a diagonal tile the new maxima are taken over the masked scores. -/
theorem pay7_eq (x0 x1 : Vec Ideal S512x512 .f32) (m : Vec Ideal S512x1 .f32) :
    k0_pay7 x0 x1 m = newMax (k0_pay6 x0 x1) m := rfl

theorem pay9_eq (x0 x1 : Vec Ideal S512x512 .f32) (m : Vec Ideal S512x1 .f32) :
    k0_pay9 x0 x1 m = shapeCast S512x1 (newMax (k0_pay6 x0 x1) m) shapeCasts_S512x1_S512x1 := rfl

theorem pay8_eq (x0 x1 : Vec Ideal S512x512 .f32) (m l : Vec Ideal S512x1 .f32) :
    k0_pay8 x0 x1 m l = shapeCast S512x1 (newSum (k0_pay6 x0 x1) m l) shapeCasts_S512x1_S512x1 := rfl

/-- On an off-diagonal tile the new maxima are taken over the logits. -/
theorem pay10_eq (x0 x1 : Vec Ideal S512x512 .f32) (m : Vec Ideal S512x1 .f32) :
    k0_pay10 x0 x1 m = newMax (k0_pay4 x0 x1) m := rfl

theorem pay12_eq (x0 x1 : Vec Ideal S512x512 .f32) (m : Vec Ideal S512x1 .f32) :
    k0_pay12 x0 x1 m = shapeCast S512x1 (newMax (k0_pay4 x0 x1) m) shapeCasts_S512x1_S512x1 := rfl

theorem pay11_eq (x0 x1 : Vec Ideal S512x512 .f32) (m l : Vec Ideal S512x1 .f32) :
    k0_pay11 x0 x1 m l = shapeCast S512x1 (newSum (k0_pay4 x0 x1) m l) shapeCasts_S512x1_S512x1 := rfl

/-- The update on a diagonal tile. -/
theorem update_diag (X : Rows) (qi ki : Fin 8) (x0 x1 : Vec Ideal S512x512 .f32)
    (hx0 : ∀ p d, x0 (ix2 p d) = X (row qi p) d) (hx1 : ∀ p d, x1 (ix2 p d) = X (row ki p) d)
    (h : qi = ki) (mp lp : Vec Ideal S512x1 .f32) (p : Fin 512) :
    (k0_pay9 (F := Ideal) x0 x1 mp (ix2 p (0 : Fin 1)), k0_pay8 (F := Ideal) x0 x1 mp lp (ix2 p (0 : Fin 1)))
      = step (fun c => zK X (row qi p) (row ki c)) (mp (ix2 p (0 : Fin 1)), lp (ix2 p (0 : Fin 1))) := by
  rw [pay9_eq, pay8_eq, shapeCast_self, shapeCast_self]
  exact step_apply (k0_pay6 x0 x1) mp lp p 0 _ fun c => pay6_apply X qi ki x0 x1 hx0 hx1 h p c

/-- The update on an off-diagonal tile. -/
theorem update_off (X : Rows) (qi ki : Fin 8) (x0 x1 : Vec Ideal S512x512 .f32)
    (hx0 : ∀ p d, x0 (ix2 p d) = X (row qi p) d) (hx1 : ∀ p d, x1 (ix2 p d) = X (row ki p) d)
    (h : qi ≠ ki) (mp lp : Vec Ideal S512x1 .f32) (p : Fin 512) :
    (k0_pay12 (F := Ideal) x0 x1 mp (ix2 p (0 : Fin 1)), k0_pay11 (F := Ideal) x0 x1 mp lp (ix2 p (0 : Fin 1)))
      = step (fun c => zK X (row qi p) (row ki c)) (mp (ix2 p (0 : Fin 1)), lp (ix2 p (0 : Fin 1))) := by
  rw [pay12_eq, pay11_eq, shapeCast_self, shapeCast_self]
  exact step_apply (k0_pay4 x0 x1) mp lp p 0 _ fun c => pay4_apply_zK X qi ki x0 x1 hx0 hx1 h p c

end Cert.KernelIdeal.PayValue

end
-- ==== Proof.KPayPartner.lean ====
/-
  The partner's score, picked out of the diagonal tile.

  In the diagonal tile (block row qi against itself) the partner of row p is the other row of its pair
  (2k, 2k + 1), which lies in the same block because a block holds an even number of rows.  The kernel keeps, in
  each row of the tile, only the lane whose word equals the row's word with its lowest bit flipped, replaces
  every other lane by 0, and sums along the lanes: the sum has one non-zero term, the score of the row against
  its partner, which is twice their cosine similarity.
-/
import proofs.«132228_j84499186581515_1_alg».proof.Proof.KPaySim
import proofs.«132228_j84499186581515_1_alg».proof.Proof.KPayMask
import proofs.«132228_j84499186581515_1_alg».proof.Proof.KPayInit

noncomputable section

namespace Cert.KernelIdeal.PayValue

open Idealize.ShloMosaic Idealize.ShloMosaic.ValueIdx Cert.KernelIdeal Cert.KernelIdeal.Gen Cert.NTXent Cert.ColumnLayout

/-- The partner of a row of a block row is the row at the partner position of the same block row. -/
theorem tgt_row (k : Fin 8) (p : Fin 512) : tgt (row k p) = row k (partner p) := by
  apply Fin.ext
  have hp := p.isLt
  have hr : (row k p).val = p.val + 512 * k.val := row_val k p
  rw [row_val, partner_val]
  unfold tgt
  by_cases h : (row k p).val % 2 = 0
  · rw [dif_pos h]
    show (row k p).val + 1 = _
    rw [if_pos (by omega)]
    omega
  · rw [dif_neg h]
    show (row k p).val - 1 = _
    rw [if_neg (by omega)]
    omega

/-- The masked tile at an entry: the score where the lane is the row's partner position, 0 elsewhere. -/
theorem partnerMask_apply (x0 x1 : Vec Ideal S512x512 .f32) (p c : Fin 512) :
    select (cmpi .eq (iota .tc S512x512 32 [1] iota_S512x512_d1_w32)
        (xori (iota .tc S512x512 32 [0] iota_S512x512_d0_w32) (broadcast S512x512 1#32)))
      (k0_pay4 (F := Ideal) x0 x1) (broadcast S512x512 (Scalar.ofBits (F := Ideal) .f32 0x00000000#32)) (ix2 p c)
      = if c = partner p then k0_pay4 (F := Ideal) x0 x1 (ix2 p c) else 0 := by
  show Scalar.select (IntOp.cmpi .eq (iota .tc S512x512 32 [1] iota_S512x512_d1_w32 (ix2 p c))
      (IntOp.xori (iota .tc S512x512 32 [0] iota_S512x512_d0_w32 (ix2 p c)) 1#32))
      (k0_pay4 (F := Ideal) x0 x1 (ix2 p c)) (Ideal.ofBits .f32 0x00000000#32) = _
  rw [iota_single_apply, iota_single_apply, Ideal.ofBits_zero_f32]
  show (if IntOp.cmpi .eq (BitVec.ofNat 32 c.val) (IntOp.xori (BitVec.ofNat 32 p.val) 1#32) = 1#1 then _ else _) = _
  by_cases h : c = partner p
  · rw [if_pos h, if_pos ((cmpi_xor_iff p c).mpr h)]
  · rw [if_neg h, if_neg (fun e => h ((cmpi_xor_iff p c).mp e))]

/-- The partner's score of row p of the diagonal tile: twice the cosine similarity of the row and its partner. -/
theorem pay5_apply (X : Rows) (qi ki : Fin 8) (x0 x1 : Vec Ideal S512x512 .f32)
    (hx0 : ∀ p d, x0 (ix2 p d) = X (row qi p) d) (hx1 : ∀ p d, x1 (ix2 p d) = X (row ki p) d) (hd : qi = ki)
    (p : Fin 512) :
    k0_pay5 (F := Ideal) x0 x1 (ix2 p (0 : Fin 1)) = sim X (row qi p) (tgt (row qi p)) * two := by
  unfold k0_pay5
  refine (congrFun (shapeCast_self _ _) (ix2 p (0 : Fin 1))).trans ?_
  rw [shapeCast_a_a1_apply, laneSum_apply]
  rw [Finset.sum_eq_single (partner p)]
  · rw [partnerMask_apply, if_pos rfl, pay4_apply X qi ki x0 x1 hx0 hx1, tgt_row, hd]
  · intro c _ hne
    rw [partnerMask_apply, if_neg hne]
  · intro h
    exact absurd (Finset.mem_univ _) h

end Cert.KernelIdeal.PayValue

end
-- ==== Proof.KEqs.lean ====
/-
  The two bundles of equations the value induction takes: what each control case leaves in the buffers (from the
  runs' found pieces read back), and what the update and partner payloads read at an index.
-/
import proofs.«132228_j84499186581515_1_alg».proof.Proof.KValue
import proofs.«132228_j84499186581515_1_alg».proof.Proof.KPieces
import proofs.«132228_j84499186581515_1_alg».proof.Proof.KPayUpdate
import proofs.«132228_j84499186581515_1_alg».proof.Proof.KPayPartner

noncomputable section

namespace Cert.KernelIdeal.KValue

open Cert.KernelIdeal Cert.KernelIdeal.Gen Cert.KernelIdeal.Body Cert.NTXent

open Idealize.ShloMosaic Idealize.ShloMosaic.TcCoe Idealize.ShloMosaic.ValueIdx
open Idealize.SL Idealize.SL.Sem

/-- What each control case leaves, case by case. -/
theorem pieceEqs (m : (ℓ : Loc nD τ sig) → Buf (Elt Ideal) ℓ) (c : Dev nD) : PieceEqs m c where
  A0 := sout0_A_0_eq m c
  A1 := sout0_A_1_eq m c
  A2 := sout0_A_2_eq m c
  B0 := sout0_B_0_eq m c
  B1 := sout0_B_1_eq m c
  B2 := sout0_B_2_eq m c
  C0 := sout0_C_0_eq m c
  C1 := sout0_C_1_eq m c
  C2 := sout0_C_2_eq m c
  D0 := sout0_D_0_eq m c
  D1 := sout0_D_1_eq m c
  E0 := sout0_E_0_eq m c
  E1 := sout0_E_1_eq m c
  E2 := sout0_E_2_eq m c
  Eo := out0_E_2_eq m c
  F0 := sout0_F_0_eq m c
  F1 := sout0_F_1_eq m c
  Fo := out0_F_2_eq m c

/-- What the update and partner payloads read at an index. -/
theorem payEqs : PayEqs where
  upd_diag := fun X qi ki x0 x1 hx0 hx1 h mp lp p => Cert.KernelIdeal.PayValue.update_diag X qi ki x0 x1 hx0 hx1 h mp lp p
  upd_off := fun X qi ki x0 x1 hx0 hx1 h mp lp p => Cert.KernelIdeal.PayValue.update_off X qi ki x0 x1 hx0 hx1 h mp lp p
  partner := fun X qi ki x0 x1 hx0 hx1 h p => Cert.KernelIdeal.PayValue.pay5_apply X qi ki x0 x1 hx0 hx1 h p

end Cert.KernelIdeal.KValue

end
-- ==== Proof.KTailValue.lean ====
/-
  The last host operations of the first program, read at the extended reals: a [4096, 1] array reshaped to
  [4096], summed from the constant 0, and divided by the constant 4096, is the sum of the array's first column
  divided by 4096.
-/
import proofs.«132228_j84499186581515_1_alg».proof.KernelIdeal
import proofs.«132228_j84499186581515_1_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.TailValue

open Idealize.ShloMosaic Idealize.ShloMosaic.ValueIdx
open Cert.KernelIdeal Cert.KernelIdeal.Facts₀ Cert.KernelIdeal.Facts

/-- A rank-1 index set is its one coordinate range … -/
def idxEquiv1 (n : Nat) : Fin n ≃ (⟨1, ![n]⟩ : Shape).Idx where
  toFun a := ix1 a
  invFun j := j 0
  left_inv _ := rfl
  right_inv j := (eq_ix1 j).symm

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 n) f).symm

variable [Cert.KernelIdeal.Facts]

/-- The reshape of a [4096, 1] array to [4096] reads row i, column 0 at i. -/
theorem reshape_apply (G : FVec Ideal S4096x1 .f32) (i : Fin 4096) :
    shapeCast S4096 G shapeCasts_S4096x1_S4096 (ix1 i) = G (ix2 i (0 : Fin 1)) := by
  refine shapeCast_apply G shapeCasts_S4096x1_S4096 (ix1 i) (ix2 i (0 : Fin 1)) ?_
  rw [Shape.rowMajor_val_two, Shape.rowMajor_val_one]
  show i.val * 1 + 0 = i.val
  omega

/-- The program's last three host operations give the mean of the first column over 4096 rows. -/
theorem tail_value (G : FVec Ideal S4096x1 .f32) (out : Fin 4096 → EReal)
    (hG : ∀ i : Fin 4096, G (ValueIdx.ix2 i (0 : Fin 1)) = out i) :
    Host.divf (F := Ideal)
        (Host.reduceAdd (shapeCast S4096 G shapeCasts_S4096x1_S4096) (constant S_ .f32 0x00000000#32)
          reducesTo_S4096_S_d0 h_S_)
        (constant S_ .f32 0x45800000#32) ValueIdx.ix0
      = Ideal.div (∑ i, out i) Cert.NTXent.count := by
  rw [hostDivf_apply, hostReduceAdd_apply, constant_apply, constant_apply,
    Ideal.hostReduceAdd_total reducesTo_S4096_S_d0 (fun b => b.elim0), Ideal.ofBits_zero_f32, zero_add, sum_idx1]
  unfold Cert.NTXent.count
  congr 1
  exact Finset.sum_congr rfl fun i _ => by rw [reshape_apply, hG]

end Cert.KernelIdeal.TailValue

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition "every element of the input has absolute value below +∞" read back: every element of the
  4096 by 512 input is a real number.
-/
import proofs.«132228_j84499186581515_1_alg».proof.Pre_finite_inputs
import proofs.«132228_j84499186581515_1_alg».proof.Proof.Gen.Pre_finite_inputs
import proofs.«132228_j84499186581515_1_alg».proof.Proof.LibFiniteInputs
import Idealize.ShloMosaic.Lib.ReduceAll
import Idealize.ShloMosaic.Lib.ValueIdx
import Idealize.ShloMosaic.Lib.IdealHost
import Idealize.ShloMosaic.PureOps.Ideal

noncomputable section

namespace Cert.NTXent

open Idealize.ShloMosaic Idealize.ShloMosaic.ValueIdx

/-- The shape with no axes has one index. -/
instance : Subsingleton Cert.Pre_finite_inputs.S_.Idx := ⟨fun a b => funext fun d => d.elim0⟩

/-- When the conjunction of the comparisons |X i| < +∞ over all elements is 1, every element is real. -/
theorem finite_of_pre [Cert.Pre_finite_inputs.Facts] (X : FVec Ideal Cert.Pre_finite_inputs.S4096x512 .f32)
    (h : Cert.Pre_finite_inputs.fn (F := Ideal) X = fun _ => 1#1) : ∀ i, ∃ r : ℝ, X i = (r : EReal) := by
  intro i
  have e := congrFun h ValueIdx.ix0
  dsimp only [Cert.Pre_finite_inputs.fn] at e
  refine Cert.FiniteInputs.all_real_of_all_finite X _ (fun j => ?_) _ _ _ ValueIdx.ix0 e i
  rw [broadcastInDim_scalar_apply, constant_apply]
  exact Cert.FiniteInputs.ofBits_f32_inf

/-- The same in row and column coordinates. -/
theorem finite_of_pre_rows [Cert.Pre_finite_inputs.Facts] (X : FVec Ideal Cert.Pre_finite_inputs.S4096x512 .f32)
    (h : Cert.Pre_finite_inputs.fn (F := Ideal) X = fun _ => 1#1) (i : Fin 4096) (d : Fin 512) :
    ∃ r : ℝ, X (ValueIdx.ix2 i d) = (r : EReal) :=
  finite_of_pre X h (ValueIdx.ix2 i d)

end Cert.NTXent

end
-- ==== Proof.RefTerm.lean ====
/-
  The value the reference program computes, as one closed term of its input.

  Each definition below composes, in the program's order, the pure functions its operations apply; the
  bodies of the outlined functions are written out at the places they are called.  The stages are:
  the rows scaled to unit length, the masked and scaled similarity matrix, the integer column of partner
  indices, the row-wise log-softmax, the selection of one entry per row, and the negated mean.
-/
import proofs.«132228_j84499186581515_1_alg».proof.ReferenceIdeal

noncomputable section

namespace Cert.ReferenceIdeal.RefTerm

open Idealize.ShloMosaic Idealize.SL.Sem
open Cert.ReferenceIdeal
open Facts₀ Facts

variable {F : FTy → Type} [FloatOps F] [Facts]

/-! ## Rows scaled to unit length -/

/-- The sum of squares of each row, from the constant zero. -/
def sumSq (x : FVec F S4096x512 .f32) : FVec F S4096 .f32 :=
  let c0v0 : FVec F S4096x512 .f32 := mulf x x
  let c0cst : FVec F S_ .f32 := constant S_ .f32 0x00000000#32
  Host.reduceAdd c0v0 c0cst reducesTo_S4096x512_S4096_d1 h_S_

/-- Each row's length as a column, clamped below by the small constant. -/
def norms (x : FVec F S4096x512 .f32) : FVec F S4096x1 .f32 :=
  let c0v2 : FVec F S4096x1 .f32 := broadcastInDim S4096x1 ![0] bcast_S4096_S4096x1_0 (sumSq x)
  let v0 : FVec F S4096x1 .f32 := Host.sqrt c0v2
  let cst : FVec F S_ .f32 := constant S_ .f32 0x322BCC77#32
  let v1 : FVec F S4096x1 .f32 := broadcastInDim S4096x1 ![] bcast_S_S4096x1 cst
  maximumf v0 v1

/-- The input divided, row by row, by the clamped lengths. -/
def unitRows (x : FVec F S4096x512 .f32) : FVec F S4096x512 .f32 :=
  let v3 : FVec F S4096x512 .f32 := broadcastInDim S4096x512 ![0, 1] bcast_S4096x1_S4096x512_0_1 (norms x)
  Host.divf x v3

/-! ## The masked, scaled similarity matrix -/

/-- All pairwise inner products of the scaled rows. -/
def gram (x : FVec F S4096x512 .f32) : FVec F S4096x4096 .f32 :=
  let v4 : FVec F S4096x512 .f32 := unitRows x
  let v5 : FVec F S512x4096 .f32 := transpose S512x4096 [1, 0] v4 transposes_S4096x512_S512x4096_1_0
  Host.dotGeneral dot_S4096x512_S512x4096_S4096x4096_1_0_0_1_n_n none v4 v5

/-- The diagonal, as a matrix of bits: row index (plus zero) equal to column index. -/
def diagMask : IVec S4096x4096 1 :=
  let v7 : IVec S4096x4096 32 := iotaInDim S4096x4096 32 0
  let v8 : IVec S4096x4096 32 := iotaInDim S4096x4096 32 1
  let c : IVec S_ 32 := constantI S_ 32 0#32
  let v9 : IVec S4096x4096 32 := broadcastInDim S4096x4096 ![] bcast_S_S4096x4096 c
  let v10 : IVec S4096x4096 32 := addi v7 v9
  cmpi .eq v10 v8

/-- The similarity with the diagonal replaced by the constant named -∞, then divided by 1/2. -/
def scores (x : FVec F S4096x512 .f32) : FVec F S4096x4096 .f32 :=
  let cst_0 : FVec F S_ .f32 := constant S_ .f32 0xFF800000#32
  let c1v0 : FVec F S_ .f32 := id cst_0
  let c1v1 : FVec F S4096x4096 .f32 := broadcastInDim S4096x4096 ![] bcast_S_S4096x4096 c1v0
  let v12 : FVec F S4096x4096 .f32 := select diagMask c1v1 (gram x)
  let cst_1 : FVec F S_ .f32 := constant S_ .f32 0x3F000000#32
  let v13 : FVec F S4096x4096 .f32 := broadcastInDim S4096x4096 ![] bcast_S_S4096x4096 cst_1
  Host.divf v12 v13

/-! ## The column of partner indices -/

/-- The row index modulo 2, in the sign convention of the divisor. -/
def rem2 : IVec S4096 32 :=
  let v16 : IVec S4096 32 := iotaInDim S4096 32 0
  let c_2 : IVec S_ 32 := constantI S_ 32 2#32
  let r0 : IVec S_ 32 := id c_2
  let rc : IVec S_ 32 := constantI S_ 32 0#32
  let r1 : IVec S_ 1 := cmpi .eq r0 rc
  let rc0 : IVec S_ 32 := constantI S_ 32 1#32
  let r2 : IVec S_ 32 := select r1 rc0 r0
  let r3 : IVec S4096 32 := broadcastInDim S4096 ![] bcast_S_S4096 r2
  let r4 : IVec S4096 32 := Host.remsi v16 r3
  let rc1 : IVec S_ 32 := constantI S_ 32 0#32
  let r5 : IVec S4096 32 := broadcastInDim S4096 ![] bcast_S_S4096 rc1
  let r6 : IVec S4096 1 := cmpi .ne r4 r5
  let rc2 : IVec S_ 32 := constantI S_ 32 0#32
  let r7 : IVec S4096 32 := broadcastInDim S4096 ![] bcast_S_S4096 rc2
  let r8 : IVec S4096 1 := cmpi .slt r4 r7
  let rc3 : IVec S_ 32 := constantI S_ 32 0#32
  let r9 : IVec S_ 1 := cmpi .slt r2 rc3
  let r10 : IVec S4096 1 := broadcastInDim S4096 ![] bcast_S_S4096 r9
  let r11 : IVec S4096 1 := cmpi .ne r8 r10
  let r12 : IVec S4096 1 := andi r11 r6
  let r13 : IVec S4096 32 := broadcastInDim S4096 ![] bcast_S_S4096 r2
  let r14 : IVec S4096 32 := addi r4 r13
  select r12 r14 r4

/-- The partner of each row: the row index plus 1 where it is even, minus 1 where it is odd. -/
def partner : IVec S4096 32 :=
  let v15 : IVec S4096 32 := iotaInDim S4096 32 0
  let c_3 : IVec S_ 32 := constantI S_ 32 0#32
  let v18 : IVec S4096 32 := broadcastInDim S4096 ![] bcast_S_S4096 c_3
  let v19 : IVec S4096 1 := cmpi .eq rem2 v18
  let c_4 : IVec S_ 32 := constantI S_ 32 1#32
  let c_5 : IVec S_ 32 := constantI S_ 32 4294967295#32
  let c3v0 : IVec S4096 32 := broadcastInDim S4096 ![] bcast_S_S4096 c_4
  let c3v1 : IVec S4096 32 := broadcastInDim S4096 ![] bcast_S_S4096 c_5
  let v20 : IVec S4096 32 := select v19 c3v0 c3v1
  let v21 : IVec S4096 32 := id v20
  addi v15 v21

/-- The partner indices as a column. -/
def partnerCol : IVec S4096x1 32 :=
  broadcastInDim S4096x1 ![0] bcast_S4096_S4096x1_0 partner

/-! ## The row-wise log-softmax -/

/-- Each row's maximum (from the constant named -∞, and once more against it). -/
def rowMax (z : FVec F S4096x4096 .f32) : FVec F S4096 .f32 :=
  let cst : FVec F S_ .f32 := constant S_ .f32 0xFF800000#32
  let l0 : FVec F S4096 .f32 := Host.reduce (FloatOps.maximumf (F := F) (φ := .f32)) z cst reducesTo_S4096x4096_S4096_d1 h_S_
  let cst_0 : FVec F S_ .f32 := constant S_ .f32 0xFF800000#32
  let l1 : FVec F S4096 .f32 := broadcastInDim S4096 ![] bcast_S_S4096 cst_0
  maximumf l1 l0

/-- Each entry minus its row's maximum. -/
def shifted (z : FVec F S4096x4096 .f32) : FVec F S4096x4096 .f32 :=
  let l3 : FVec F S4096x1 .f32 := broadcastInDim S4096x1 ![0] bcast_S4096_S4096x1_0 (rowMax z)
  let l4 : FVec F S4096x4096 .f32 := broadcastInDim S4096x4096 ![0, 1] bcast_S4096x1_S4096x4096_0_1 l3
  subf z l4

/-- The logarithm of each row's sum of exponentials of the shifted entries, as a column. -/
def logSumExp (z : FVec F S4096x4096 .f32) : FVec F S4096x1 .f32 :=
  let l6 : FVec F S4096x4096 .f32 := Host.exp (shifted z)
  let cst_1 : FVec F S_ .f32 := constant S_ .f32 0x00000000#32
  let l7 : FVec F S4096 .f32 := Host.reduceAdd l6 cst_1 reducesTo_S4096x4096_S4096_d1 h_S_
  let l8 : FVec F S4096x1 .f32 := broadcastInDim S4096x1 ![0] bcast_S4096_S4096x1_0 l7
  Host.log l8

/-- The log-softmax of each row. -/
def logp (z : FVec F S4096x4096 .f32) : FVec F S4096x4096 .f32 :=
  let l10 : FVec F S4096x4096 .f32 := broadcastInDim S4096x4096 ![0, 1] bcast_S4096x1_S4096x4096_0_1 (logSumExp z)
  subf (shifted z) l10

/-! ## One entry per row -/

/-- The indices with negative ones wrapped by the row length, as a 4096×1×1 array. -/
def wrapped (idx : IVec S4096x1 32) : IVec S4096x1x1 32 :=
  let c : IVec S_ 32 := constantI S_ 32 0#32
  let t0 : IVec S4096x1 32 := broadcastInDim S4096x1 ![] bcast_S_S4096x1 c
  let t1 : IVec S4096x1 1 := cmpi .slt idx t0
  let c_0 : IVec S_ 32 := constantI S_ 32 4096#32
  let t2 : IVec S4096x1 32 := broadcastInDim S4096x1 ![] bcast_S_S4096x1 c_0
  let t3 : IVec S4096x1 32 := addi idx t2
  let t4 : IVec S4096x1 32 := select t1 t3 idx
  shapeCast S4096x1x1 t4 shapeCasts_S4096x1_S4096x1x1

/-- Which of the wrapped indices lie in 0 … 4095. -/
def inBounds (idx : IVec S4096x1 32) : IVec S4096x1 1 :=
  let t5 : IVec S4096x1x1 32 := wrapped idx
  let c_1 : IVec S1 32 := constantI S1 32 4095#32
  let c_2 : IVec S_ 32 := constantI S_ 32 0#32
  let t6 : IVec S4096x1x1 32 := broadcastInDim S4096x1x1 ![] bcast_S_S4096x1x1 c_2
  let t7 : IVec S4096x1x1 1 := cmpi .sge t5 t6
  let t8 : IVec S1x1x1 32 := broadcastInDim S1x1x1 ![2] bcast_S1_S1x1x1_2 c_1
  let t9 : IVec S4096x1x1 32 := broadcastInDim S4096x1x1 ![0, 1, 2] bcast_S1x1x1_S4096x1x1_0_1_2 t8
  let t10 : IVec S4096x1x1 1 := cmpi .sle t5 t9
  let t11 : IVec S4096x1x1 1 := andi t7 t10
  let c_3 : IVec S_ 1 := constantI S_ 1 1#1
  Host.reduce IntOp.andi t11 c_3 reducesTo_S4096x1x1_S4096x1_d2 h_S_

/-- From each row of lp the entry at that row's index; the constant 0x7FC00000 where the index is out of bounds. -/
def picked (lp : FVec F S4096x4096 .f32) (idx : IVec S4096x1 32) : FVec F S4096x1 .f32 :=
  let t13 : FVec F S4096x1 .f32 := Host.gather gather_S4096x4096_S4096x1x1_S4096x1_n_1_0_0_1_2_11 lp (wrapped idx)
  let cst : FVec F S_ .f32 := constant S_ .f32 0x7FC00000#32
  let t14 : FVec F S4096x1 .f32 := broadcastInDim S4096x1 ![] bcast_S_S4096x1 cst
  select (inBounds idx) t13 t14

/-! ## The result -/

/-- The negated mean of the selected log-probabilities. -/
def result (x : FVec F S4096x512 .f32) : FVec F S_ .f32 :=
  let v14 : FVec F S4096x4096 .f32 := scores x
  let v23 : FVec F S4096x4096 .f32 := logp v14
  let v25 : FVec F S4096x1 .f32 := picked v23 partnerCol
  let cst_6 : FVec F S_ .f32 := constant S_ .f32 0x00000000#32
  let v26 : FVec F S_ .f32 := Host.reduceAdd v25 cst_6 reducesTo_S4096x1_S_d0_1 h_S_
  let cst_7 : FVec F S_ .f32 := constant S_ .f32 0x45800000#32
  let v27 : FVec F S_ .f32 := Host.divf v26 cst_7
  Host.negf v27

end Cert.ReferenceIdeal.RefTerm

end
-- ==== Proof.Glue.lean ====
/-
  The two programs end with the same scalar: the first program's host tail applied to a column holding the first
  arrangement's row losses is the mean of those, which on finite input is the second arrangement of the loss,
  which is the value the second program computes.
-/
import proofs.«132228_j84499186581515_1_alg».proof.Proof.KTailValue
import proofs.«132228_j84499186581515_1_alg».proof.Proof.Math
import proofs.«132228_j84499186581515_1_alg».proof.Proof.Finite
import proofs.«132228_j84499186581515_1_alg».proof.Proof.RefTerm

noncomputable section

namespace Cert.Glue

open Idealize.ShloMosaic Idealize.ShloMosaic.ValueIdx

/-- With the first program's output column holding the row losses of a finite input, its final scalar is the
    second program's. -/
theorem kernel_eq_reference [Cert.KernelIdeal.Facts] [Cert.ReferenceIdeal.Facts] [Cert.Pre_finite_inputs.Facts]
    (Xarr : FVec Ideal Cert.KernelIdeal.S4096x512 .f32)
    (hpre : Cert.Pre_finite_inputs.fn (F := Ideal) Xarr = fun _ => 1#1)
    (G : FVec Ideal Cert.KernelIdeal.S4096x1 .f32)
    (hG : ∀ i : Fin 4096, G (ValueIdx.ix2 i (0 : Fin 1))
      = Cert.NTXent.rowK (fun i d => Xarr (ValueIdx.ix2 i d)) i)
    (hres : Cert.ReferenceIdeal.RefTerm.result (F := Ideal) Xarr ValueIdx.ix0
      = Cert.NTXent.lossR (fun i d => Xarr (ValueIdx.ix2 i d))) :
    Host.divf (F := Ideal)
        (Host.reduceAdd (shapeCast Cert.KernelIdeal.S4096 G Cert.KernelIdeal.Facts₀.shapeCasts_S4096x1_S4096)
          (constant Cert.KernelIdeal.S_ .f32 0x00000000#32) Cert.KernelIdeal.Facts₀.reducesTo_S4096_S_d0
          Cert.KernelIdeal.Facts₀.h_S_)
        (constant Cert.KernelIdeal.S_ .f32 0x45800000#32)
      = Cert.ReferenceIdeal.RefTerm.result (F := Ideal) Xarr := by
  funext j
  obtain rfl := ValueIdx.eq_ix0 j
  rw [Cert.KernelIdeal.TailValue.tail_value G _ hG, hres]
  exact Cert.NTXent.lossK_eq_lossR _ (Cert.NTXent.finite_of_pre_rows Xarr hpre)

end Cert.Glue

end
-- ==== Proof.RefOps.lean ====
/-
  The reference program's host operations as one list.

  The program's entry function is a straight line of operations, six of which are calls of outlined
  functions (one of these calls a further function).  Below, every call is replaced by the callee's own
  operations, stated over the buffers that call owns, so that the whole program is one list of 102
  operations in program order.  The list is also cut into seven consecutive stretches, one per stage of the
  computation (unit rows; masked scaled similarity; row index modulo two; partner index; row-wise
  log-softmax; selection of one entry per row; negated mean), which later modules read one at a time.
-/
import proofs.«132228_j84499186581515_1_alg».proof.ReferenceIdeal
import Idealize.ShloMosaic.Lib.StableHlo.Run

noncomputable section

namespace Cert.ReferenceIdeal.RefRun

open Cert.ReferenceIdeal Idealize.ShloMosaic Idealize.SL.Sem
open Facts₀ Facts

variable {F : FTy → Type} [FloatOps F] [Facts]

/-- The entry function's 102 operations in order, each call replaced by its callee's operations. -/
abbrev ops : List (HloOp τ sig (Elt F)) :=
  [ StableHlo.TRef.binary (.of main_arg0 : StableHlo.TRef sig ⟨S4096x512, .f32⟩) (.of main_arg0 : StableHlo.TRef sig ⟨S4096x512, .f32⟩) main_call0.v0 mulf,
    StableHlo.TRef.nullary main_call0.cst (constant S_ .f32 0x00000000#32),
    StableHlo.TRef.binary main_call0.v0 main_call0.cst main_call0.v1 (fun x v => Host.reduceAdd x v reducesTo_S4096x512_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x322BCC77#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x512 ![0, 1] bcast_S4096x1_S4096x512_0_1 : (⟨S4096x1, .f32⟩ : BufTy).Contents (Elt F) → (⟨S4096x512, .f32⟩ : BufTy).Contents (Elt F)),
    StableHlo.binary main_arg0 main_v3 main_v4 (Host.divf : (⟨S4096x512, .f32⟩ : BufTy).Contents (Elt F) → (⟨S4096x512, .f32⟩ : BufTy).Contents (Elt F) → (⟨S4096x512, .f32⟩ : BufTy).Contents (Elt F)),
    StableHlo.unary main_v4 main_v5 ((transpose S512x4096 [1, 0] · transposes_S4096x512_S512x4096_1_0) : (⟨S4096x512, .f32⟩ : BufTy).Contents (Elt F) → (⟨S512x4096, .f32⟩ : BufTy).Contents (Elt F)),
    StableHlo.binary main_v4 main_v5 main_v6 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    StableHlo.nullary main_v7 (iotaInDim S4096x4096 32 0),
    StableHlo.nullary main_v8 (iotaInDim S4096x4096 32 1),
    StableHlo.nullary main_c (constantI S_ 32 0#32),
    StableHlo.unary main_c main_v9 (broadcastInDim S4096x4096 ![] bcast_S_S4096x4096 : (⟨S_, .i32⟩ : BufTy).Contents (Elt F) → (⟨S4096x4096, .i32⟩ : BufTy).Contents (Elt F)),
    StableHlo.binary main_v7 main_v9 main_v10 (addi : (⟨S4096x4096, .i32⟩ : BufTy).Contents (Elt F) → (⟨S4096x4096, .i32⟩ : BufTy).Contents (Elt F) → (⟨S4096x4096, .i32⟩ : BufTy).Contents (Elt F)),
    StableHlo.binary main_v10 main_v8 main_v11 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_0 (constant S_ .f32 0xFF800000#32),
    StableHlo.TRef.unary (.of main_cst_0 : StableHlo.TRef sig ⟨S_, .f32⟩) main_call1.v0 id,
    StableHlo.TRef.unary main_call1.v0 main_call1.v1 (broadcastInDim S4096x4096 ![] bcast_S_S4096x4096),
    StableHlo.TRef.ternary (.of main_v11 : StableHlo.TRef sig ⟨S4096x4096, .i1⟩) main_call1.v1 (.of main_v6 : StableHlo.TRef sig ⟨S4096x4096, .f32⟩) main_call1.v2 select,
    StableHlo.nullary main_cst_1 (constant S_ .f32 0x3F000000#32),
    StableHlo.unary main_cst_1 main_v13 (broadcastInDim S4096x4096 ![] bcast_S_S4096x4096 : (⟨S_, .f32⟩ : BufTy).Contents (Elt F) → (⟨S4096x4096, .f32⟩ : BufTy).Contents (Elt F)),
    StableHlo.binary main_v12 main_v13 main_v14 (Host.divf : (⟨S4096x4096, .f32⟩ : BufTy).Contents (Elt F) → (⟨S4096x4096, .f32⟩ : BufTy).Contents (Elt F) → (⟨S4096x4096, .f32⟩ : BufTy).Contents (Elt F)),
    StableHlo.nullary main_v15 (iotaInDim S4096 32 0),
    StableHlo.nullary main_v16 (iotaInDim S4096 32 0),
    StableHlo.nullary main_c_2 (constantI S_ 32 2#32),
    StableHlo.TRef.unary (.of main_c_2 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S4096 ![] bcast_S_S4096),
    StableHlo.TRef.binary (.of main_v16 : StableHlo.TRef sig ⟨S4096, .i32⟩) main_call2.v3 main_call2.v4 Host.remsi,
    StableHlo.TRef.nullary main_call2.c_1 (constantI S_ 32 0#32),
    StableHlo.TRef.unary main_call2.c_1 main_call2.v5 (broadcastInDim S4096 ![] bcast_S_S4096),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S4096 ![] bcast_S_S4096),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S4096 ![] bcast_S_S4096),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S4096 ![] bcast_S_S4096),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v18 (broadcastInDim S4096 ![] bcast_S_S4096 : (⟨S_, .i32⟩ : BufTy).Contents (Elt F) → (⟨S4096, .i32⟩ : BufTy).Contents (Elt F)),
    StableHlo.binary main_v17 main_v18 main_v19 (cmpi .eq : (⟨S4096, .i32⟩ : BufTy).Contents (Elt F) → (⟨S4096, .i32⟩ : BufTy).Contents (Elt F) → (⟨S4096, .i1⟩ : BufTy).Contents (Elt F)),
    StableHlo.nullary main_c_4 (constantI S_ 32 1#32),
    StableHlo.nullary main_c_5 (constantI S_ 32 4294967295#32),
    StableHlo.TRef.unary (.of main_c_4 : StableHlo.TRef sig ⟨S_, .i32⟩) main_call3.v0 (broadcastInDim S4096 ![] bcast_S_S4096),
    StableHlo.TRef.unary (.of main_c_5 : StableHlo.TRef sig ⟨S_, .i32⟩) main_call3.v1 (broadcastInDim S4096 ![] bcast_S_S4096),
    StableHlo.TRef.ternary (.of main_v19 : StableHlo.TRef sig ⟨S4096, .i1⟩) main_call3.v0 main_call3.v1 main_call3.v2 select,
    StableHlo.unary main_v20 main_v21 (id : (⟨S4096, .i32⟩ : BufTy).Contents (Elt F) → (⟨S4096, .i32⟩ : BufTy).Contents (Elt F)),
    StableHlo.binary main_v15 main_v21 main_v22 (addi : (⟨S4096, .i32⟩ : BufTy).Contents (Elt F) → (⟨S4096, .i32⟩ : BufTy).Contents (Elt F) → (⟨S4096, .i32⟩ : BufTy).Contents (Elt F)),
    StableHlo.TRef.nullary main_call4.cst (constant S_ .f32 0xFF800000#32),
    StableHlo.TRef.binary (.of main_v14 : StableHlo.TRef sig ⟨S4096x4096, .f32⟩) main_call4.cst main_call4.v0 (fun x v => Host.reduce FloatOps.maximumf x v reducesTo_S4096x4096_S4096_d1 h_S_),
    StableHlo.TRef.nullary main_call4.cst_0 (constant S_ .f32 0xFF800000#32),
    StableHlo.TRef.unary main_call4.cst_0 main_call4.v1 (broadcastInDim S4096 ![] bcast_S_S4096),
    StableHlo.TRef.binary main_call4.v1 main_call4.v0 main_call4.v2 maximumf,
    StableHlo.TRef.unary main_call4.v2 main_call4.v3 (broadcastInDim S4096x1 ![0] bcast_S4096_S4096x1_0),
    StableHlo.TRef.unary main_call4.v3 main_call4.v4 (broadcastInDim S4096x4096 ![0, 1] bcast_S4096x1_S4096x4096_0_1),
    StableHlo.TRef.binary (.of main_v14 : StableHlo.TRef sig ⟨S4096x4096, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S4096x4096_S4096_d1 h_S_),
    StableHlo.TRef.unary main_call4.v7 main_call4.v8 (broadcastInDim S4096x1 ![0] bcast_S4096_S4096x1_0),
    StableHlo.TRef.unary main_call4.v8 main_call4.v9 Host.log,
    StableHlo.TRef.unary main_call4.v9 main_call4.v10 (broadcastInDim S4096x4096 ![0, 1] bcast_S4096x1_S4096x4096_0_1),
    StableHlo.TRef.binary main_call4.v5 main_call4.v10 main_call4.v11 subf,
    StableHlo.unary main_v22 main_v24 (broadcastInDim S4096x1 ![0] bcast_S4096_S4096x1_0 : (⟨S4096, .i32⟩ : BufTy).Contents (Elt F) → (⟨S4096x1, .i32⟩ : BufTy).Contents (Elt F)),
    StableHlo.TRef.nullary main_call5.c (constantI S_ 32 0#32),
    StableHlo.TRef.unary main_call5.c main_call5.v0 (broadcastInDim S4096x1 ![] bcast_S_S4096x1),
    StableHlo.TRef.binary (.of main_v24 : StableHlo.TRef sig ⟨S4096x1, .i32⟩) main_call5.v0 main_call5.v1 (cmpi .slt),
    StableHlo.TRef.nullary main_call5.c_0 (constantI S_ 32 4096#32),
    StableHlo.TRef.unary main_call5.c_0 main_call5.v2 (broadcastInDim S4096x1 ![] bcast_S_S4096x1),
    StableHlo.TRef.binary (.of main_v24 : StableHlo.TRef sig ⟨S4096x1, .i32⟩) main_call5.v2 main_call5.v3 addi,
    StableHlo.TRef.ternary main_call5.v1 main_call5.v3 (.of main_v24 : StableHlo.TRef sig ⟨S4096x1, .i32⟩) main_call5.v4 select,
    StableHlo.TRef.reshape main_call5.v4 main_call5.v5 rfl shapeCasts_S4096x1_S4096x1x1,
    StableHlo.TRef.nullary main_call5.c_1 (constantI S1 32 4095#32),
    StableHlo.TRef.nullary main_call5.c_2 (constantI S_ 32 0#32),
    StableHlo.TRef.unary main_call5.c_2 main_call5.v6 (broadcastInDim S4096x1x1 ![] bcast_S_S4096x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x1x1 ![0, 1, 2] bcast_S1x1x1_S4096x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1x1_S4096x1_d2 h_S_),
    StableHlo.TRef.binary (.of main_v23 : StableHlo.TRef sig ⟨S4096x4096, .f32⟩) main_call5.v5 main_call5.v13 (fun x i => Host.gather gather_S4096x4096_S4096x1x1_S4096x1_n_1_0_0_1_2_11 x i),
    StableHlo.TRef.nullary main_call5.cst (constant S_ .f32 0x7FC00000#32),
    StableHlo.TRef.unary main_call5.cst main_call5.v14 (broadcastInDim S4096x1 ![] bcast_S_S4096x1),
    StableHlo.TRef.ternary main_call5.v12 main_call5.v13 main_call5.v14 main_call5.v15 select,
    StableHlo.nullary main_cst_6 (constant S_ .f32 0x00000000#32),
    StableHlo.binary main_v25 main_cst_6 main_v26 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    StableHlo.nullary main_cst_7 (constant S_ .f32 0x45800000#32),
    StableHlo.binary main_v26 main_cst_7 main_v27 (Host.divf : (⟨S_, .f32⟩ : BufTy).Contents (Elt F) → (⟨S_, .f32⟩ : BufTy).Contents (Elt F) → (⟨S_, .f32⟩ : BufTy).Contents (Elt F)),
    StableHlo.unary main_v27 main_v28 (Host.negf : (⟨S_, .f32⟩ : BufTy).Contents (Elt F) → (⟨S_, .f32⟩ : BufTy).Contents (Elt F)) ]

/-- Operations 1 to 10 of the list. -/
abbrev part1 : List (HloOp τ sig (Elt F)) :=
  [ StableHlo.TRef.binary (.of main_arg0 : StableHlo.TRef sig ⟨S4096x512, .f32⟩) (.of main_arg0 : StableHlo.TRef sig ⟨S4096x512, .f32⟩) main_call0.v0 mulf,
    StableHlo.TRef.nullary main_call0.cst (constant S_ .f32 0x00000000#32),
    StableHlo.TRef.binary main_call0.v0 main_call0.cst main_call0.v1 (fun x v => Host.reduceAdd x v reducesTo_S4096x512_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x322BCC77#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x512 ![0, 1] bcast_S4096x1_S4096x512_0_1 : (⟨S4096x1, .f32⟩ : BufTy).Contents (Elt F) → (⟨S4096x512, .f32⟩ : BufTy).Contents (Elt F)),
    StableHlo.binary main_arg0 main_v3 main_v4 (Host.divf : (⟨S4096x512, .f32⟩ : BufTy).Contents (Elt F) → (⟨S4096x512, .f32⟩ : BufTy).Contents (Elt F) → (⟨S4096x512, .f32⟩ : BufTy).Contents (Elt F)) ]

/-- Operations 11 to 25 of the list. -/
abbrev part2 : List (HloOp τ sig (Elt F)) :=
  [ StableHlo.unary main_v4 main_v5 ((transpose S512x4096 [1, 0] · transposes_S4096x512_S512x4096_1_0) : (⟨S4096x512, .f32⟩ : BufTy).Contents (Elt F) → (⟨S512x4096, .f32⟩ : BufTy).Contents (Elt F)),
    StableHlo.binary main_v4 main_v5 main_v6 ((fun l r => Host.dotGeneral dot_S4096x512_S512x4096_S4096x4096_1_0_0_1_n_n none l r) : (⟨S4096x512, .f32⟩ : BufTy).Contents (Elt F) → (⟨S512x4096, .f32⟩ : BufTy).Contents (Elt F) → (⟨S4096x4096, .f32⟩ : BufTy).Contents (Elt F)),
    StableHlo.nullary main_v7 (iotaInDim S4096x4096 32 0),
    StableHlo.nullary main_v8 (iotaInDim S4096x4096 32 1),
    StableHlo.nullary main_c (constantI S_ 32 0#32),
    StableHlo.unary main_c main_v9 (broadcastInDim S4096x4096 ![] bcast_S_S4096x4096 : (⟨S_, .i32⟩ : BufTy).Contents (Elt F) → (⟨S4096x4096, .i32⟩ : BufTy).Contents (Elt F)),
    StableHlo.binary main_v7 main_v9 main_v10 (addi : (⟨S4096x4096, .i32⟩ : BufTy).Contents (Elt F) → (⟨S4096x4096, .i32⟩ : BufTy).Contents (Elt F) → (⟨S4096x4096, .i32⟩ : BufTy).Contents (Elt F)),
    StableHlo.binary main_v10 main_v8 main_v11 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_0 (constant S_ .f32 0xFF800000#32),
    StableHlo.TRef.unary (.of main_cst_0 : StableHlo.TRef sig ⟨S_, .f32⟩) main_call1.v0 id,
    StableHlo.TRef.unary main_call1.v0 main_call1.v1 (broadcastInDim S4096x4096 ![] bcast_S_S4096x4096),
    StableHlo.TRef.ternary (.of main_v11 : StableHlo.TRef sig ⟨S4096x4096, .i1⟩) main_call1.v1 (.of main_v6 : StableHlo.TRef sig ⟨S4096x4096, .f32⟩) main_call1.v2 select,
    StableHlo.nullary main_cst_1 (constant S_ .f32 0x3F000000#32),
    StableHlo.unary main_cst_1 main_v13 (broadcastInDim S4096x4096 ![] bcast_S_S4096x4096 : (⟨S_, .f32⟩ : BufTy).Contents (Elt F) → (⟨S4096x4096, .f32⟩ : BufTy).Contents (Elt F)),
    StableHlo.binary main_v12 main_v13 main_v14 (Host.divf : (⟨S4096x4096, .f32⟩ : BufTy).Contents (Elt F) → (⟨S4096x4096, .f32⟩ : BufTy).Contents (Elt F) → (⟨S4096x4096, .f32⟩ : BufTy).Contents (Elt F)) ]

/-- Operations 26 to 49 of the list. -/
abbrev part3 : List (HloOp τ sig (Elt F)) :=
  [ StableHlo.nullary main_v15 (iotaInDim S4096 32 0),
    StableHlo.nullary main_v16 (iotaInDim S4096 32 0),
    StableHlo.nullary main_c_2 (constantI S_ 32 2#32),
    StableHlo.TRef.unary (.of main_c_2 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S4096 ![] bcast_S_S4096),
    StableHlo.TRef.binary (.of main_v16 : StableHlo.TRef sig ⟨S4096, .i32⟩) main_call2.v3 main_call2.v4 Host.remsi,
    StableHlo.TRef.nullary main_call2.c_1 (constantI S_ 32 0#32),
    StableHlo.TRef.unary main_call2.c_1 main_call2.v5 (broadcastInDim S4096 ![] bcast_S_S4096),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S4096 ![] bcast_S_S4096),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S4096 ![] bcast_S_S4096),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S4096 ![] bcast_S_S4096),
    StableHlo.TRef.binary main_call2.v4 main_call2.v13 main_call2.v14 addi,
    StableHlo.TRef.ternary main_call2.v12 main_call2.v14 main_call2.v4 main_call2.v15 select ]

/-- Operations 50 to 59 of the list. -/
abbrev part4 : List (HloOp τ sig (Elt F)) :=
  [ StableHlo.nullary main_c_3 (constantI S_ 32 0#32),
    StableHlo.unary main_c_3 main_v18 (broadcastInDim S4096 ![] bcast_S_S4096 : (⟨S_, .i32⟩ : BufTy).Contents (Elt F) → (⟨S4096, .i32⟩ : BufTy).Contents (Elt F)),
    StableHlo.binary main_v17 main_v18 main_v19 (cmpi .eq : (⟨S4096, .i32⟩ : BufTy).Contents (Elt F) → (⟨S4096, .i32⟩ : BufTy).Contents (Elt F) → (⟨S4096, .i1⟩ : BufTy).Contents (Elt F)),
    StableHlo.nullary main_c_4 (constantI S_ 32 1#32),
    StableHlo.nullary main_c_5 (constantI S_ 32 4294967295#32),
    StableHlo.TRef.unary (.of main_c_4 : StableHlo.TRef sig ⟨S_, .i32⟩) main_call3.v0 (broadcastInDim S4096 ![] bcast_S_S4096),
    StableHlo.TRef.unary (.of main_c_5 : StableHlo.TRef sig ⟨S_, .i32⟩) main_call3.v1 (broadcastInDim S4096 ![] bcast_S_S4096),
    StableHlo.TRef.ternary (.of main_v19 : StableHlo.TRef sig ⟨S4096, .i1⟩) main_call3.v0 main_call3.v1 main_call3.v2 select,
    StableHlo.unary main_v20 main_v21 (id : (⟨S4096, .i32⟩ : BufTy).Contents (Elt F) → (⟨S4096, .i32⟩ : BufTy).Contents (Elt F)),
    StableHlo.binary main_v15 main_v21 main_v22 (addi : (⟨S4096, .i32⟩ : BufTy).Contents (Elt F) → (⟨S4096, .i32⟩ : BufTy).Contents (Elt F) → (⟨S4096, .i32⟩ : BufTy).Contents (Elt F)) ]

/-- Operations 60 to 74 of the list. -/
abbrev part5 : List (HloOp τ sig (Elt F)) :=
  [ StableHlo.TRef.nullary main_call4.cst (constant S_ .f32 0xFF800000#32),
    StableHlo.TRef.binary (.of main_v14 : StableHlo.TRef sig ⟨S4096x4096, .f32⟩) main_call4.cst main_call4.v0 (fun x v => Host.reduce FloatOps.maximumf x v reducesTo_S4096x4096_S4096_d1 h_S_),
    StableHlo.TRef.nullary main_call4.cst_0 (constant S_ .f32 0xFF800000#32),
    StableHlo.TRef.unary main_call4.cst_0 main_call4.v1 (broadcastInDim S4096 ![] bcast_S_S4096),
    StableHlo.TRef.binary main_call4.v1 main_call4.v0 main_call4.v2 maximumf,
    StableHlo.TRef.unary main_call4.v2 main_call4.v3 (broadcastInDim S4096x1 ![0] bcast_S4096_S4096x1_0),
    StableHlo.TRef.unary main_call4.v3 main_call4.v4 (broadcastInDim S4096x4096 ![0, 1] bcast_S4096x1_S4096x4096_0_1),
    StableHlo.TRef.binary (.of main_v14 : StableHlo.TRef sig ⟨S4096x4096, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S4096x4096_S4096_d1 h_S_),
    StableHlo.TRef.unary main_call4.v7 main_call4.v8 (broadcastInDim S4096x1 ![0] bcast_S4096_S4096x1_0),
    StableHlo.TRef.unary main_call4.v8 main_call4.v9 Host.log,
    StableHlo.TRef.unary main_call4.v9 main_call4.v10 (broadcastInDim S4096x4096 ![0, 1] bcast_S4096x1_S4096x4096_0_1),
    StableHlo.TRef.binary main_call4.v5 main_call4.v10 main_call4.v11 subf ]

/-- Operations 75 to 97 of the list. -/
abbrev part6 : List (HloOp τ sig (Elt F)) :=
  [ StableHlo.unary main_v22 main_v24 (broadcastInDim S4096x1 ![0] bcast_S4096_S4096x1_0 : (⟨S4096, .i32⟩ : BufTy).Contents (Elt F) → (⟨S4096x1, .i32⟩ : BufTy).Contents (Elt F)),
    StableHlo.TRef.nullary main_call5.c (constantI S_ 32 0#32),
    StableHlo.TRef.unary main_call5.c main_call5.v0 (broadcastInDim S4096x1 ![] bcast_S_S4096x1),
    StableHlo.TRef.binary (.of main_v24 : StableHlo.TRef sig ⟨S4096x1, .i32⟩) main_call5.v0 main_call5.v1 (cmpi .slt),
    StableHlo.TRef.nullary main_call5.c_0 (constantI S_ 32 4096#32),
    StableHlo.TRef.unary main_call5.c_0 main_call5.v2 (broadcastInDim S4096x1 ![] bcast_S_S4096x1),
    StableHlo.TRef.binary (.of main_v24 : StableHlo.TRef sig ⟨S4096x1, .i32⟩) main_call5.v2 main_call5.v3 addi,
    StableHlo.TRef.ternary main_call5.v1 main_call5.v3 (.of main_v24 : StableHlo.TRef sig ⟨S4096x1, .i32⟩) main_call5.v4 select,
    StableHlo.TRef.reshape main_call5.v4 main_call5.v5 rfl shapeCasts_S4096x1_S4096x1x1,
    StableHlo.TRef.nullary main_call5.c_1 (constantI S1 32 4095#32),
    StableHlo.TRef.nullary main_call5.c_2 (constantI S_ 32 0#32),
    StableHlo.TRef.unary main_call5.c_2 main_call5.v6 (broadcastInDim S4096x1x1 ![] bcast_S_S4096x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x1x1 ![0, 1, 2] bcast_S1x1x1_S4096x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1x1_S4096x1_d2 h_S_),
    StableHlo.TRef.binary (.of main_v23 : StableHlo.TRef sig ⟨S4096x4096, .f32⟩) main_call5.v5 main_call5.v13 (fun x i => Host.gather gather_S4096x4096_S4096x1x1_S4096x1_n_1_0_0_1_2_11 x i),
    StableHlo.TRef.nullary main_call5.cst (constant S_ .f32 0x7FC00000#32),
    StableHlo.TRef.unary main_call5.cst main_call5.v14 (broadcastInDim S4096x1 ![] bcast_S_S4096x1),
    StableHlo.TRef.ternary main_call5.v12 main_call5.v13 main_call5.v14 main_call5.v15 select ]

/-- Operations 98 to 102 of the list. -/
abbrev part7 : List (HloOp τ sig (Elt F)) :=
  [ StableHlo.nullary main_cst_6 (constant S_ .f32 0x00000000#32),
    StableHlo.binary main_v25 main_cst_6 main_v26 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    StableHlo.nullary main_cst_7 (constant S_ .f32 0x45800000#32),
    StableHlo.binary main_v26 main_cst_7 main_v27 (Host.divf : (⟨S_, .f32⟩ : BufTy).Contents (Elt F) → (⟨S_, .f32⟩ : BufTy).Contents (Elt F) → (⟨S_, .f32⟩ : BufTy).Contents (Elt F)),
    StableHlo.unary main_v27 main_v28 (Host.negf : (⟨S_, .f32⟩ : BufTy).Contents (Elt F) → (⟨S_, .f32⟩ : BufTy).Contents (Elt F)) ]

/-- The list is its seven stretches, one after the other. -/
theorem ops_eq_parts : (ops : List (HloOp τ sig (Elt F))) = part1 ++ (part2 ++ (part3 ++ (part4 ++ (part5 ++ (part6 ++ part7))))) := rfl

set_option maxRecDepth 8192 in
set_option maxHeartbeats 4000000 in
/-- The entry function is that straight line: with the callees' definitions opened at their calls and the
    sequencing re-associated, both sides are the same chain of single steps. -/
theorem main_eq (c : Dev nD) : main (F := F) c = StableHlo.seq ops := by
  simp only [main, fn_norm.body, fn_where.body, fn_where_0.body, fn_remainder.body, fn_where_1.body,
    fn_log_softmax.body, fn_take_along_axis.body, StableHlo.seq, bind_assoc, pure_bind]

end Cert.ReferenceIdeal.RefRun

end
-- ==== Proof.RefPart1.lean ====
/-
  The first stretch of the reference's operations: the rows scaled to unit length.

  From any buffer contents W, after the ten operations (square, row sum, square root, clamp from below,
  divide) the buffer of the scaled rows holds the unit-row function of the input buffer's contents, and
  the input buffer is as it was.
-/
import proofs.«132228_j84499186581515_1_alg».proof.Proof.RefOps
import proofs.«132228_j84499186581515_1_alg».proof.Proof.RefTerm

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

attribute [local irreducible] Host.reduceAdd in
set_option maxRecDepth 8192 in
set_option maxHeartbeats 2000000 in
/-- After the first stretch the scaled-rows buffer holds the unit rows of the input. -/
theorem part1_v4 (W : Valuation τ sig (Elt F)) :
    after part1 W (Proc.devRef .tc main_v4) = RefTerm.unitRows (W (Proc.devRef .tc main_arg0)) := by
  after_results_simp
  rfl

set_option maxRecDepth 8192 in
set_option maxHeartbeats 2000000 in
/-- The first stretch does not write the input buffer. -/
theorem part1_arg0 (W : Valuation τ sig (Elt F)) :
    after part1 W (Proc.devRef .tc main_arg0) = W (Proc.devRef .tc main_arg0) := by
  after_results_simp

end Cert.ReferenceIdeal.RefRun

end
-- ==== Proof.RefPart2.lean ====
/-
  The second stretch: the similarity matrix, its diagonal masked, divided by the temperature.

  If the scaled-rows buffer holds the unit rows of x, then after these fifteen operations (transpose,
  product, the two index grids and their comparison, the mask constant and its broadcast, the selection,
  the division by one half) the scores buffer holds the score matrix of x.
-/
import proofs.«132228_j84499186581515_1_alg».proof.Proof.RefOps
import proofs.«132228_j84499186581515_1_alg».proof.Proof.RefTerm

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
/-- After the second stretch the scores buffer holds the masked, scaled similarity of x. -/
theorem part2_v14 (W : Valuation τ sig (Elt F)) (x : FVec F S4096x512 .f32)
    (h4 : W (Proc.devRef .tc main_v4) = RefTerm.unitRows x) :
    after part2 W (Proc.devRef .tc main_v14) = RefTerm.scores x := by
  after_results_simp
  rw [h4]
  rfl

set_option maxRecDepth 8192 in
set_option maxHeartbeats 2000000 in
/-- The second stretch does not write the input buffer. -/
theorem part2_arg0 (W : Valuation τ sig (Elt F)) :
    after part2 W (Proc.devRef .tc main_arg0) = W (Proc.devRef .tc main_arg0) := by
  after_results_simp

end Cert.ReferenceIdeal.RefRun

end
-- ==== Proof.RefPart3.lean ====
/-
  The third stretch: the row index and its remainder modulo two.

  These twenty-four operations read no earlier buffer: they produce the row index 0 … 4095 and, through the
  outlined remainder (divisor two, replaced by one were it zero; the sign correction that makes the
  remainder take the divisor's sign), the row index modulo two.  The scores and the input are not written.
-/
import proofs.«132228_j84499186581515_1_alg».proof.Proof.RefOps
import proofs.«132228_j84499186581515_1_alg».proof.Proof.RefTerm

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
/-- After the third stretch the remainder buffer holds the row index modulo two. -/
theorem part3_v17 (W : Valuation τ sig (Elt F)) :
    after part3 W (Proc.devRef .tc main_v17) = RefTerm.rem2 := by
  after_results_simp
  rfl

set_option maxRecDepth 8192 in
set_option maxHeartbeats 2000000 in
/-- After the third stretch the first index buffer holds the row index. -/
theorem part3_v15 (W : Valuation τ sig (Elt F)) :
    after part3 W (Proc.devRef .tc main_v15) = iotaInDim S4096 32 0 := by
  after_results_simp

set_option maxRecDepth 8192 in
set_option maxHeartbeats 2000000 in
/-- The third stretch does not write the scores buffer. -/
theorem part3_v14 (W : Valuation τ sig (Elt F)) :
    after part3 W (Proc.devRef .tc main_v14) = W (Proc.devRef .tc main_v14) := by
  after_results_simp

set_option maxRecDepth 8192 in
set_option maxHeartbeats 2000000 in
/-- The third stretch does not write the input buffer. -/
theorem part3_arg0 (W : Valuation τ sig (Elt F)) :
    after part3 W (Proc.devRef .tc main_arg0) = W (Proc.devRef .tc main_arg0) := by
  after_results_simp

end Cert.ReferenceIdeal.RefRun

end
-- ==== Proof.RefPart4.lean ====
/-
  The fourth stretch: each row's partner index.

  Where the row index is even the partner is the next row, where it is odd the previous one: the
  comparison of the remainder with zero selects between the constants 1 and -1, and the result is added to
  the row index.
-/
import proofs.«132228_j84499186581515_1_alg».proof.Proof.RefOps
import proofs.«132228_j84499186581515_1_alg».proof.Proof.RefTerm

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
/-- After the fourth stretch the partner buffer holds the partner indices. -/
theorem part4_v22 (W : Valuation τ sig (Elt F))
    (h17 : W (Proc.devRef .tc main_v17) = RefTerm.rem2)
    (h15 : W (Proc.devRef .tc main_v15) = iotaInDim S4096 32 0) :
    after part4 W (Proc.devRef .tc main_v22) = RefTerm.partner := by
  after_results_simp
  rw [h17, h15]
  rfl

set_option maxRecDepth 8192 in
set_option maxHeartbeats 2000000 in
/-- The fourth stretch does not write the scores buffer. -/
theorem part4_v14 (W : Valuation τ sig (Elt F)) :
    after part4 W (Proc.devRef .tc main_v14) = W (Proc.devRef .tc main_v14) := by
  after_results_simp

set_option maxRecDepth 8192 in
set_option maxHeartbeats 2000000 in
/-- The fourth stretch does not write the input buffer. -/
theorem part4_arg0 (W : Valuation τ sig (Elt F)) :
    after part4 W (Proc.devRef .tc main_arg0) = W (Proc.devRef .tc main_arg0) := by
  after_results_simp

end Cert.ReferenceIdeal.RefRun

end
-- ==== Proof.RefCast.lean ====
/-
  A cast along an equation between a type and itself is the identity, stated as a rewriting rule that
  leaves a proof step behind (so that a chain of such rewrites is checked step by step and not by
  comparing the two ends as wholes).
-/

namespace Cert.ReferenceIdeal.RefRun

universe u

/-- A cast along an equation between a type and itself is the identity. -/
theorem cast_self {α : Sort u} (h : α = α) (a : α) : cast h a = a :=
  Eq.trans (cast_eq h a) rfl

end Cert.ReferenceIdeal.RefRun
-- ==== Proof.RefPart5.lean ====
/-
  The fifth stretch: the row-wise log-softmax of the scores.

  Fifteen operations: each row's maximum, the entries shifted by it, their exponentials summed along the
  row, the logarithm of the sum, and the shifted entries minus that logarithm.
-/
import proofs.«132228_j84499186581515_1_alg».proof.Proof.RefOps
import proofs.«132228_j84499186581515_1_alg».proof.Proof.RefTerm
import proofs.«132228_j84499186581515_1_alg».proof.Proof.RefCast

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

attribute [local irreducible] Host.reduce Host.reduceAdd in
set_option maxRecDepth 8192 in
set_option maxHeartbeats 2000000 in
/-- After the fifth stretch the log-probability buffer holds the row-wise log-softmax of the scores buffer. -/
theorem part5_v23 (W : Valuation τ sig (Elt F)) (z : FVec F S4096x4096 .f32)
    (h14 : W (Proc.devRef .tc main_v14) = z) :
    after part5 W (Proc.devRef .tc main_v23) = RefTerm.logp z := by
  subst h14
  after_results_simp
  simp only [cast_cast, cast_self]
  rfl

set_option maxRecDepth 8192 in
set_option maxHeartbeats 2000000 in
/-- The fifth stretch does not write the partner buffer. -/
theorem part5_v22 (W : Valuation τ sig (Elt F)) :
    after part5 W (Proc.devRef .tc main_v22) = W (Proc.devRef .tc main_v22) := by
  after_results_simp

set_option maxRecDepth 8192 in
set_option maxHeartbeats 2000000 in
/-- The fifth stretch does not write the input buffer. -/
theorem part5_arg0 (W : Valuation τ sig (Elt F)) :
    after part5 W (Proc.devRef .tc main_arg0) = W (Proc.devRef .tc main_arg0) := by
  after_results_simp

end Cert.ReferenceIdeal.RefRun

end
-- ==== Proof.RefPart6.lean ====
/-
  The sixth stretch: one log-probability per row, at the partner's column.

  The partner indices become a column; negative indices are wrapped by the row length, the indices are
  checked against 0 … 4095, the entry at each row's index is gathered, and where the check fails the
  entry is replaced by a constant.
-/
import proofs.«132228_j84499186581515_1_alg».proof.Proof.RefOps
import proofs.«132228_j84499186581515_1_alg».proof.Proof.RefTerm
import proofs.«132228_j84499186581515_1_alg».proof.Proof.RefCast

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

attribute [local irreducible] Host.reduce Host.gather in
set_option maxRecDepth 8192 in
set_option maxHeartbeats 2000000 in
/-- After the sixth stretch the selection buffer holds, for each row, the log-probability at its partner. -/
theorem part6_v25 (W : Valuation τ sig (Elt F)) (lp : FVec F S4096x4096 .f32)
    (h23 : W (Proc.devRef .tc main_v23) = lp)
    (h22 : W (Proc.devRef .tc main_v22) = RefTerm.partner) :
    after part6 W (Proc.devRef .tc main_v25) = RefTerm.picked lp RefTerm.partnerCol := by
  subst h23
  after_results_simp
  rw [h22]
  simp only [cast_cast, cast_self]
  rfl

set_option maxRecDepth 8192 in
set_option maxHeartbeats 2000000 in
/-- The sixth stretch does not write the input buffer. -/
theorem part6_arg0 (W : Valuation τ sig (Elt F)) :
    after part6 W (Proc.devRef .tc main_arg0) = W (Proc.devRef .tc main_arg0) := by
  after_results_simp

end Cert.ReferenceIdeal.RefRun

end
-- ==== Proof.RefPart7.lean ====
/-
  The seventh stretch: the negated mean of the selected log-probabilities.
-/
import proofs.«132228_j84499186581515_1_alg».proof.Proof.RefOps
import proofs.«132228_j84499186581515_1_alg».proof.Proof.RefTerm

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

attribute [local irreducible] Host.reduceAdd in
set_option maxRecDepth 8192 in
set_option maxHeartbeats 2000000 in
/-- After the last stretch the result buffer holds the loss of x. -/
theorem part7_v28 (W : Valuation τ sig (Elt F)) (x : FVec F S4096x512 .f32)
    (h25 : W (Proc.devRef .tc main_v25) = RefTerm.picked (RefTerm.logp (RefTerm.scores x)) RefTerm.partnerCol) :
    after part7 W (Proc.devRef .tc main_v28) = RefTerm.result x := by
  after_results_simp
  rw [h25]
  rfl

set_option maxRecDepth 8192 in
set_option maxHeartbeats 2000000 in
/-- The last stretch does not write the input buffer. -/
theorem part7_arg0 (W : Valuation τ sig (Elt F)) :
    after part7 W (Proc.devRef .tc main_arg0) = W (Proc.devRef .tc main_arg0) := by
  after_results_simp

end Cert.ReferenceIdeal.RefRun

end
-- ==== Proof.RefRun.lean ====
/-
  The reference program's run, read back.

  The entry function is one straight line of 102 host operations (the list of the operations module), so
  every weakly fair execution terminates, and each buffer ends at the fold of the operations over its launch
  contents.  Reading that fold stretch by stretch — unit rows, scores, row index modulo two, partner
  index, log-softmax, selection, negated mean — the result buffer ends at the reference's value function
  of the input buffer's launch contents, and the input buffer ends as it began.
-/
import proofs.«132228_j84499186581515_1_alg».proof.Proof.RefOps
import proofs.«132228_j84499186581515_1_alg».proof.Proof.RefTerm
import proofs.«132228_j84499186581515_1_alg».proof.Proof.RefPart1
import proofs.«132228_j84499186581515_1_alg».proof.Proof.RefPart2
import proofs.«132228_j84499186581515_1_alg».proof.Proof.RefPart3
import proofs.«132228_j84499186581515_1_alg».proof.Proof.RefPart4
import proofs.«132228_j84499186581515_1_alg».proof.Proof.RefPart5
import proofs.«132228_j84499186581515_1_alg».proof.Proof.RefPart6
import proofs.«132228_j84499186581515_1_alg».proof.Proof.RefPart7
import proofs.«132228_j84499186581515_1_alg».proof.Defs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches only buffers of the device. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., binary_bufs_sub ..,
    nullary_bufs_sub .., nullary_bufs_sub .., nullary_bufs_sub .., unary_bufs_sub .., binary_bufs_sub .., binary_bufs_sub ..,
    nullary_bufs_sub .., unary_bufs_sub .., unary_bufs_sub .., ternary_bufs_sub .., nullary_bufs_sub .., unary_bufs_sub ..,
    binary_bufs_sub .., nullary_bufs_sub .., nullary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., nullary_bufs_sub ..,
    unary_bufs_sub .., unary_bufs_sub .., ternary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., nullary_bufs_sub .., binary_bufs_sub .., nullary_bufs_sub .., binary_bufs_sub .., unary_bufs_sub ..⟩

/-- A fold over two lists one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole list, stretch by stretch. -/
theorem after_ops (V : Valuation τ sig (Elt F)) :
    after ops V = after part7 (after part6 (after part5 (after part4 (after part3 (after part2 (after part1 V)))))) := by
  rw [ops_eq_parts]
  simp only [after_app]

/-- The fold's value at the result buffer is the reference's value function of the input buffer's contents. -/
theorem out_eq (V : Valuation τ sig (Elt F)) :
    after ops V (Proc.devRef .tc main_v28) = RefTerm.result (V (Proc.devRef .tc main_arg0)) := by
  rw [after_ops]
  have h4 := part1_v4 V
  have h14 := part2_v14 (after part1 V) _ h4
  have h14' := (part3_v14 (after part2 (after part1 V))).trans h14
  have h17 := part3_v17 (after part2 (after part1 V))
  have h15 := part3_v15 (after part2 (after part1 V))
  have h14'' := (part4_v14 (after part3 (after part2 (after part1 V)))).trans h14'
  have h22 := part4_v22 (after part3 (after part2 (after part1 V))) h17 h15
  have h23 := part5_v23 (after part4 (after part3 (after part2 (after part1 V)))) _ h14''
  have h22' := (part5_v22 (after part4 (after part3 (after part2 (after part1 V))))).trans h22
  have h25 := part6_v25 (after part5 (after part4 (after part3 (after part2 (after part1 V))))) _ h23 h22'
  exact part7_v28 _ _ h25

/-- The fold leaves the input buffer as it was. -/
theorem arg0_eq (V : Valuation τ sig (Elt F)) :
    after ops V (Proc.devRef .tc main_arg0) = V (Proc.devRef .tc main_arg0) := by
  rw [after_ops, part7_arg0, part6_arg0, part5_arg0, part4_arg0, part3_arg0, part2_arg0, part1_arg0]

/-- On every device, from any memory with zero counters: every weakly fair execution of the entry function
    terminates with the result buffer at the reference's value function of the input buffer's launch contents
    and the input buffer unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v28) = RefTerm.result (m ((c.tc : Thread nD τ).loc main_arg0))
      ∧ r.2.mem ((c.tc : Thread nD τ).loc main_arg0) = m ((c.tc : Thread nD τ).loc main_arg0)) :=
  (θ_run defs _ _).mono (fun _ h c => ⟨(h c main_v28).trans (out_eq (launchContents m c)),
      (h c main_arg0).trans (arg0_eq (launchContents m c))⟩)
    (run_seq scopedRefs_eq scopedSems_eq defs main (fun _ => ops) main_eq (fun _ => ops_sub) m ρ)

/-- The reference runs without fault and leaves its argument unchanged: the run with the result dropped. -/
theorem frame [Cert.Pre_finite_inputs.Facts] : Cert.frame_ReferenceIdeal :=
  fun m ρ _ => (θ_run defs _ _).mono (fun _ h c => (h c).2) (run m ρ)

end Cert.ReferenceIdeal.RefRun

end
-- ==== Proof.RefValueA.lean ====
/-
  The first stage of the reference read index by index: the sum of squares of a row, the row's clamped
  length, and the row divided by it.  Each is the like-named quantity of the specification.
-/
import proofs.«132228_j84499186581515_1_alg».proof.Proof.RefTerm
import proofs.«132228_j84499186581515_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.RefTerm
open Facts₀ Facts

variable [Facts]

/-- The input array as a function of its row and its column. -/
abbrev rows (X : FVec Ideal S4096x512 .f32) : Cert.NTXent.Rows := fun i d => X (ix2 i d)

/-- The sum of squares of row i. -/
theorem sumSq_apply (X : FVec Ideal S4096x512 .f32) (i : Fin 4096) :
    sumSq X (ix1 i) = ∑ d : Fin 512, X (ix2 i d) * X (ix2 i d) := by
  have h : S4096x512.Reduces [1] S4096 := by decide
  show Ideal.hostReduceAdd reducesTo_S4096x512_S4096_d1 (mulf X X) (Ideal.ofBits .f32 0x00000000#32) (ix1 i) = _
  rw [Ideal.hostReduceAdd_single reducesTo_S4096x512_S4096_d1 h, Ideal.ofBits_zero_f32, zero_add]
  refine Finset.sum_congr rfl fun d _ => ?_
  have hl : h.lift (ix1 i) d = ix2 i d := by
    funext c; apply Fin.ext
    match c with
    | ⟨0, _⟩ => rfl
    | ⟨1, _⟩ => rfl
  rw [hl]
  rfl

/-- The clamped length of row i. -/
theorem norms_apply (X : FVec Ideal S4096x512 .f32) (i : Fin 4096) :
    norms X (ix2 i 0) = Cert.NTXent.nrm (rows X) i := by
  show max (Ideal.sqrt (broadcastInDim S4096x1 ![0] bcast_S4096_S4096x1_0 (sumSq X) (ix2 i 0)))
      (Ideal.ofBits .f32 0x322BCC77#32) = _
  rw [broadcastInDim_apply _ _ _ _ (ix1 i) (fun a => match a with | ⟨0, _⟩ => rfl), sumSq_apply]
  rfl

/-- Row i divided by its clamped length, at column d. -/
theorem unitRows_apply (X : FVec Ideal S4096x512 .f32) (i : Fin 4096) (d : Fin 512) :
    unitRows X (ix2 i d) = Cert.NTXent.unit (rows X) i d := by
  show Ideal.div (X (ix2 i d))
      (broadcastInDim S4096x512 ![0, 1] bcast_S4096x1_S4096x512_0_1 (norms X) (ix2 i d)) = _
  rw [broadcastInDim_apply _ _ _ _ (ix2 i 0)
    (fun a => match a with | ⟨0, _⟩ => rfl | ⟨1, _⟩ => rfl), norms_apply]
  rfl

end Cert.ReferenceIdeal.RefValue

end
-- ==== Proof.RefValueB.lean ====
/-
  The second stage of the reference read index by index: the inner products of the scaled rows, the
  diagonal as a matrix of bits, and the similarity with its diagonal replaced by -∞ and everything
  divided by 1/2.
-/
import proofs.«132228_j84499186581515_1_alg».proof.Proof.RefValueA
import Idealize.ShloMosaic.Lib.StackMember
import Idealize.ShloMosaic.Lib.Affine

noncomputable section

namespace Cert.ReferenceIdeal.RefValue

open Idealize.ShloMosaic Idealize.ShloMosaic.ValueIdx
open Cert.ReferenceIdeal Cert.ReferenceIdeal.RefTerm
open Facts₀ Facts

variable [Facts]

/-- Two numbers below 2^32 have the same 32-bit word exactly when they are equal. -/
theorem ofNat32_inj {a b : Nat} (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The word 0xFF800000 is -∞. -/
theorem ofBits_negInf : Ideal.ofBits .f32 0xFF800000#32 = ⊥ := by simp [Ideal.ofBits, Ideal.ieee]

/-- The inner product of the scaled rows i and j. -/
theorem gram_apply (X : FVec Ideal S4096x512 .f32) (i j : Fin 4096) :
    gram X (ix2 i j) = Cert.NTXent.sim (rows X) i j := by
  have hd : dot_S4096x512_S512x4096_S4096x4096_1_0_0_1_n_n = DotDims.plain 4096 512 4096 := rfl
  show Host.dotGeneral dot_S4096x512_S512x4096_S4096x4096_1_0_0_1_n_n none (unitRows X)
      (transpose S512x4096 [1, 0] (unitRows X) transposes_S4096x512_S512x4096_1_0) (ix2 i j) = _
  rw [hd, StackMember.dotGeneral_plain_apply]
  unfold Cert.NTXent.sim
  refine Finset.sum_congr rfl fun d _ => ?_
  rw [transpose_ix2_apply, unitRows_apply, unitRows_apply]

/-- The diagonal bit at (i, j). -/
theorem diagMask_apply (i j : Fin 4096) : diagMask (ix2 i j) = if i = j then 1#1 else 0#1 := by
  show IntOp.cmpi .eq (IntOp.addi (BitVec.ofNat 32 i.val) 0#32) (BitVec.ofNat 32 j.val) = _
  have hi : i.val < 2 ^ 32 := by have := i.isLt; omega
  have hj : j.val < 2 ^ 32 := by have := j.isLt; omega
  have h0 : IntOp.addi (BitVec.ofNat 32 i.val) 0#32 = BitVec.ofNat 32 i.val := by
    show BitVec.ofNat 32 i.val + 0#32 = _
    exact BitVec.add_zero _
  rw [h0]
  by_cases h : i = j
  · rw [if_pos h, IntOp.cmpi_eq, h]
  · rw [if_neg h]
    apply eq_zero_of_ne_one
    rw [IntOp.cmpi_eq, ofNat32_inj hi hj]
    exact fun e => h (Fin.ext e)

/-- The masked, scaled similarity at (i, j). -/
theorem scores_apply (X : FVec Ideal S4096x512 .f32) (i j : Fin 4096) :
    scores X (ix2 i j) = Cert.NTXent.zR (rows X) i j := by
  show Ideal.div (Scalar.select (diagMask (ix2 i j)) (Ideal.ofBits .f32 0xFF800000#32) (gram X (ix2 i j)))
      (Ideal.ofBits .f32 0x3F000000#32) = _
  rw [diagMask_apply, gram_apply, ofBits_negInf]
  unfold Cert.NTXent.zR Cert.NTXent.half
  by_cases h : i = j
  · rw [if_pos h, if_pos h, select_one]
  · rw [if_neg h, if_neg h, select_zero]

end Cert.ReferenceIdeal.RefValue

end
-- ==== Proof.RefValueC.lean ====
/-
  The column of partner indices read index by index: the row index modulo 2, and the row index plus 1
  where that is 0, minus 1 where it is 1 — the word of the partner row of the specification.
-/
import proofs.«132228_j84499186581515_1_alg».proof.Proof.RefTerm
import proofs.«132228_j84499186581515_1_alg».proof.Proof.Spec
import Idealize.ShloMosaic.Lib.ValueIdx
import Idealize.ShloMosaic.Lib.Pipeline.Value
import Idealize.ShloMosaic.Lib.Affine

noncomputable section

namespace Cert.ReferenceIdeal.RefValue

open Idealize.ShloMosaic Idealize.ShloMosaic.ValueIdx
open Cert.ReferenceIdeal Cert.ReferenceIdeal.RefTerm
open Facts₀ Facts

variable [Facts]

/-- The remainder by 2 of a nonnegative word, as the program computes it (a truncated remainder, corrected
    where its sign differs from the divisor's): the word of the number's remainder by 2. -/
theorem rem2_word (a : BitVec 32) (ha : 2 * a.toNat < 2 ^ 32) :
    Scalar.select
        (IntOp.andi
          (IntOp.cmpi .ne (IntOp.cmpi .slt (IntOp.remsi .host a 2#32) 0#32) (IntOp.cmpi .slt (2#32 : BitVec 32) 0#32))
          (IntOp.cmpi .ne (IntOp.remsi .host a 2#32) 0#32))
        (IntOp.addi (IntOp.remsi .host a 2#32) 2#32) (IntOp.remsi .host a 2#32)
      = BitVec.ofNat 32 (a.toNat % 2) := by
  have hR : IntOp.remsi .host a 2#32 = BitVec.ofNat 32 (a.toNat % 2) := by
    apply BitVec.eq_of_toNat_eq
    rw [show (2#32 : BitVec 32) = BitVec.ofNat 32 2 from rfl,
      IntOp.toNat_remsi .host ha 2 (by omega) (by omega), BitVec.toNat_ofNat]
    omega
  rw [hR]
  rcases Nat.mod_two_eq_zero_or_one a.toNat with h | h <;> rw [h] <;> decide

/-- The divisor the program derives from the constant 2 (1 were it 0) is 2. -/
theorem divisor_two : Scalar.select (IntOp.cmpi .eq (2#32 : BitVec 32) 0#32) (1#32 : BitVec 32) 2#32 = 2#32 := by
  decide

/-- The row index modulo 2. -/
theorem rem2_apply (i : Fin 4096) : rem2 (ix1 i) = BitVec.ofNat 32 (i.val % 2) := by
  have hi : (BitVec.ofNat 32 i.val).toNat = i.val := by
    rw [BitVec.toNat_ofNat]; have := i.isLt; omega
  have key := rem2_word (BitVec.ofNat 32 i.val) (by rw [hi]; have := i.isLt; omega)
  rw [hi] at key
  rw [← key, ← divisor_two]
  rfl

/-- The row index plus 1 or minus 1 according to its remainder by 2, as words. -/
theorem partner_word (n : Nat) (hn : n < 4096) :
    IntOp.addi (BitVec.ofNat 32 n)
        (Scalar.select (IntOp.cmpi .eq (BitVec.ofNat 32 (n % 2)) 0#32) (1#32 : BitVec 32) 4294967295#32)
      = BitVec.ofNat 32 (if n % 2 = 0 then n + 1 else n - 1) := by
  rcases Nat.mod_two_eq_zero_or_one n with h | h
  · have hs : Scalar.select (IntOp.cmpi .eq (BitVec.ofNat 32 0) 0#32) (1#32 : BitVec 32) 4294967295#32 = 1#32 := by
      decide
    rw [h, if_pos rfl, hs]
    show BitVec.ofNat 32 n + BitVec.ofNat 32 1 = _
    rw [← BitVec.ofNat_add]
  · have hs : Scalar.select (IntOp.cmpi .eq (BitVec.ofNat 32 1) 0#32) (1#32 : BitVec 32) 4294967295#32
        = 4294967295#32 := by
      decide
    rw [h, if_neg (by omega), hs]
    obtain ⟨m, rfl⟩ : ∃ m, n = m + 1 := ⟨n - 1, by omega⟩
    show BitVec.ofNat 32 (m + 1) + 4294967295#32 = BitVec.ofNat 32 (m + 1 - 1)
    rw [Nat.add_sub_cancel, BitVec.ofNat_add, BitVec.add_assoc,
      show (BitVec.ofNat 32 1 + 4294967295#32 : BitVec 32) = 0#32 from by decide, BitVec.add_zero]

/-- The partner row's number. -/
theorem tgt_val (i : Fin 4096) :
    (Cert.NTXent.tgt i).val = if i.val % 2 = 0 then i.val + 1 else i.val - 1 := by
  unfold Cert.NTXent.tgt
  split <;> rfl

/-- The partner of row i, as a word. -/
theorem partner_apply (i : Fin 4096) : partner (ix1 i) = BitVec.ofNat 32 (Cert.NTXent.tgt i).val := by
  show IntOp.addi (BitVec.ofNat 32 i.val)
      (Scalar.select (IntOp.cmpi .eq (rem2 (ix1 i)) 0#32) (1#32 : BitVec 32) 4294967295#32) = _
  rw [rem2_apply, partner_word i.val i.isLt, tgt_val]

/-- The partner of row i, in the column. -/
theorem partnerCol_apply (i : Fin 4096) :
    partnerCol (ix2 i 0) = BitVec.ofNat 32 (Cert.NTXent.tgt i).val := by
  show broadcastInDim S4096x1 ![0] bcast_S4096_S4096x1_0 partner (ix2 i 0) = _
  rw [broadcastInDim_apply _ _ _ _ (ix1 i) (fun a => match a with | ⟨0, _⟩ => rfl), partner_apply]

end Cert.ReferenceIdeal.RefValue

end
-- ==== Proof.RefValueD.lean ====
/-
  The row-wise log-softmax read index by index, for any matrix z: each row's maximum is the supremum of
  its entries, the shifted entry is the entry minus that, the normaliser is the logarithm of the sum of
  the exponentials of the shifted entries, and the result is the shifted entry minus the normaliser.
-/
import proofs.«132228_j84499186581515_1_alg».proof.Proof.RefTerm
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx
open Cert.ReferenceIdeal Cert.ReferenceIdeal.RefTerm
open Facts₀ Facts

variable [Facts]

/-- The word 0xFF800000 is -∞. -/
theorem ofBits_negInf' : Ideal.ofBits .f32 0xFF800000#32 = ⊥ := by simp [Ideal.ofBits, Ideal.ieee]

/-- Row i of z with the summed coordinate put back at column j. -/
theorem lift_row (h : S4096x4096.Reduces [1] S4096) (i : Fin 4096) (j : Fin 4096) :
    h.lift (ix1 i) j = ix2 i j := by
  funext c; apply Fin.ext
  match c with
  | ⟨0, _⟩ => rfl
  | ⟨1, _⟩ => rfl

/-- The supremum of row i of z. -/
abbrev rowSup (z : FVec Ideal S4096x4096 .f32) (i : Fin 4096) : EReal :=
  Finset.univ.sup fun j : Fin 4096 => z (ix2 i j)

/-- Folding the maximum from -∞ over a finite set is the supremum over it. -/
theorem fold_maximumf_eq_sup {ι : Type} [DecidableEq ι] (s : Finset ι) (f : ι → EReal) :
    s.fold (FloatOps.maximumf (F := Ideal) (φ := .f32)) (⊥ : EReal) f = s.sup f := by
  induction s using Finset.induction_on with
  | empty => rw [Finset.fold_empty, Finset.sup_empty]
  | insert a s ha ih =>
    rw [Finset.fold_insert ha, Finset.sup_insert, ih]
    rfl

/-- Each row's maximum is the supremum of its entries. -/
theorem rowMax_apply (z : FVec Ideal S4096x4096 .f32) (i : Fin 4096) : rowMax z (ix1 i) = rowSup z i := by
  have h : S4096x4096.Reduces [1] S4096 := by decide
  unfold rowMax
  dsimp only
  rw [maximumf_apply,
    Host.reduce_eq_fold_single (FloatOps.maximumf (F := Ideal) (φ := .f32)) z _ reducesTo_S4096x4096_S4096_d1 h h_S_
      (ix1 i)]
  have e1 : broadcastInDim S4096 ![] bcast_S_S4096 (constant (F := Ideal) S_ .f32 0xFF800000#32) (ix1 i)
      = (⊥ : EReal) := ofBits_negInf'
  have e2 : constant (F := Ideal) S_ .f32 0xFF800000#32 (Shape.Idx.first h_S_) = (⊥ : EReal) := ofBits_negInf'
  rw [e1, e2, max_eq_right bot_le]
  have hf : (z ∘ h.lift (ix1 i)) = fun j : Fin 4096 => z (ix2 i j) := by
    funext j
    exact congrArg z (lift_row h i j)
  rw [hf]
  exact fold_maximumf_eq_sup _ _

/-! Pointwise host operations read at an index, on variables. -/

theorem host_log_apply {s : Shape} {φ : FTy} (v : FVec Ideal s φ) (k : s.Idx) : Host.log v k = Ideal.log (v k) := rfl
theorem host_exp_apply {s : Shape} {φ : FTy} (v : FVec Ideal s φ) (k : s.Idx) : Host.exp v k = Ideal.exp (v k) := rfl
theorem host_reduceAdd_eq {s t u : Shape} {φ : FTy} {axes : List (Fin s.rank)} (x : FVec Ideal s φ)
    (c : u.Idx → Ideal φ) (h' : s.ReducesTo axes t) (hu : 0 < u.numel) :
    Host.reduceAdd x c h' hu = Ideal.hostReduceAdd h' x (c (Shape.Idx.first hu)) := rfl

/-- The shifted entry. -/
theorem shifted_apply (z : FVec Ideal S4096x4096 .f32) (i j : Fin 4096) :
    shifted z (ix2 i j) = z (ix2 i j) - rowSup z i := by
  unfold shifted
  dsimp only
  rw [subf_apply,
    broadcastInDim_apply _ _ _ _ (ix2 i 0) (fun a => match a with | ⟨0, _⟩ => rfl | ⟨1, _⟩ => rfl),
    broadcastInDim_apply _ _ _ _ (ix1 i) (fun a => match a with | ⟨0, _⟩ => rfl), rowMax_apply]

/-- The normaliser of row i. -/
theorem logSumExp_apply (z : FVec Ideal S4096x4096 .f32) (i : Fin 4096) :
    logSumExp z (ix2 i 0) = Ideal.log (∑ j : Fin 4096, Ideal.exp (z (ix2 i j) - rowSup z i)) := by
  have h : S4096x4096.Reduces [1] S4096 := by decide
  unfold logSumExp
  dsimp only
  rw [host_log_apply, broadcastInDim_apply _ _ _ _ (ix1 i) (fun a => match a with | ⟨0, _⟩ => rfl),
    host_reduceAdd_eq, Ideal.hostReduceAdd_single reducesTo_S4096x4096_S4096_d1 h]
  have e0 : constant (F := Ideal) S_ .f32 0x00000000#32 (Shape.Idx.first h_S_) = (0 : EReal) :=
    Ideal.ofBits_zero_f32
  rw [e0, zero_add]
  refine congrArg Ideal.log (Finset.sum_congr rfl fun j _ => ?_)
  refine (congrArg (Host.exp (shifted z)) (lift_row h i j)).trans ?_
  rw [host_exp_apply]
  exact congrArg Ideal.exp (shifted_apply z i j)

/-- The log-softmax of row i at column j. -/
theorem logp_apply (z : FVec Ideal S4096x4096 .f32) (i j : Fin 4096) :
    logp z (ix2 i j) = (z (ix2 i j) - rowSup z i)
      - Ideal.log (∑ j' : Fin 4096, Ideal.exp (z (ix2 i j') - rowSup z i)) := by
  unfold logp
  dsimp only
  rw [subf_apply,
    broadcastInDim_apply _ _ _ _ (ix2 i 0) (fun a => match a with | ⟨0, _⟩ => rfl | ⟨1, _⟩ => rfl),
    shifted_apply, logSumExp_apply]

end Cert.ReferenceIdeal.RefValue

end
-- ==== Proof.RefValueE.lean ====
/-
  The selection of one entry per row, read index by index.  Where the index column holds, at row i, the
  word of a number k below 4096: the wrap of negative indices leaves it alone, the in-bounds test passes,
  the gather reads entry (i, k) of the matrix, and the select keeps the gathered value.
-/
import proofs.«132228_j84499186581515_1_alg».proof.Proof.RefTerm
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Idealize.ShloMosaic Idealize.ShloMosaic.ValueIdx
open Cert.ReferenceIdeal Cert.ReferenceIdeal.RefTerm
open Facts₀ Facts

variable [Facts]

/-- The word of a number below 4096 reads, signed, as that number. -/
theorem toInt_ofNat_small (k : Nat) (hk : k < 4096) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- The wrap of negative indices leaves the word of a number below 4096 alone. -/
theorem wrapped_apply (idx : IVec S4096x1 32) (i : Fin 4096) (k : Nat) (hk : k < 4096)
    (h : idx (ix2 i 0) = BitVec.ofNat 32 k) : wrapped idx (ix3 i 0 0) = BitVec.ofNat 32 k := by
  unfold wrapped
  dsimp only
  have hpos : (S4096x1.rowMajor (ix2 i 0)).val = (S4096x1x1.rowMajor (ix3 i 0 0)).val := by
    rw [Shape.rowMajor_val_two, Shape.rowMajor_val_three]
    show i.val * 1 + 0 = (i.val * 1 + 0) * 1 + 0
    omega
  rw [shapeCast_apply _ _ _ (ix2 i 0) hpos]
  show Scalar.select (IntOp.cmpi .slt (idx (ix2 i 0)) 0#32) (IntOp.addi (idx (ix2 i 0)) 4096#32) (idx (ix2 i 0)) = _
  rw [h]
  have hc : IntOp.cmpi .slt (BitVec.ofNat 32 k) 0#32 = 0#1 := by
    apply eq_zero_of_ne_one
    rw [IntOp.cmpi_slt, toInt_ofNat_small k hk, show (0#32 : BitVec 32).toInt = 0 from by decide]
    omega
  rw [hc, select_zero]

/-- Folding "and" from 1 over a finite set of bits that are all 1 gives 1. -/
theorem fold_andi_one {ι : Type} [DecidableEq ι] (s : Finset ι) (f : ι → BitVec 1) (hf : ∀ n ∈ s, f n = 1#1) :
    s.fold (IntOp.andi (w := 1)) 1#1 f = 1#1 := by
  induction s using Finset.induction_on with
  | empty => rw [Finset.fold_empty]
  | insert a s ha ih =>
    rw [Finset.fold_insert ha, ih (fun n hn => hf n (Finset.mem_insert_of_mem hn)),
      hf a (Finset.mem_insert_self a s)]
    decide

/-- Row i of the 4096×1×1 array with the reduced coordinate put back. -/
theorem lift_wrapped (h : S4096x1x1.Reduces [2] S4096x1) (i : Fin 4096) (n : Fin 1) :
    h.lift (ix2 i 0) n = ix3 i 0 0 := by
  funext c; apply Fin.ext
  match c with
  | ⟨0, _⟩ => rfl
  | ⟨1, _⟩ => rfl
  | ⟨2, _⟩ =>
    show n.val = 0
    omega

/-- The in-bounds test passes at row i. -/
theorem inBounds_apply (idx : IVec S4096x1 32) (i : Fin 4096) (k : Nat) (hk : k < 4096)
    (hw : wrapped idx (ix3 i 0 0) = BitVec.ofNat 32 k) : inBounds idx (ix2 i 0) = 1#1 := by
  have h : S4096x1x1.Reduces [2] S4096x1 := by decide
  unfold inBounds
  dsimp only
  rw [Host.reduce_eq_fold_single (IntOp.andi (w := 1)) _ _ reducesTo_S4096x1x1_S4096x1_d2 h h_S_ (ix2 i 0)]
  have e1 : constantI S_ 1 1#1 (Shape.Idx.first h_S_) = 1#1 := rfl
  rw [e1]
  refine fold_andi_one _ _ fun n _ => ?_
  have hl := lift_wrapped h i n
  show andi _ _ (h.lift (ix2 i 0) n) = 1#1
  rw [hl]
  show IntOp.andi (IntOp.cmpi .sge (wrapped idx (ix3 i 0 0)) 0#32)
      (IntOp.cmpi .sle (wrapped idx (ix3 i 0 0)) 4095#32) = 1#1
  rw [hw, IntOp.andi_eq_one, IntOp.cmpi_sge, IntOp.cmpi_sle, toInt_ofNat_small k hk,
    show (0#32 : BitVec 32).toInt = 0 from by decide, show (4095#32 : BitVec 32).toInt = 4095 from by decide]
  constructor <;> omega

/-- The gather reads, at row i, the matrix at (i, k). -/
theorem gather_row_apply {α : Type} (lp : S4096x4096.Idx → α) (w : IVec S4096x1x1 32) (i : Fin 4096)
    (k : Nat) (hk : k < 4096) (hw : w (ix3 i 0 0) = BitVec.ofNat 32 k) :
    Host.gather gather_S4096x4096_S4096x1x1_S4096x1_n_1_0_0_1_2_11 lp w (ix2 i 0) = lp (ix2 i ⟨k, hk⟩) := by
  unfold Host.gather
  congr 1
  funext a
  refine Fin.ext ?_
  match a with
  | ⟨0, _⟩ =>
    show GatherDims.start _ (ix2 i 0) w _ + GatherDims.batchCoord _ (ix2 i 0) _ + GatherDims.offCoord _ (ix2 i 0) _ = i.val
    rw [GatherDims.start_batching _ _ _ _ (List.mem_singleton.mpr rfl),
      GatherDims.offCoord_eq_zero _ _ _
        (fun hm => ((GatherDims.mem_sKept _ _).mp hm).2 (List.mem_singleton.mpr rfl))]
    simp only [Nat.zero_add, Nat.add_zero]
    rfl
  | ⟨1, _⟩ =>
    show GatherDims.start _ (ix2 i 0) w _ + GatherDims.batchCoord _ (ix2 i 0) _ + GatherDims.offCoord _ (ix2 i 0) _ = k
    rw [GatherDims.batchCoord_eq_zero _ _ _ (fun hm => absurd (List.mem_singleton.mp hm) (Fin.ne_of_val_ne (Nat.succ_ne_zero 0))),
      GatherDims.offCoord_eq_zero _ _ _
        (fun hm => ((GatherDims.mem_sKept _ _).mp hm).1 (List.mem_singleton.mpr rfl))]
    simp only [Nat.add_zero]
    unfold GatherDims.start
    rw [dif_pos (show (⟨1, by decide⟩ : Fin S4096x4096.rank)
      ∈ gather_S4096x4096_S4096x1x1_S4096x1_n_1_0_0_1_2_11.startIndexMap from List.mem_singleton.mpr rfl)]
    have hsi : gather_S4096x4096_S4096x1x1_S4096x1_n_1_0_0_1_2_11.siIdx (ix2 i 0)
        ⟨List.idxOf (⟨1, by decide⟩ : Fin S4096x4096.rank)
          gather_S4096x4096_S4096x1x1_S4096x1_n_1_0_0_1_2_11.startIndexMap,
          List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hw, toInt_ofNat_small k hk, Int.toNat_natCast]
    show min k (4096 - 1) = k
    omega

/-- The selected entry of row i is the matrix at (i, k). -/
theorem picked_apply (lp : FVec Ideal S4096x4096 .f32) (idx : IVec S4096x1 32) (i : Fin 4096) (k : Nat)
    (hk : k < 4096) (h : idx (ix2 i 0) = BitVec.ofNat 32 k) :
    picked lp idx (ix2 i 0) = lp (ix2 i ⟨k, hk⟩) := by
  have hw := wrapped_apply idx i k hk h
  unfold picked
  dsimp only
  rw [select_apply, inBounds_apply idx i k hk hw, select_one, gather_row_apply lp (wrapped idx) i k hk hw]

end Cert.ReferenceIdeal.RefValue

end
-- ==== Proof.RefValue.lean ====
/-
  The reference's value is the second arrangement of the loss: the selected log-probability of row i is
  the specification's row log-probability, their sum from zero over the 4096×1 column is the sum over the
  rows, and the result is its negated quotient by 4096.
-/
import proofs.«132228_j84499186581515_1_alg».proof.Proof.RefValueB
import proofs.«132228_j84499186581515_1_alg».proof.Proof.RefValueC
import proofs.«132228_j84499186581515_1_alg».proof.Proof.RefValueD
import proofs.«132228_j84499186581515_1_alg».proof.Proof.RefValueE

noncomputable section

namespace Cert.ReferenceIdeal.RefValue

open Idealize.ShloMosaic Idealize.ShloMosaic.ValueIdx
open Cert.ReferenceIdeal Cert.ReferenceIdeal.RefTerm
open Facts₀ Facts

variable [Facts]

theorem host_divf_apply {s : Shape} {φ : FTy} (a b : FVec Ideal s φ) (k : s.Idx) :
    Host.divf a b k = Ideal.div (a k) (b k) := rfl
theorem host_negf_apply {s : Shape} {φ : FTy} (a : FVec Ideal s φ) (k : s.Idx) : Host.negf a k = -(a k) := rfl

/-- Row a of the masked, scaled similarity is the specification's row of scores. -/
theorem scores_row (X : FVec Ideal S4096x512 .f32) (a : Fin 4096) :
    (fun j : Fin 4096 => scores X (ix2 a j)) = Cert.NTXent.zR (rows X) a :=
  funext fun j => scores_apply X a j

/-- The selected log-probability of row a is the specification's. -/
theorem picked_row (X : FVec Ideal S4096x512 .f32) (a : Fin 4096) :
    picked (logp (scores X)) partnerCol (ix2 a 0) = Cert.NTXent.rowR (rows X) a := by
  rw [picked_apply _ _ a (Cert.NTXent.tgt a).val (Cert.NTXent.tgt a).isLt (partnerCol_apply a)]
  show logp (scores X) (ix2 a (Cert.NTXent.tgt a)) = _
  rw [logp_apply]
  unfold Cert.NTXent.rowR
  dsimp only [rowSup]
  rw [scores_row, scores_apply]
  have hs : (∑ j' : Fin 4096, Ideal.exp (scores X (ix2 a j') - Finset.univ.sup (Cert.NTXent.zR (rows X) a)))
      = ∑ j : Fin 4096, Ideal.exp (Cert.NTXent.zR (rows X) a j - Finset.univ.sup (Cert.NTXent.zR (rows X) a)) :=
    Finset.sum_congr rfl fun j _ => by rw [scores_apply]
  rw [hs]

/-- The value the reference computes is the loss in its second arrangement. -/
theorem result_eq (X : FVec Ideal S4096x512 .f32) :
    RefTerm.result (F := Ideal) X ix0 = Cert.NTXent.lossR (fun i d => X (ix2 i d)) := by
  unfold RefTerm.result
  dsimp only
  rw [host_negf_apply, host_divf_apply, host_reduceAdd_eq,
    Ideal.hostReduceAdd_total reducesTo_S4096x1_S_d0_1 (fun b => b.elim0)]
  have e0 : constant (F := Ideal) S_ .f32 0x00000000#32 (Shape.Idx.first h_S_) = (0 : EReal) :=
    Ideal.ofBits_zero_f32
  have ec : constant (F := Ideal) S_ .f32 0x45800000#32 ix0 = Cert.NTXent.count := rfl
  rw [e0, ec, zero_add, sum_idx2]
  unfold Cert.NTXent.lossR
  refine congrArg (fun s => -(Ideal.div s Cert.NTXent.count)) ?_
  refine Finset.sum_congr rfl fun a _ => ?_
  rw [Fin.sum_univ_one]
  exact picked_row X a

end Cert.ReferenceIdeal.RefValue

end
-- ==== Proof.lean ====
/-
  The five claims about the contrastive-loss kernel and its reference.

  The kernel evaluates, for 4096 rows of 512 numbers, the mean over the rows of the negated log-softmax of each row's
  doubled cosine similarities (the row's own entry excluded) at the row's partner; it visits the 4096 x 4096 scores
  as an 8 x 8 grid of tiles, keeping per row a running maximum, a running sum of exponentials relative to it and the
  partner's score, and closes each row at the last tile of its block row; the host then averages the column.  The
  reference forms all scores at once, takes the row-wise log-softmax, picks the partner column and averages.

  Frames: each program runs to its end without fault and leaves its argument unchanged — the kernel's by the launch of
  its one region followed by the host operations (the input array split between its two windows), at the word-level
  instance and at the extended reals; the reference's by its operations' run.  The ideal pass's one rewrite reads the
  large negative mask constant as -∞.  At the extended reals both programs end with the same number: the tile-by-tile
  evaluation ends at the whole-row maximum and sum (every score is real except the masked diagonal, every tile has a
  real score), the two arrangements of the row loss agree on reals, and the inputs are finite by the precondition.
-/
import proofs.«132228_j84499186581515_1_alg».proof.Defs
import proofs.«132228_j84499186581515_1_alg».proof.Proof.Gen.Kernel
import proofs.«132228_j84499186581515_1_alg».proof.Proof.Gen.KernelIdeal
import proofs.«132228_j84499186581515_1_alg».proof.Proof.Gen.ReferenceIdeal
import proofs.«132228_j84499186581515_1_alg».proof.Proof.Gen.Pre_finite_inputs
import proofs.«132228_j84499186581515_1_alg».proof.Proof.BHyp
import proofs.«132228_j84499186581515_1_alg».proof.Proof.BTail
import proofs.«132228_j84499186581515_1_alg».proof.Proof.KHyp
import proofs.«132228_j84499186581515_1_alg».proof.Proof.KTail
import proofs.«132228_j84499186581515_1_alg».proof.Proof.KEqs
import proofs.«132228_j84499186581515_1_alg».proof.Proof.Glue
import proofs.«132228_j84499186581515_1_alg».proof.Proof.RefRun
import proofs.«132228_j84499186581515_1_alg».proof.Proof.RefValue
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The word-level kernel program runs and leaves its argument unchanged. -/
theorem frame_k : Cert.frame_Kernel := fun m ρ _ => Cert.Kernel.Launch.frame_of ρ (Cert.Kernel.Body.hyp m)

/-- The idealized kernel program runs and leaves its argument unchanged. -/
theorem frame_ki : Cert.frame_KernelIdeal := fun m ρ _ => Cert.KernelIdeal.Launch.frame_of ρ (Cert.KernelIdeal.Body.hyp m)

/-- The idealized reference runs and leaves its argument unchanged. -/
theorem frame_ri : Cert.frame_ReferenceIdeal := Cert.ReferenceIdeal.RefRun.frame

/-- The mask constant is named -∞, and that is what the name denotes at the extended reals. -/
theorem preserves : Cert.preserves_Kernel_KernelIdeal :=
  IdealRules.named_const.statement Cert.KernelIdeal.κ "neg_big" .f32 0xFF333332#32 ⊥ rfl

/-- At the extended reals the kernel's mean of the written-back column and the reference's negated mean of the picked
    log-probabilities are one number, from memories agreeing on the finite input. -/
theorem algebraic : Cert.algebraic_KernelIdeal_ReferenceIdeal := by
  intro m ρ m' ρ' hpre hagree
  refine ⟨_, Cert.KernelIdeal.Launch.run_result ρ (Cert.KernelIdeal.Body.hyp m), ?_⟩
  refine (θ_run Cert.ReferenceIdeal.defs _ _).mono (fun _ h c => ⟨(h c).1.trans ?_, (h c).2⟩)
    (Cert.ReferenceIdeal.RefRun.run (F := Ideal) m' ρ')
  rw [hagree c]
  have hx : ∀ i d, ∃ r : ℝ, Cert.KernelIdeal.KValue.X m c i d = (r : EReal) := fun i d =>
    Cert.NTXent.finite_of_pre_rows (m ((c.tc : Thread Cert.KernelIdeal.nD Cert.KernelIdeal.τ).loc Cert.KernelIdeal.main_arg0)) (hpre c) i d
  rw [Cert.KernelIdeal.KValue.final_arr Cert.KernelIdeal.KValue.payEqs (Cert.KernelIdeal.KValue.pieceEqs m c) hx]
  exact (Cert.Glue.kernel_eq_reference (m ((c.tc : Thread Cert.KernelIdeal.nD Cert.KernelIdeal.τ).loc Cert.KernelIdeal.main_arg0)) (hpre c)
    (Cert.KernelIdeal.KValue.G m c) (fun i => Cert.KernelIdeal.KValue.G_apply i) (Cert.ReferenceIdeal.RefValue.result_eq _)).symm

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
